-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x512 : Shape := ⟨2, ![128, 512]⟩
abbrev S512 : Shape := ⟨1, ![512]⟩
abbrev S512x64 : Shape := ⟨2, ![512, 64]⟩
abbrev S64 : Shape := ⟨1, ![64]⟩
abbrev S64x16 : Shape := ⟨2, ![64, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S16x2 .f32) (main_arg10 : FVec F S2 .f32) (main_v33 : IVec S_ 1) : IVec S_ 1 :=
  let main_v34 : FVec F S16x2 .f32 := Host.absf main_arg9
  let main_cst_12 : FVec F S_ .f32 := constant S_ .f32 0x7F800000#32
  let main_v35 : FVec F S16x2 .f32 := broadcastInDim S16x2 ![] bcast_S_S16x2 main_cst_12
  let main_v36 : IVec S16x2 1 := cmpf .olt main_v34 main_v35
  let main_c_13 : IVec S_ 1 := constantI S_ 1 1#1
  let main_v37 : IVec S_ 1 := (fun x v => Host.reduce IntOp.andi x v reducesTo_S16x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S64 .f32) (main_arg7 : FVec F S64x16 .f32) (main_arg8 : FVec F S16 .f32) (main_arg9 : FVec F S16x2 .f32) (main_arg10 : FVec F S2 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg7
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S800000 32) (main_arg2 : IVec S800000 32) (main_arg3 : FVec F S128x512 .f32) (main_arg4 : FVec F S512 .f32) (main_arg5 : FVec F S512x64 .f32) (main_arg6 : FVec F S64 .f32) (main_arg7 : FVec F S64x16 .f32) (main_arg8 : FVec F S16 .f32) (main_arg9 : FVec F S16x2 .f32) (main_arg10 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x512 .f32 := Host.absf main_arg3
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x64 .f32 := Host.absf main_arg5
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S800000 : Shape := ⟨1, ![800000]⟩
abbrev S128x512 : Shape := ⟨2, ![128, 512]⟩
abbrev S512 : Shape := ⟨1, ![512]⟩
abbrev S512x64 : Shape := ⟨2, ![512, 64]⟩
abbrev S64 : Shape := ⟨1, ![64]⟩
abbrev S64x16 : Shape := ⟨2, ![64, 16]⟩
abbrev S16 : Shape := ⟨1, ![16]⟩
abbrev S16x2 : Shape := ⟨2, ![16, 2]⟩
abbrev S2 : Shape := ⟨1, ![2]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x512 : Shape := ⟨2, ![1, 512]⟩
abbrev S50000x512 : Shape := ⟨2, ![50000, 512]⟩
abbrev S2000x128 : Shape := ⟨2, ![2000, 128]⟩
abbrev S2000x1 : Shape := ⟨2, ![2000, 1]⟩
abbrev S2000x512 : Shape := ⟨2, ![2000, 512]⟩
abbrev S50000x64 : Shape := ⟨2, ![50000, 64]⟩
abbrev S2000x64 : Shape := ⟨2, ![2000, 64]⟩
abbrev S800000x64 : Shape := ⟨2, ![800000, 64]⟩
abbrev S1x64 : Shape := ⟨2, ![1, 64]⟩
abbrev S50000x16 : Shape := ⟨2, ![50000, 16]⟩
abbrev S2000x16 : Shape := ⟨2, ![2000, 16]⟩
abbrev S800000x16 : Shape := ⟨2, ![800000, 16]⟩
abbrev S1x16 : Shape := ⟨2, ![1, 16]⟩
abbrev S50000x2 : Shape := ⟨2, ![50000, 2]⟩
abbrev S2000x2 : Shape := ⟨2, ![2000, 2]⟩
abbrev S800000x2 : Shape := ⟨2, ![800000, 2]⟩
abbrev S1x2 : Shape := ⟨2, ![1, 2]⟩

abbrev nBuf : Space → Nat
  | .hbm => 114
  | .vmem => 50
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x512, .f32⟩
  | .hbm, ⟨4, _⟩ => ⟨S512, .f32⟩
  | .hbm, ⟨5, _⟩ => ⟨S512x64, .f32⟩
  | .hbm, ⟨6, _⟩ => ⟨S64, .f32⟩
  | .hbm, ⟨7, _⟩ => ⟨S64x16, .f32⟩
  | .hbm, ⟨8, _⟩ => ⟨S16, .f32⟩
  | .hbm, ⟨9, _⟩ => ⟨S16x2, .f32⟩
  | .hbm, ⟨10, _⟩ => ⟨S2, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .i1⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000, .f32⟩
  | .hbm, ⟨39, _⟩ => ⟨S_, .f32⟩
  | .hbm, ⟨40, _⟩ => ⟨S_, .f32⟩
  | .hbm, ⟨41, _⟩ => ⟨S50000, .f32⟩
  | .hbm, ⟨42, _⟩ => ⟨S50000, .f32⟩
  | .hbm, ⟨43, _⟩ => ⟨S50000x1, .f32⟩
  | .hbm, ⟨44, _⟩ => ⟨S50000x1, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S128x512, .bf16⟩
  | .hbm, ⟨61, _⟩ => ⟨S1x512, .f32⟩
  | .hbm, ⟨62, _⟩ => ⟨S50000x512, .f32⟩
  | .hbm, ⟨63, _⟩ => ⟨S512x64, .bf16⟩
  | .hbm, ⟨64, _⟩ => ⟨S50000x64, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x64, .f32⟩
  | .hbm, ⟨74, _⟩ => ⟨S_, .f32⟩
  | .hbm, ⟨75, _⟩ => ⟨S50000x64, .f32⟩
  | .hbm, ⟨76, _⟩ => ⟨S800000x1, .i32⟩
  | .hbm, ⟨77, _⟩ => ⟨S50000x64, .f32⟩
  | .hbm, ⟨78, _⟩ => ⟨S1x64, .f32⟩
  | .hbm, ⟨79, _⟩ => ⟨S50000x64, .f32⟩
  | .hbm, ⟨80, _⟩ => ⟨S64x16, .bf16⟩
  | .hbm, ⟨81, _⟩ => ⟨S50000x16, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x16, .f32⟩
  | .hbm, ⟨91, _⟩ => ⟨S_, .f32⟩
  | .hbm, ⟨92, _⟩ => ⟨S50000x16, .f32⟩
  | .hbm, ⟨93, _⟩ => ⟨S800000x1, .i32⟩
  | .hbm, ⟨94, _⟩ => ⟨S50000x16, .f32⟩
  | .hbm, ⟨95, _⟩ => ⟨S1x16, .f32⟩
  | .hbm, ⟨96, _⟩ => ⟨S50000x16, .f32⟩
  | .hbm, ⟨97, _⟩ => ⟨S16x2, .bf16⟩
  | .hbm, ⟨98, _⟩ => ⟨S50000x2, .f32⟩
  | .hbm, ⟨99, _⟩ => ⟨S_, .i32⟩
  | .hbm, ⟨100, _⟩ => ⟨S800000, .i32⟩
  | .hbm, ⟨101, _⟩ => ⟨S800000, .i1⟩
  | .hbm, ⟨102, _⟩ => ⟨S_, .i32⟩
  | .hbm, ⟨103, _⟩ => ⟨S800000, .i32⟩
  | .hbm, ⟨104, _⟩ => ⟨S800000, .i32⟩
  | .hbm, ⟨105, _⟩ => ⟨S800000, .i32⟩
  | .hbm, ⟨106, _⟩ => ⟨S800000x1, .i32⟩
  | .hbm, ⟨107, _⟩ => ⟨S800000x2, .f32⟩
  | .hbm, ⟨108, _⟩ => ⟨S_, .f32⟩
  | .hbm, ⟨109, _⟩ => ⟨S50000x2, .f32⟩
  | .hbm, ⟨110, _⟩ => ⟨S800000x1, .i32⟩
  | .hbm, ⟨111, _⟩ => ⟨S50000x2, .f32⟩
  | .hbm, ⟨112, _⟩ => ⟨S1x2, .f32⟩
  | .hbm, ⟨113, _⟩ => ⟨S50000x2, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x512, .bf16⟩
  | .local _ .vmem, ⟨5, _⟩ => ⟨S1x512, .f32⟩
  | .local _ .vmem, ⟨6, _⟩ => ⟨S2000x512, .f32⟩
  | .local _ .vmem, ⟨7, _⟩ => ⟨S2000x512, .f32⟩
  | .local _ .vmem, ⟨8, _⟩ => ⟨S2000x512, .f32⟩
  | .local _ .vmem, ⟨9, _⟩ => ⟨S2000x512, .f32⟩
  | .local _ .vmem, ⟨10, _⟩ => ⟨S512x64, .bf16⟩
  | .local _ .vmem, ⟨11, _⟩ => ⟨S2000x1, .f32⟩
  | .local _ .vmem, ⟨12, _⟩ => ⟨S2000x1, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x1, .f32⟩
  | .local _ .vmem, ⟨18, _⟩ => ⟨S2000x1, .f32⟩
  | .local _ .vmem, ⟨19, _⟩ => ⟨S1x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S64x16, .bf16⟩
  | .local _ .vmem, ⟨25, _⟩ => ⟨S2000x1, .f32⟩
  | .local _ .vmem, ⟨26, _⟩ => ⟨S2000x1, .f32⟩
  | .local _ .vmem, ⟨27, _⟩ => ⟨S2000x16, .f32⟩
  | .local _ .vmem, ⟨28, _⟩ => ⟨S2000x16, .f32⟩
  | .local _ .vmem, ⟨29, _⟩ => ⟨S2000x16, .f32⟩
  | .local _ .vmem, ⟨30, _⟩ => ⟨S2000x16, .f32⟩
  | .local _ .vmem, ⟨31, _⟩ => ⟨S2000x1, .f32⟩
  | .local _ .vmem, ⟨32, _⟩ => ⟨S2000x1, .f32⟩
  | .local _ .vmem, ⟨33, _⟩ => ⟨S1x16, .f32⟩
  | .local _ .vmem, ⟨34, _⟩ => ⟨S2000x16, .f32⟩
  | .local _ .vmem, ⟨35, _⟩ => ⟨S2000x16, .f32⟩
  | .local _ .vmem, ⟨36, _⟩ => ⟨S2000x16, .f32⟩
  | .local _ .vmem, ⟨37, _⟩ => ⟨S2000x16, .f32⟩
  | .local _ .vmem, ⟨38, _⟩ => ⟨S16x2, .bf16⟩
  | .local _ .vmem, ⟨39, _⟩ => ⟨S2000x1, .f32⟩
  | .local _ .vmem, ⟨40, _⟩ => ⟨S2000x1, .f32⟩
  | .local _ .vmem, ⟨41, _⟩ => ⟨S2000x2, .f32⟩
  | .local _ .vmem, ⟨42, _⟩ => ⟨S2000x2, .f32⟩
  | .local _ .vmem, ⟨43, _⟩ => ⟨S2000x2, .f32⟩
  | .local _ .vmem, ⟨44, _⟩ => ⟨S2000x2, .f32⟩
  | .local _ .vmem, ⟨45, _⟩ => ⟨S2000x1, .f32⟩
  | .local _ .vmem, ⟨46, _⟩ => ⟨S2000x1, .f32⟩
  | .local _ .vmem, ⟨47, _⟩ => ⟨S1x2, .f32⟩
  | .local _ .vmem, ⟨48, _⟩ => ⟨S2000x2, .f32⟩
  | .local _ .vmem, ⟨49, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v12 : Ref sig .tc := ⟨.hbm, 31, rfl⟩
abbrev main_cst_5 : Ref sig .tc := ⟨.hbm, 32, rfl⟩
abbrev main_v13 : Ref sig .tc := ⟨.hbm, 33, rfl⟩
abbrev main_v14 : Ref sig .tc := ⟨.hbm, 34, rfl⟩
abbrev main_cst_6 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_7 : Ref sig .tc := ⟨.hbm, 39, rfl⟩
abbrev main_call1_v0 : Ref sig .tc := ⟨.hbm, 40, rfl⟩
abbrev main_call1_v1 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c : Ref sig .tc := ⟨.hbm, 47, rfl⟩
abbrev main_v23 : Ref sig .tc := ⟨.hbm, 48, rfl⟩
abbrev main_v24 : Ref sig .tc := ⟨.hbm, 49, rfl⟩
abbrev main_c_8 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_9 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_10 : Ref sig .tc := ⟨.hbm, 65, rfl⟩
abbrev main_v38 : Ref sig .tc := ⟨.hbm, 66, rfl⟩
abbrev main_v39 : Ref sig .tc := ⟨.hbm, 67, rfl⟩
abbrev main_c_11 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_12 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_13 : Ref sig .tc := ⟨.hbm, 82, rfl⟩
abbrev main_v52 : Ref sig .tc := ⟨.hbm, 83, rfl⟩
abbrev main_v53 : Ref sig .tc := ⟨.hbm, 84, rfl⟩
abbrev main_c_14 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_15 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_16 : Ref sig .tc := ⟨.hbm, 99, rfl⟩
abbrev main_v66 : Ref sig .tc := ⟨.hbm, 100, rfl⟩
abbrev main_v67 : Ref sig .tc := ⟨.hbm, 101, rfl⟩
abbrev main_c_17 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_18 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg2_1 : Ref sig .tc := ⟨.vmem, 40, rfl⟩
abbrev cc5_stg3_0 : Ref sig .tc := ⟨.vmem, 41, rfl⟩
abbrev cc5_stg3_1 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg1_1 : Ref sig .tc := ⟨.vmem, 46, rfl⟩
abbrev cc6_stg2_0 : Ref sig .tc := ⟨.vmem, 47, rfl⟩
abbrev cc6_stg3_0 : Ref sig .tc := ⟨.vmem, 48, rfl⟩
abbrev cc6_stg3_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem2_1 : DmaSem sig := 40
abbrev cc5_sem3_0 : DmaSem sig := 41
abbrev cc5_sem3_1 : DmaSem sig := 42
abbrev cc6_sem0_0 : DmaSem sig := 43
abbrev cc6_sem0_1 : DmaSem sig := 44
abbrev cc6_sem1_0 : DmaSem sig := 45
abbrev cc6_sem1_1 : DmaSem sig := 46
abbrev cc6_sem2_0 : DmaSem sig := 47
abbrev cc6_sem3_0 : DmaSem sig := 48
abbrev cc6_sem3_1 : DmaSem sig := 49

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x16 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S16x2 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x2 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x2 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x2 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bitsLt_bf16_f32 : FTy.bits .bf16 < FTy.bits .f32
  shapeCasts_S512_S1x512 : S512.ShapeCasts S1x512
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  broadcasts_S2000x1_S2000x16 : S2000x1.Broadcasts S2000x16
  inb_S2000x16_S2000x16_0_0 : ∀ a, (![0, 0] : Fin 2 → Nat) a + S2000x16.size a ≤ S2000x16.size a
  h_S2000x16 : 0 < S2000x16.numel
  bcast_S_S50000x16 : S_.BroadcastsInDim S50000x16 (![] : Fin 0 → Fin S50000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x2_S16x2_0_0 : ∀ a, (![0, 0] : Fin 2 → Nat) a + S16x2.size a ≤ S16x2.size a
  h_S16x2 : 0 < S16x2.numel
  shapeCasts_S16x2_S16x2 : S16x2.ShapeCasts S16x2
  broadcasts_S2000x1_S2000x2 : S2000x1.Broadcasts S2000x2
  inb_S2000x2_S2000x2_0_0 : ∀ a, (![0, 0] : Fin 2 → Nat) a + S2000x2.size a ≤ S2000x2.size a
  h_S2000x2 : 0 < S2000x2.numel
  bcast_S_S50000x2 : S_.BroadcastsInDim S50000x2 (![] : Fin 0 → Fin S50000x2.rank)
  shapeCasts_S2_S1x2 : S2.ShapeCasts S1x2
  shapeCasts_S2000x2_S2000x2 : S2000x2.ShapeCasts S2000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x512_S2000x512_1_0_0_1_n_n_wf : DotDims.WF S2000x128 S128x512 S2000x512 [1] [0] [0] [1] [] []
  dot_S2000x512_S512x64_S2000x64_1_0_0_1_n_n_wf : DotDims.WF S2000x512 S512x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x16_S2000x16_1_0_0_1_n_n_wf : DotDims.WF S2000x64 S64x16 S2000x16 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  dot_S2000x16_S16x2_S2000x2_1_0_0_1_n_n_wf : DotDims.WF S2000x16 S16x2 S2000x2 [1] [0] [0] [1] [] []
  gather_S50000x2_S800000x1_S800000x2_1_0_n_n_0_1_12_wf : GatherDims.WF S50000x2 S800000x1 S800000x2 [1] [0] [] [0] [] 1 ![1, 2]
  scatter_S50000x2_S800000x1_S800000x2_1_0_0_1_wf : ScatterDims.WF S50000x2 S800000x1 S800000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .bf16 = 32 ∨ (Rect.block (s := S128x512) S128x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x512.size a ≤ S50000x512.size a
  hwx0_4 : ∀ i : grid0.Coords, EltTy.bits .f32 = 32 ∨ (Rect.block (s := S50000x512) S2000x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x64.size a ≤ S512x64.size a
  hwx1_1 : ∀ i : grid1.Coords, EltTy.bits .bf16 = 32 ∨ (Rect.block (s := S512x64) S512x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x16.size a ≤ S64x16.size a
  hwx3_1 : ∀ i : grid3.Coords, EltTy.bits .bf16 = 32 ∨ (Rect.block (s := S64x16) S64x16.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x16.size a ≤ S50000x16.size a
  hwx3_3 : ∀ i : grid3.Coords, EltTy.bits .f32 = 32 ∨ (Rect.block (s := S50000x16) S2000x16.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x16.size a ≤ S50000x16.size a
  hwx4_0 : ∀ i : grid4.Coords, EltTy.bits .f32 = 32 ∨ (Rect.block (s := S50000x16) S2000x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .f32 = 32 ∨ (Rect.block (s := S50000x1) S2000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x16.size a ≤ S1x16.size a
  hwx4_2 : ∀ i : grid4.Coords, EltTy.bits .f32 = 32 ∨ (Rect.block (s := S1x16) S1x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x16.size a ≤ S50000x16.size a
  hwx4_3 : ∀ i : grid4.Coords, EltTy.bits .f32 = 32 ∨ (Rect.block (s := S50000x16) S2000x16.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x16.size a ≤ S50000x16.size a
  hwx5_0 : ∀ i : grid5.Coords, EltTy.bits .f32 = 32 ∨ (Rect.block (s := S50000x16) S2000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S16x2.size a ≤ S16x2.size a
  hwx5_1 : ∀ i : grid5.Coords, EltTy.bits .bf16 = 32 ∨ (Rect.block (s := S16x2) S16x2.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x2.size a ≤ S50000x2.size a
  hwx5_3 : ∀ i : grid5.Coords, EltTy.bits .f32 = 32 ∨ (Rect.block (s := S50000x2) S2000x2.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x2.size a ≤ S50000x2.size a
  hwx6_0 : ∀ i : grid6.Coords, EltTy.bits .f32 = 32 ∨ (Rect.block (s := S50000x2) S2000x2.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S50000x1.size a
  hwx6_1 : ∀ i : grid6.Coords, EltTy.bits .f32 = 32 ∨ (Rect.block (s := S50000x1) S2000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x2.size a ≤ S1x2.size a
  hwx6_2 : ∀ i : grid6.Coords, EltTy.bits .f32 = 32 ∨ (Rect.block (s := S1x2) S1x2.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x2.size a ≤ S50000x2.size a
  hwx6_3 : ∀ i : grid6.Coords, EltTy.bits .f32 = 32 ∨ (Rect.block (s := S50000x2) S2000x2.size (cc6_transform_3 i) (hinb6_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x16_S2000x16_1_0_0_1_n_n : DotDims S2000x64 S64x16 S2000x16 where
  lhsContracting := [1]
  rhsContracting := [0]
  lhsNonContracting := [0]
  rhsNonContracting := [1]
  lhsBatch := []
  rhsBatch := []
  wf := dot_S2000x64_S64x16_S2000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def dot_S2000x16_S16x2_S2000x2_1_0_0_1_n_n : DotDims S2000x16 S16x2 S2000x2 where
  lhsContracting := [1]
  rhsContracting := [0]
  lhsNonContracting := [0]
  rhsNonContracting := [1]
  lhsBatch := []
  rhsBatch := []
  wf := dot_S2000x16_S16x2_S2000x2_1_0_0_1_n_n_wf
def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def scatter_S50000x2_S800000x1_S800000x2_1_0_0_1 : ScatterDims S50000x2 S800000x1 S800000x2 where
  updateWindowDims := [1]
  insertedWindowDims := [0]
  scatterDimsToOperandDims := [0]
  indexVectorDim := 1
  wf := scatter_S50000x2_S800000x1_S800000x2_1_0_0_1_wf

abbrev win0_0 : Pipeline.Window sig grid0 :=
  Pipeline.Window.ofSpec (Memref.whole main_v32) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S2000x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v35) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S512x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v47) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v49) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S64x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v19) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v51) S2000x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v61) S2000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v20) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v62) S1x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S2000x16.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v63) S2000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v64) S16x2.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v19) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v65) S2000x2.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v75) S2000x2.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v20) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v76) S1x2.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v77) S2000x2.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S800000 : Shape := ⟨1, ![800000]⟩
abbrev S128x512 : Shape := ⟨2, ![128, 512]⟩
abbrev S512 : Shape := ⟨1, ![512]⟩
abbrev S512x64 : Shape := ⟨2, ![512, 64]⟩
abbrev S64 : Shape := ⟨1, ![64]⟩
abbrev S64x16 : Shape := ⟨2, ![64, 16]⟩
abbrev S16 : Shape := ⟨1, ![16]⟩
abbrev S16x2 : Shape := ⟨2, ![16, 2]⟩
abbrev S2 : Shape := ⟨1, ![2]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x512 : Shape := ⟨2, ![50000, 512]⟩
abbrev S1x512 : Shape := ⟨2, ![1, 512]⟩
abbrev S50000x64 : Shape := ⟨2, ![50000, 64]⟩
abbrev S800000x64 : Shape := ⟨2, ![800000, 64]⟩
abbrev S1x64 : Shape := ⟨2, ![1, 64]⟩
abbrev S50000x16 : Shape := ⟨2, ![50000, 16]⟩
abbrev S800000x16 : Shape := ⟨2, ![800000, 16]⟩
abbrev S1x16 : Shape := ⟨2, ![1, 16]⟩
abbrev S50000x2 : Shape := ⟨2, ![50000, 2]⟩
abbrev S800000x2 : Shape := ⟨2, ![800000, 2]⟩
abbrev S1x2 : Shape := ⟨2, ![1, 2]⟩

abbrev nBuf : Space → Nat
  | .hbm => 147
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x512, .f32⟩
  | 4 => ⟨S512, .f32⟩
  | 5 => ⟨S512x64, .f32⟩
  | 6 => ⟨S64, .f32⟩
  | 7 => ⟨S64x16, .f32⟩
  | 8 => ⟨S16, .f32⟩
  | 9 => ⟨S16x2, .f32⟩
  | 10 => ⟨S2, .f32⟩
  | 11 => ⟨S_, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S_, .f32⟩
  | 33 => ⟨S50000, .f32⟩
  | 34 => ⟨S50000, .i1⟩
  | 35 => ⟨S_, .f32⟩
  | 36 => ⟨S50000, .f32⟩
  | 37 => ⟨S50000, .f32⟩
  | 38 => ⟨S50000, .f32⟩
  | 39 => ⟨S_, .f32⟩
  | 40 => ⟨S_, .f32⟩
  | 41 => ⟨S50000, .f32⟩
  | 42 => ⟨S50000, .f32⟩
  | 43 => ⟨S50000x1, .f32⟩
  | 44 => ⟨S50000x128, .f32⟩
  | 45 => ⟨S50000x128, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S_, .f32⟩
  | 56 => ⟨S50000x128, .f32⟩
  | 57 => ⟨S800000x1, .i32⟩
  | 58 => ⟨S50000x128, .f32⟩
  | 59 => ⟨S50000x1, .f32⟩
  | 60 => ⟨S50000x128, .f32⟩
  | 61 => ⟨S50000x128, .f32⟩
  | 62 => ⟨S50000x512, .f32⟩
  | 63 => ⟨S1x512, .f32⟩
  | 64 => ⟨S50000x512, .f32⟩
  | 65 => ⟨S50000x512, .f32⟩
  | 66 => ⟨S_, .f32⟩
  | 67 => ⟨S50000x512, .f32⟩
  | 68 => ⟨S50000x512, .f32⟩
  | 69 => ⟨S50000x64, .f32⟩
  | 70 => ⟨S50000x1, .f32⟩
  | 71 => ⟨S50000x64, .f32⟩
  | 72 => ⟨S50000x64, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x64, .f32⟩
  | 82 => ⟨S_, .f32⟩
  | 83 => ⟨S50000x64, .f32⟩
  | 84 => ⟨S800000x1, .i32⟩
  | 85 => ⟨S50000x64, .f32⟩
  | 86 => ⟨S50000x1, .f32⟩
  | 87 => ⟨S50000x64, .f32⟩
  | 88 => ⟨S50000x64, .f32⟩
  | 89 => ⟨S1x64, .f32⟩
  | 90 => ⟨S50000x64, .f32⟩
  | 91 => ⟨S50000x64, .f32⟩
  | 92 => ⟨S_, .f32⟩
  | 93 => ⟨S50000x64, .f32⟩
  | 94 => ⟨S50000x64, .f32⟩
  | 95 => ⟨S50000x16, .f32⟩
  | 96 => ⟨S50000x1, .f32⟩
  | 97 => ⟨S50000x16, .f32⟩
  | 98 => ⟨S50000x16, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x16, .f32⟩
  | 108 => ⟨S_, .f32⟩
  | 109 => ⟨S50000x16, .f32⟩
  | 110 => ⟨S800000x1, .i32⟩
  | 111 => ⟨S50000x16, .f32⟩
  | 112 => ⟨S50000x1, .f32⟩
  | 113 => ⟨S50000x16, .f32⟩
  | 114 => ⟨S50000x16, .f32⟩
  | 115 => ⟨S1x16, .f32⟩
  | 116 => ⟨S50000x16, .f32⟩
  | 117 => ⟨S50000x16, .f32⟩
  | 118 => ⟨S_, .f32⟩
  | 119 => ⟨S50000x16, .f32⟩
  | 120 => ⟨S50000x16, .f32⟩
  | 121 => ⟨S50000x2, .f32⟩
  | 122 => ⟨S50000x1, .f32⟩
  | 123 => ⟨S50000x2, .f32⟩
  | 124 => ⟨S50000x2, .f32⟩
  | 125 => ⟨S_, .i32⟩
  | 126 => ⟨S800000, .i32⟩
  | 127 => ⟨S800000, .i1⟩
  | _ => ⟨S50000x128, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x2, .f32⟩
  | 6 => ⟨S_, .f32⟩
  | 7 => ⟨S50000x2, .f32⟩
  | 8 => ⟨S800000x1, .i32⟩
  | 9 => ⟨S50000x2, .f32⟩
  | 10 => ⟨S50000x1, .f32⟩
  | 11 => ⟨S50000x2, .f32⟩
  | 12 => ⟨S50000x2, .f32⟩
  | 13 => ⟨S1x2, .f32⟩
  | 14 => ⟨S50000x2, .f32⟩
  | 15 => ⟨S50000x2, .f32⟩
  | 16 => ⟨S_, .f32⟩
  | 17 => ⟨S50000x2, .f32⟩
  | 18 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v12 : Ref sig .tc := ⟨.hbm, 31, rfl⟩
abbrev main_cst_5 : Ref sig .tc := ⟨.hbm, 32, rfl⟩
abbrev main_v13 : Ref sig .tc := ⟨.hbm, 33, rfl⟩
abbrev main_v14 : Ref sig .tc := ⟨.hbm, 34, rfl⟩
abbrev main_cst_6 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_7 : Ref sig .tc := ⟨.hbm, 39, rfl⟩
abbrev main_call1_v0 : Ref sig .tc := ⟨.hbm, 40, rfl⟩
abbrev main_call1_v1 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c : Ref sig .tc := ⟨.hbm, 46, rfl⟩
abbrev main_v22 : Ref sig .tc := ⟨.hbm, 47, rfl⟩
abbrev main_v23 : Ref sig .tc := ⟨.hbm, 48, rfl⟩
abbrev main_c_8 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_9 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_call2_cst : Ref sig .tc := ⟨.hbm, 66, rfl⟩
abbrev main_call2_v0 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_10 : Ref sig .tc := ⟨.hbm, 73, rfl⟩
abbrev main_v44 : Ref sig .tc := ⟨.hbm, 74, rfl⟩
abbrev main_v45 : Ref sig .tc := ⟨.hbm, 75, rfl⟩
abbrev main_c_11 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_12 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_call3_cst : Ref sig .tc := ⟨.hbm, 92, rfl⟩
abbrev main_call3_v0 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_c_13 : Ref sig .tc := ⟨.hbm, 99, rfl⟩
abbrev main_v65 : Ref sig .tc := ⟨.hbm, 100, rfl⟩
abbrev main_v66 : Ref sig .tc := ⟨.hbm, 101, rfl⟩
abbrev main_c_14 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_15 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_call4_cst : Ref sig .tc := ⟨.hbm, 118, rfl⟩
abbrev main_call4_v0 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_c_16 : Ref sig .tc := ⟨.hbm, 125, rfl⟩
abbrev main_v86 : Ref sig .tc := ⟨.hbm, 126, rfl⟩
abbrev main_v87 : Ref sig .tc := ⟨.hbm, 127, rfl⟩
abbrev main_c_17 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_18 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_call5_cst : Ref sig .tc := ⟨.hbm, 144, rfl⟩
abbrev main_call5_v0 : Ref sig .tc := ⟨.hbm, 145, rfl⟩
abbrev main_v102 : Ref sig .tc := ⟨.hbm, 146, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S50000x1_S50000x16_0_1 : S50000x1.BroadcastsInDim S50000x16 (![0, 1] : Fin 2 → Fin S50000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S50000x1_S50000x2_0_1 : S50000x1.BroadcastsInDim S50000x2 (![0, 1] : Fin 2 → Fin S50000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x512_S50000x512_1_0_0_1_n_n_wf : DotDims.WF S50000x128 S128x512 S50000x512 [1] [0] [0] [1] [] []
  dot_S50000x512_S512x64_S50000x64_1_0_0_1_n_n_wf : DotDims.WF S50000x512 S512x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x16_S50000x16_1_0_0_1_n_n_wf : DotDims.WF S50000x64 S64x16 S50000x16 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  dot_S50000x16_S16x2_S50000x2_1_0_0_1_n_n_wf : DotDims.WF S50000x16 S16x2 S50000x2 [1] [0] [0] [1] [] []
  gather_S50000x2_S800000x1_S800000x2_1_0_n_n_0_1_12_wf : GatherDims.WF S50000x2 S800000x1 S800000x2 [1] [0] [] [0] [] 1 ![1, 2]
  scatter_S50000x2_S800000x1_S800000x2_1_0_0_1_wf : ScatterDims.WF S50000x2 S800000x1 S800000x2 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf
def dot_S50000x512_S512x64_S50000x64_1_0_0_1_n_n : DotDims S50000x512 S512x64 S50000x64 where
  lhsContracting := [1]
  rhsContracting := [0]
  lhsNonContracting := [0]
  rhsNonContracting := [1]
  lhsBatch := []
  rhsBatch := []
  wf := dot_S50000x512_S512x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def dot_S50000x16_S16x2_S50000x2_1_0_0_1_n_n : DotDims S50000x16 S16x2 S50000x2 where
  lhsContracting := [1]
  rhsContracting := [0]
  lhsNonContracting := [0]
  rhsNonContracting := [1]
  lhsBatch := []
  rhsBatch := []
  wf := dot_S50000x16_S16x2_S50000x2_1_0_0_1_n_n_wf
def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def scatter_S50000x2_S800000x1_S800000x2_1_0_0_1 : ScatterDims S50000x2 S800000x1 S800000x2 where
  updateWindowDims := [1]
  insertedWindowDims := [0]
  scatterDimsToOperandDims := [0]
  indexVectorDim := 1
  wf := scatter_S50000x2_S800000x1_S800000x2_1_0_0_1_wf

class Facts : Prop extends Facts₀ where

variable [Facts]
-- ==== Proof.LibPlainDot.lean ====
/-
  A plain matrix product over the extended reals, read at one entry.

  For an M×K matrix `l` and a K×N matrix `r` the product contracted over `l`'s columns and `r`'s rows has, at
  entry (p, q), the value ∑ₖ l(p,k)·r(k,q). This holds both for the vector unit's product into a zero accumulator
  and for the host's `dot_general`, so the two are the same sum; the only work is to identify the contraction's
  one-axis index type with `Fin K` and the operand indices with (p,k) and (k,q).
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : ℕ} {φ₁ φ₂ : FTy}

/-- The sum over the contraction index of a plain M×K by K×N product is the sum over `k : Fin K` of the left operand
    at (row, k) times the right operand at (k, column). -/
theorem plain_sum (l : FVec Ideal ⟨2, ![M, K]⟩ φ₁) (r : FVec Ideal ⟨2, ![K, N]⟩ φ₂) (p : Fin M) (q : Fin N) :
    (∑ c : (DotDims.plain M K N).contr.Idx,
        l ((DotDims.plain M K N).lhsIdx (ix2 p q) c) * r ((DotDims.plain M K N).rhsIdx (ix2 p q) c))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- The vector unit's product into the zero accumulator, for any dimension record that is the plain one. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  exact (Ideal.matmul_constant_zero_apply _ prec l r (ix2 p q)).trans (plain_sum l r p q)

/-- The host's `dot_general`, for any dimension record that is the plain one. -/
theorem dotGeneral_apply (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  exact (Ideal.dotGeneral_apply _ prec sched l r (ix2 p q)).trans (plain_sum l r p q)

end Cert.LibPlainDot

end
-- ==== Proof.LibColumn.lean ====
/-
  A column of row statistics, read at an entry.

  A reduction along the rows of a matrix that keeps the reduced axis (a sum with `keepdims`) produces one value per
  row, stored as an a×1 column, and is then spread over the b columns of an a×b matrix. Reading the results at an
  entry: the a×1 column made from an a-vector has, at (i, 0), the vector's entry i; and the a×b matrix made from an
  a×1 column has, at (i, j), the column's entry (i, 0), whatever j. Both facts are arithmetic on row-major positions.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.LibBiasRow.lean ====
/-
  The bias of a layer, a length-N vector, as the 1×N row both programs add to every row of a product.  The kernel reshapes
  the vector to 1×N on the host and the body broadcasts that row over its block; the reference broadcasts the vector to
  1×N and then to M×N.  Either way entry (p, q) of what is added is entry q of the vector.
-/
import Idealize.ShloMosaic.PureOps.Ideal.Laws
import Idealize.ShloMosaic.Lib.ValueIdx
import Idealize.ShloMosaic.Lib.Pipeline.Value
import Idealize.ShloMosaic.Lib.KernelVsHost

noncomputable section

namespace Cert.Row

open Idealize.ShloMosaic Idealize.ShloMosaic.ValueIdx

variable {M N : ℕ}

/-- A length-N vector as a 1×N row. -/
def rowOf (b : FVec Ideal ⟨1, ![N]⟩ .f32) : FVec Ideal ⟨2, ![1, N]⟩ .f32 := fun j => b (ix1 (j 1))

/-- The reshape of the vector to 1×N is that row. -/
theorem shapeCast_row (b : FVec Ideal ⟨1, ![N]⟩ .f32) (h : (⟨1, ![N]⟩ : Shape).ShapeCasts ⟨2, ![1, N]⟩) :
    shapeCast ⟨2, ![1, N]⟩ b h = rowOf b := by
  funext j
  refine (shapeCast_addUnit_apply ![N] b h j).trans ?_
  unfold rowOf
  exact congrArg b (funext fun a => by match a with | ⟨0, _⟩ => rfl)

/-- The two broadcasts of the vector, to 1×N and then to M×N, read at (p, q): the row at (0, q). -/
theorem bcast_row_apply (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = rowOf b (ix2 0 q) := by
  rw [broadcastInDim_oneRow_apply]
  refine broadcastInDim_apply ![1] h1 b (ix2 (0 : Fin 1) q) (ix1 q) (fun a => ?_)
  match a with
  | ⟨0, _⟩ =>
    show q.val = if N = 1 then 0 else q.val
    split_ifs with hN
    · have := q.isLt; omega
    · rfl

end Cert.Row

end
-- ==== Proof.LibLayerForms.lean ====
/-
  The three dense steps of a graph-convolution layer, each read at one entry of its result.

  Every layer of the network multiplies the rows of a node-feature matrix by a per-node factor (an R×1 column), and
  either projects first and scales after, or scales first and projects after, then adds a bias row and clips at zero.
  Written entry by entry over the extended reals, for an R-row matrix:

    scaleDotBiasRelu a c W b (p,q) = max (Σₖ (a(p,k)·c(p,0))·W(k,q) + b(0,q)) 0
    dotScale         h W c   (p,q) = (Σₖ h(p,k)·W(k,q))·c(p,0)
    scaleBiasRelu    a c b   (p,q) = max (a(p,q)·c(p,0) + b(0,q)) 0

  Each is reached two ways: by the vector unit's operations on a block (shape casts that change nothing, a column or
  a row spread over the block, a change of float format that is the identity on the extended reals, a matrix product
  into a zero accumulator), and by the host's operations on the whole matrix (the column and the row spread by
  broadcasts, `dot_general`). Entry (p,q) depends only on row p of the row-indexed operands, so a block of rows of
  the whole-matrix result is the same function of the corresponding blocks of rows.
-/
import Idealize.ShloMosaic.PureOps.Ideal.Laws
import Idealize.ShloMosaic.Lib.ValueIdx
import Idealize.ShloMosaic.Lib.Pipeline.Value
import Idealize.ShloMosaic.Lib.KernelVsHost
import proofs.«131747_j2997887173231_1_alg».proof.Proof.LibPlainDot
import proofs.«131747_j2997887173231_1_alg».proof.Proof.LibColumn
import proofs.«131747_j2997887173231_1_alg».proof.Proof.LibBiasRow

noncomputable section

namespace Cert.LayerForms

open Idealize.ShloMosaic Idealize.ShloMosaic.ValueIdx
open scoped BigOperators

variable {R K N : ℕ} {φ : FTy}

/-- The float zero both programs clip against and accumulate into, kept as its word. -/
abbrev zeroW : EReal := Ideal.ofBits .f32 0x00000000#32

/-- Scale the rows, project, add the bias row, clip at zero. -/
def scaleDotBiasRelu (a : FVec Ideal ⟨2, ![R, K]⟩ .f32) (c : FVec Ideal ⟨2, ![R, 1]⟩ .f32) (W : FVec Ideal ⟨2, ![K, N]⟩ φ)
    (b : FVec Ideal ⟨2, ![1, N]⟩ .f32) : FVec Ideal ⟨2, ![R, N]⟩ .f32 :=
  fun i => max ((∑ k : Fin K, (a (ix2 (i 0) k) * c (ix2 (i 0) (0 : Fin 1))) * W (ix2 k (i 1))) + b (ix2 (0 : Fin 1) (i 1))) zeroW

/-- Project, then scale the rows. -/
def dotScale (h : FVec Ideal ⟨2, ![R, K]⟩ .f32) (W : FVec Ideal ⟨2, ![K, N]⟩ φ) (c : FVec Ideal ⟨2, ![R, 1]⟩ .f32) :
    FVec Ideal ⟨2, ![R, N]⟩ .f32 :=
  fun i => (∑ k : Fin K, h (ix2 (i 0) k) * W (ix2 k (i 1))) * c (ix2 (i 0) (0 : Fin 1))

/-- Scale the rows, add the bias row, clip at zero. -/
def scaleBiasRelu (a : FVec Ideal ⟨2, ![R, N]⟩ .f32) (c : FVec Ideal ⟨2, ![R, 1]⟩ .f32) (b : FVec Ideal ⟨2, ![1, N]⟩ .f32) :
    FVec Ideal ⟨2, ![R, N]⟩ .f32 :=
  fun i => max (a (ix2 (i 0) (i 1)) * c (ix2 (i 0) (0 : Fin 1)) + b (ix2 (0 : Fin 1) (i 1))) zeroW

theorem scaleDotBiasRelu_apply (a : FVec Ideal ⟨2, ![R, K]⟩ .f32) (c : FVec Ideal ⟨2, ![R, 1]⟩ .f32) (W : FVec Ideal ⟨2, ![K, N]⟩ φ)
    (b : FVec Ideal ⟨2, ![1, N]⟩ .f32) (p : Fin R) (q : Fin N) :
    scaleDotBiasRelu a c W b (ix2 p q)
      = max ((∑ k : Fin K, (a (ix2 p k) * c (ix2 p (0 : Fin 1))) * W (ix2 k q)) + b (ix2 (0 : Fin 1) q)) zeroW := rfl

theorem dotScale_apply (h : FVec Ideal ⟨2, ![R, K]⟩ .f32) (W : FVec Ideal ⟨2, ![K, N]⟩ φ) (c : FVec Ideal ⟨2, ![R, 1]⟩ .f32)
    (p : Fin R) (q : Fin N) :
    dotScale h W c (ix2 p q) = (∑ k : Fin K, h (ix2 p k) * W (ix2 k q)) * c (ix2 p (0 : Fin 1)) := rfl

theorem scaleBiasRelu_apply (a : FVec Ideal ⟨2, ![R, N]⟩ .f32) (c : FVec Ideal ⟨2, ![R, 1]⟩ .f32) (b : FVec Ideal ⟨2, ![1, N]⟩ .f32)
    (p : Fin R) (q : Fin N) :
    scaleBiasRelu a c b (ix2 p q) = max (a (ix2 p q) * c (ix2 p (0 : Fin 1)) + b (ix2 (0 : Fin 1) q)) zeroW := rfl

/-! ## A 1×N row spread over R rows by the vector unit -/

/-- A `[1, n]` row broadcast to `[r, n]` reads, at `(p, q)`, the row's entry `(0, q)`. -/
theorem broadcastTo_1n_rn_apply {α : Type} {r n : ℕ} (v : (⟨2, ![1, n]⟩ : Shape).Idx → α)
    (h : (⟨2, ![1, n]⟩ : Shape).Broadcasts ⟨2, ![r, n]⟩) (p : Fin r) (q : Fin n) :
    broadcastTo ⟨2, ![r, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-! ## The vector unit's forms -/

/-- The body that scales a block's rows, projects it, adds the bias row and clips at zero. -/
theorem body_scaleDotBiasRelu (d : DotDims ⟨2, ![R, K]⟩ ⟨2, ![K, N]⟩ ⟨2, ![R, N]⟩) (hd : d = DotDims.plain R K N)
    (x0 : FVec Ideal ⟨2, ![R, K]⟩ .f32) (x1 : FVec Ideal ⟨2, ![R, 1]⟩ .f32) (x2 : FVec Ideal ⟨2, ![K, N]⟩ .bf16)
    (x3 : FVec Ideal ⟨2, ![1, N]⟩ .f32)
    (h0 : (⟨2, ![R, K]⟩ : Shape).ShapeCasts ⟨2, ![R, K]⟩) (h1 : (⟨2, ![R, 1]⟩ : Shape).ShapeCasts ⟨2, ![R, 1]⟩)
    (h2 : (⟨2, ![K, N]⟩ : Shape).ShapeCasts ⟨2, ![K, N]⟩) (h3 : (⟨2, ![1, N]⟩ : Shape).ShapeCasts ⟨2, ![1, N]⟩)
    (hb1 : (⟨2, ![R, 1]⟩ : Shape).Broadcasts ⟨2, ![R, K]⟩) (hb3 : (⟨2, ![1, N]⟩ : Shape).Broadcasts ⟨2, ![R, N]⟩)
    (hlt : FTy.bf16.bits < FTy.f32.bits) :
    maximumf (addf (matmul d none (truncf .bf16 (mulf (shapeCast ⟨2, ![R, K]⟩ x0 h0)
        (broadcastTo ⟨2, ![R, K]⟩ (shapeCast ⟨2, ![R, 1]⟩ x1 h1) hb1)) hlt) (shapeCast ⟨2, ![K, N]⟩ x2 h2)
        (constant ⟨2, ![R, N]⟩ .f32 0x00000000#32))
      (broadcastTo ⟨2, ![R, N]⟩ (shapeCast ⟨2, ![1, N]⟩ x3 h3) hb3))
      (broadcast ⟨2, ![R, N]⟩ (Scalar.ofBits .f32 0x00000000#32 : Ideal .f32))
    = scaleDotBiasRelu x0 x1 x2 x3 := by
  funext i
  obtain ⟨p, q, rfl⟩ : ∃ (p : Fin R) (q : Fin N), i = ix2 p q := ⟨i 0, i 1, eq_ix2 i⟩
  rw [scaleDotBiasRelu_apply, maximumf_apply, addf_apply, shapeCast_self, shapeCast_self, shapeCast_self, shapeCast_self]
  refine congrArg₂ max (congrArg₂ (· + ·) ((Cert.LibPlainDot.matmul_zero_apply d hd none
    (truncf .bf16 (mulf x0 (broadcastTo ⟨2, ![R, K]⟩ x1 hb1)) hlt) x2 p q).trans (Finset.sum_congr rfl fun k _ => ?_))
    (broadcastTo_1n_rn_apply x3 hb3 p q)) rfl
  rw [truncf_apply, mulf_apply, Cert.LibColumn.broadcastTo_a1_ab_apply]

/-- The body that projects a block and then scales its rows. -/
theorem body_dotScale (d : DotDims ⟨2, ![R, K]⟩ ⟨2, ![K, N]⟩ ⟨2, ![R, N]⟩) (hd : d = DotDims.plain R K N)
    (x0 : FVec Ideal ⟨2, ![R, K]⟩ .f32) (x1 : FVec Ideal ⟨2, ![K, N]⟩ .bf16) (x2 : FVec Ideal ⟨2, ![R, 1]⟩ .f32)
    (h0 : (⟨2, ![R, K]⟩ : Shape).ShapeCasts ⟨2, ![R, K]⟩) (h1 : (⟨2, ![K, N]⟩ : Shape).ShapeCasts ⟨2, ![K, N]⟩)
    (h2 : (⟨2, ![R, 1]⟩ : Shape).ShapeCasts ⟨2, ![R, 1]⟩)
    (hb2 : (⟨2, ![R, 1]⟩ : Shape).Broadcasts ⟨2, ![R, N]⟩) (hlt : FTy.bf16.bits < FTy.f32.bits) :
    mulf (matmul d none (truncf .bf16 (shapeCast ⟨2, ![R, K]⟩ x0 h0) hlt) (shapeCast ⟨2, ![K, N]⟩ x1 h1)
        (constant ⟨2, ![R, N]⟩ .f32 0x00000000#32))
      (broadcastTo ⟨2, ![R, N]⟩ (shapeCast ⟨2, ![R, 1]⟩ x2 h2) hb2)
    = dotScale x0 x1 x2 := by
  funext i
  obtain ⟨p, q, rfl⟩ : ∃ (p : Fin R) (q : Fin N), i = ix2 p q := ⟨i 0, i 1, eq_ix2 i⟩
  rw [dotScale_apply, mulf_apply, shapeCast_self, shapeCast_self, shapeCast_self, Cert.LibColumn.broadcastTo_a1_ab_apply]
  exact congrArg (· * x2 (ix2 p (0 : Fin 1))) (Cert.LibPlainDot.matmul_zero_apply d hd none (truncf .bf16 x0 hlt) x1 p q)

/-- The body that scales a block's rows, adds the bias row and clips at zero. -/
theorem body_scaleBiasRelu (x0 : FVec Ideal ⟨2, ![R, N]⟩ .f32) (x1 : FVec Ideal ⟨2, ![R, 1]⟩ .f32) (x2 : FVec Ideal ⟨2, ![1, N]⟩ .f32)
    (h0 : (⟨2, ![R, N]⟩ : Shape).ShapeCasts ⟨2, ![R, N]⟩) (h1 : (⟨2, ![R, 1]⟩ : Shape).ShapeCasts ⟨2, ![R, 1]⟩)
    (h2 : (⟨2, ![1, N]⟩ : Shape).ShapeCasts ⟨2, ![1, N]⟩)
    (hb1 : (⟨2, ![R, 1]⟩ : Shape).Broadcasts ⟨2, ![R, N]⟩) (hb2 : (⟨2, ![1, N]⟩ : Shape).Broadcasts ⟨2, ![R, N]⟩) :
    maximumf (addf (mulf (shapeCast ⟨2, ![R, N]⟩ x0 h0) (broadcastTo ⟨2, ![R, N]⟩ (shapeCast ⟨2, ![R, 1]⟩ x1 h1) hb1))
        (broadcastTo ⟨2, ![R, N]⟩ (shapeCast ⟨2, ![1, N]⟩ x2 h2) hb2))
      (broadcast ⟨2, ![R, N]⟩ (Scalar.ofBits .f32 0x00000000#32 : Ideal .f32))
    = scaleBiasRelu x0 x1 x2 := by
  funext i
  obtain ⟨p, q, rfl⟩ : ∃ (p : Fin R) (q : Fin N), i = ix2 p q := ⟨i 0, i 1, eq_ix2 i⟩
  rw [scaleBiasRelu_apply, maximumf_apply, addf_apply, mulf_apply, shapeCast_self, shapeCast_self, shapeCast_self,
    Cert.LibColumn.broadcastTo_a1_ab_apply, broadcastTo_1n_rn_apply, broadcast_apply]
  rfl

/-! ## A block of rows -/

/-- Entry (p, q) of the first step reads only row p of the features and of the column: a block of rows of the result
    is the step of the blocks of rows. -/
theorem scaleDotBiasRelu_rows {R' : ℕ} (ρ : Fin R' → Fin R)
    (a : FVec Ideal ⟨2, ![R, K]⟩ .f32) (c : FVec Ideal ⟨2, ![R, 1]⟩ .f32) (W : FVec Ideal ⟨2, ![K, N]⟩ φ) (b : FVec Ideal ⟨2, ![1, N]⟩ .f32)
    (a' : FVec Ideal ⟨2, ![R', K]⟩ .f32) (c' : FVec Ideal ⟨2, ![R', 1]⟩ .f32) (W' : FVec Ideal ⟨2, ![K, N]⟩ φ) (b' : FVec Ideal ⟨2, ![1, N]⟩ .f32)
    (ha : ∀ p k, a' (ix2 p k) = a (ix2 (ρ p) k)) (hc : ∀ p, c' (ix2 p (0 : Fin 1)) = c (ix2 (ρ p) (0 : Fin 1)))
    (hW : W' = W) (hb : b' = b) (p : Fin R') (q : Fin N) :
    scaleDotBiasRelu a' c' W' b' (ix2 p q) = scaleDotBiasRelu a c W b (ix2 (ρ p) q) := by
  subst hW hb
  rw [scaleDotBiasRelu_apply, scaleDotBiasRelu_apply, hc]
  refine congrArg (fun s => max (s + b' (ix2 (0 : Fin 1) q)) _) (Finset.sum_congr rfl fun k _ => ?_)
  rw [ha]

theorem dotScale_rows {R' : ℕ} (ρ : Fin R' → Fin R)
    (h : FVec Ideal ⟨2, ![R, K]⟩ .f32) (W : FVec Ideal ⟨2, ![K, N]⟩ φ) (c : FVec Ideal ⟨2, ![R, 1]⟩ .f32)
    (h' : FVec Ideal ⟨2, ![R', K]⟩ .f32) (W' : FVec Ideal ⟨2, ![K, N]⟩ φ) (c' : FVec Ideal ⟨2, ![R', 1]⟩ .f32)
    (hh : ∀ p k, h' (ix2 p k) = h (ix2 (ρ p) k)) (hW : W' = W) (hc : ∀ p, c' (ix2 p (0 : Fin 1)) = c (ix2 (ρ p) (0 : Fin 1)))
    (p : Fin R') (q : Fin N) :
    dotScale h' W' c' (ix2 p q) = dotScale h W c (ix2 (ρ p) q) := by
  subst hW
  rw [dotScale_apply, dotScale_apply, hc]
  refine congrArg (fun s => s * c (ix2 (ρ p) (0 : Fin 1))) (Finset.sum_congr rfl fun k _ => ?_)
  rw [hh]

theorem scaleBiasRelu_rows {R' : ℕ} (ρ : Fin R' → Fin R)
    (a : FVec Ideal ⟨2, ![R, N]⟩ .f32) (c : FVec Ideal ⟨2, ![R, 1]⟩ .f32) (b : FVec Ideal ⟨2, ![1, N]⟩ .f32)
    (a' : FVec Ideal ⟨2, ![R', N]⟩ .f32) (c' : FVec Ideal ⟨2, ![R', 1]⟩ .f32) (b' : FVec Ideal ⟨2, ![1, N]⟩ .f32)
    (ha : ∀ p q, a' (ix2 p q) = a (ix2 (ρ p) q)) (hc : ∀ p, c' (ix2 p (0 : Fin 1)) = c (ix2 (ρ p) (0 : Fin 1)))
    (hb : b' = b) (p : Fin R') (q : Fin N) :
    scaleBiasRelu a' c' b' (ix2 p q) = scaleBiasRelu a c b (ix2 (ρ p) q) := by
  subst hb
  rw [scaleBiasRelu_apply, scaleBiasRelu_apply, hc, ha]

/-! ## The host's forms -/

/-- An `[a, 1]` column spread by the host over `b` columns reads, at `(i, j)`, the column's entry `(i, 0)`. -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply ![0, 1] h v (ix2 i j) (ix2 i (0 : Fin 1)) fun ax => ?_
  match ax with
  | ⟨0, _⟩ =>
    show i.val = if a = 1 then 0 else i.val
    split
    · have := i.isLt; omega
    · rfl
  | ⟨1, _⟩ => rfl

/-- The host's first step on the whole matrix: scale the rows by the column, `dot_general`, add the bias spread over
    the rows, clip at zero. -/
theorem host_scaleDotBiasRelu (d : DotDims ⟨2, ![R, K]⟩ ⟨2, ![K, N]⟩ ⟨2, ![R, N]⟩) (hd : d = DotDims.plain R K N)
    (a : FVec Ideal ⟨2, ![R, K]⟩ .f32) (c : FVec Ideal ⟨2, ![R, 1]⟩ .f32) (W : FVec Ideal ⟨2, ![K, N]⟩ .f32) (b : FVec Ideal ⟨1, ![N]⟩ .f32)
    (hc : (⟨2, ![R, 1]⟩ : Shape).BroadcastsInDim ⟨2, ![R, K]⟩ ![0, 1])
    (hb1 : (⟨1, ![N]⟩ : Shape).BroadcastsInDim ⟨2, ![1, N]⟩ ![1]) (hb2 : (⟨2, ![1, N]⟩ : Shape).BroadcastsInDim ⟨2, ![R, N]⟩ ![0, 1])
    (hz : (⟨0, ![]⟩ : Shape).BroadcastsInDim ⟨2, ![R, N]⟩ ![]) :
    maximumf (addf (Host.dotGeneral d none (mulf a (broadcastInDim ⟨2, ![R, K]⟩ ![0, 1] hc c)) W)
        (broadcastInDim ⟨2, ![R, N]⟩ ![0, 1] hb2 (broadcastInDim ⟨2, ![1, N]⟩ ![1] hb1 b)))
      (broadcastInDim ⟨2, ![R, N]⟩ ![] hz (constant (F := Ideal) ⟨0, ![]⟩ .f32 0x00000000#32))
    = scaleDotBiasRelu a c W (Cert.Row.rowOf b) := by
  funext i
  obtain ⟨p, q, rfl⟩ : ∃ (p : Fin R) (q : Fin N), i = ix2 p q := ⟨i 0, i 1, eq_ix2 i⟩
  rw [scaleDotBiasRelu_apply, maximumf_apply, addf_apply, Cert.Row.bcast_row_apply, broadcastInDim_constant, broadcast_apply, Ideal.ofBits_def]
  have hdot := Cert.LibPlainDot.dotGeneral_apply d hd none .single (mulf a (broadcastInDim ⟨2, ![R, K]⟩ ![0, 1] hc c)) W p q
  refine congrArg (fun s => max (s + Cert.Row.rowOf b (ix2 (0 : Fin 1) q)) zeroW) (hdot.trans (Finset.sum_congr rfl fun k _ => ?_))
  rw [mulf_apply, broadcastInDim_a1_ab_apply]

/-- The host's projection of the whole matrix followed by the scaling of its rows. -/
theorem host_dotScale (d : DotDims ⟨2, ![R, K]⟩ ⟨2, ![K, N]⟩ ⟨2, ![R, N]⟩) (hd : d = DotDims.plain R K N)
    (h : FVec Ideal ⟨2, ![R, K]⟩ .f32) (W : FVec Ideal ⟨2, ![K, N]⟩ .f32) (c : FVec Ideal ⟨2, ![R, 1]⟩ .f32)
    (hc : (⟨2, ![R, 1]⟩ : Shape).BroadcastsInDim ⟨2, ![R, N]⟩ ![0, 1]) :
    mulf (Host.dotGeneral d none h W) (broadcastInDim ⟨2, ![R, N]⟩ ![0, 1] hc c) = dotScale h W c := by
  funext i
  obtain ⟨p, q, rfl⟩ : ∃ (p : Fin R) (q : Fin N), i = ix2 p q := ⟨i 0, i 1, eq_ix2 i⟩
  rw [dotScale_apply, mulf_apply, broadcastInDim_a1_ab_apply]
  exact congrArg (· * c (ix2 p (0 : Fin 1))) (Cert.LibPlainDot.dotGeneral_apply d hd none .single h W p q)

/-- The host's scaling of the rows of the whole matrix, the bias spread over the rows, the clip at zero. -/
theorem host_scaleBiasRelu (a : FVec Ideal ⟨2, ![R, N]⟩ .f32) (c : FVec Ideal ⟨2, ![R, 1]⟩ .f32) (b : FVec Ideal ⟨1, ![N]⟩ .f32)
    (hc : (⟨2, ![R, 1]⟩ : Shape).BroadcastsInDim ⟨2, ![R, N]⟩ ![0, 1])
    (hb1 : (⟨1, ![N]⟩ : Shape).BroadcastsInDim ⟨2, ![1, N]⟩ ![1]) (hb2 : (⟨2, ![1, N]⟩ : Shape).BroadcastsInDim ⟨2, ![R, N]⟩ ![0, 1])
    (hz : (⟨0, ![]⟩ : Shape).BroadcastsInDim ⟨2, ![R, N]⟩ ![]) :
    maximumf (addf (mulf a (broadcastInDim ⟨2, ![R, N]⟩ ![0, 1] hc c))
        (broadcastInDim ⟨2, ![R, N]⟩ ![0, 1] hb2 (broadcastInDim ⟨2, ![1, N]⟩ ![1] hb1 b)))
      (broadcastInDim ⟨2, ![R, N]⟩ ![] hz (constant (F := Ideal) ⟨0, ![]⟩ .f32 0x00000000#32))
    = scaleBiasRelu a c (Cert.Row.rowOf b) := by
  funext i
  obtain ⟨p, q, rfl⟩ : ∃ (p : Fin R) (q : Fin N), i = ix2 p q := ⟨i 0, i 1, eq_ix2 i⟩
  rw [scaleBiasRelu_apply, maximumf_apply, addf_apply, mulf_apply, Cert.Row.bcast_row_apply, broadcastInDim_constant, broadcast_apply, Ideal.ofBits_def,
    broadcastInDim_a1_ab_apply]

end Cert.LayerForms

end
-- ==== Proof.Region0.lean ====
/-
  The first pallas_call: each grid point takes a block of 2000 rows of the aggregated features, the matching 2000 rows of
  the destination-normalisation column, the whole 128×512 weight and the whole bias row, and writes the 2000 rows of
  relu((agg ∘ column)·W + bias). Point t's block is rows 2000·t … 2000·t+1999, the 25 points tile the 50000 rows, so the
  output array ends as that one function of the whole arrays.
-/
import proofs.«131747_j2997887173231_1_alg».proof.Proof.Gen.KernelIdeal.Frame
import proofs.«131747_j2997887173231_1_alg».proof.Proof.LibLayerForms
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.ShloMosaic.Pipeline (Dat Cfg Window)
open Cert.LayerForms

variable (V : (c : Dev nD) → (b : Ref sig .tc) → Buf (Elt Ideal) ((c : Thread nD τ).loc b))

theorem hz0 : (![0, 0] : Fin 2 → Nat) = fun _ => 0 := funext fun a => by fin_cases a <;> rfl

/-- The body's arithmetic on a block is the step on the block. -/
theorem pay0 (x0 : Vec Ideal S2000x128 .f32) (x1 : Vec Ideal S2000x1 .f32) (x2 : Vec Ideal S128x512 .bf16) (x3 : Vec Ideal S1x512 .f32) :
    k0_pay1 (F := Ideal) x0 x1 x2 x3 = scaleDotBiasRelu (φ := .bf16) x0 x1 x2 x3 := by
  unfold k0_pay1
  exact body_scaleDotBiasRelu _ rfl x0 x1 x2 x3 _ _ _ _ _ _ _

/-- The index maps over the grid: a row-blocked window sits at block row t, a whole operand at block 0. -/
theorem idx0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = t.val
    ∧ win0_4.index t (1 : Fin 2) = 0 :=
  (by decide +kernel : ∀ t : Fin grid0.N, _)

/-- What point t writes back is block t of the step applied to the whole arrays. -/
theorem flushed0 (c : Dev nD) (t : Fin cfg0.N) :
    (dat0 V c).flushed 4 t = ((cfg0.win 4).blk t).view.read (Elt Ideal)
      (scaleDotBiasRelu (φ := .bf16) (V c main_v32) (V c main_v20) (V c main_v33) (V c main_v34)) := by
  show (cfg0.win 4).cut (grid0.coords t) ((dat0 V c).after 4 t) = _
  rw [after0_4]
  unfold out0_4
  rw [View.canon_unit_zero hz0]
  simp only [View.ld_unit_zero (S := S2000x128) hz0, View.ld_unit_zero (S := S2000x1) hz0, View.ld_unit_zero (S := S128x512) hz0, View.ld_unit_zero (S := S1x512) hz0]
  rw [pay0]
  obtain ⟨e00, e01, e10, e11, e20, e21, e30, e31, e40, e41⟩ := idx0 t
  have ht : t.val < 25 := lt_of_lt_of_eq t.isLt N_0
  funext j
  obtain ⟨r, q, rfl⟩ : ∃ (r : Fin 2000) (q : Fin 512), j = ix2 r q := ⟨j 0, j 1, eq_ix2 j⟩
  have hr := r.isLt
  have hq := q.isLt
  have hemb : ((cfg0.win 4).blk t).view.emb (ix2 r q) = ix2 (⟨t.val * 2000 + r.val, by omega⟩ : Fin 50000) q := by
    funext a; apply Fin.ext
    match a with
    | ⟨0, _⟩ => show win0_4.index t (0 : Fin 2) * 2000 + 1 * r.val = t.val * 2000 + r.val; omega
    | ⟨1, _⟩ => show win0_4.index t (1 : Fin 2) * 512 + 1 * q.val = q.val; omega
  have h0 : ∀ (p : Fin 2000) (k : Fin 128), iblk0 V c 0 t (ix2 p k)
      = V c main_v32 (ix2 (⟨t.val * 2000 + p.val, by have := p.isLt; omega⟩ : Fin 50000) k) := fun p k => by
    show V c main_v32 (((cfg0.win 0).blk t).view.emb (ix2 p k)) = _
    refine congrArg (V c main_v32) (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  have h1 : ∀ (p : Fin 2000), iblk0 V c 1 t (ix2 p (0 : Fin 1))
      = V c main_v20 (ix2 (⟨t.val * 2000 + p.val, by have := p.isLt; omega⟩ : Fin 50000) (0 : Fin 1)) := fun p => by
    show V c main_v20 (((cfg0.win 1).blk t).view.emb (ix2 p (0 : Fin 1))) = _
    refine congrArg (V c main_v20) (funext fun a => Fin.ext ?_)
    match a with
    | ⟨0, _⟩ => show win0_1.index t (0 : Fin 2) * 2000 + 1 * p.val = t.val * 2000 + p.val; omega
    | ⟨1, _⟩ => show win0_1.index t (1 : Fin 2) * 1 + 1 * 0 = 0; omega
  have h2 : iblk0 V c 2 t = V c main_v33 := funext fun y => by
    show V c main_v33 (((cfg0.win 2).blk t).view.emb y) = V c main_v33 y
    refine congrArg (V c main_v33) (funext fun a => Fin.ext ?_)
    match a with
    | ⟨0, _⟩ => show win0_2.index t (0 : Fin 2) * 128 + 1 * (y 0).val = (y 0).val; omega
    | ⟨1, _⟩ => show win0_2.index t (1 : Fin 2) * 512 + 1 * (y 1).val = (y 1).val; omega
  have h3 : iblk0 V c 3 t = V c main_v34 := funext fun y => by
    show V c main_v34 (((cfg0.win 3).blk t).view.emb y) = V c main_v34 y
    refine congrArg (V c main_v34) (funext fun a => Fin.ext ?_)
    match a with
    | ⟨0, _⟩ => show win0_3.index t (0 : Fin 2) * 1 + 1 * (y 0).val = (y 0).val; omega
    | ⟨1, _⟩ => show win0_3.index t (1 : Fin 2) * 512 + 1 * (y 1).val = (y 1).val; omega
  show scaleDotBiasRelu (φ := .bf16) (iblk0 V c 0 t) (iblk0 V c 1 t) (iblk0 V c 2 t) (iblk0 V c 3 t) (ix2 r q)
    = scaleDotBiasRelu (φ := .bf16) (V c main_v32) (V c main_v20) (V c main_v33) (V c main_v34) (((cfg0.win 4).blk t).view.emb (ix2 r q))
  refine Eq.trans ?_ (congrArg (scaleDotBiasRelu (φ := .bf16) (V c main_v32) (V c main_v20) (V c main_v33) (V c main_v34)) hemb.symm)
  exact scaleDotBiasRelu_rows (R := 50000) (K := 128) (N := 512) (R' := 2000) (φ := .bf16)
    (fun p => ⟨t.val * 2000 + p.val, by have := p.isLt; omega⟩)
    (V c main_v32) (V c main_v20) (V c main_v33) (V c main_v34) (iblk0 V c 0 t) (iblk0 V c 1 t) (iblk0 V c 2 t) (iblk0 V c 3 t)
    h0 h1 h2 h3 r q

/-- An index of the output array is in point t's block iff each coordinate is in the block's range. -/
theorem mem_blk0 (t : Fin cfg0.N) (i : S50000x512.Idx) :
    i ∈ ((cfg0.win 4).blk t).view.set ↔ ∀ a : Fin 2, win0_4.index t a * S2000x512.size a ≤ (i a).val
      ∧ (i a).val < win0_4.index t a * S2000x512.size a + S2000x512.size a := by
  show i ∈ ((View.whole main_v35).slice (win0_4.rect t)).set ↔ _
  rw [View.set_slice_whole, Rect.mem_set_unit]
  exact Iff.rfl

/-- Row i₀ lies in the block of point i₀ / 2000: the 25 blocks tile the array. -/
theorem cover0 (i : S50000x512.Idx) : ∃ t : Fin cfg0.N, (cfg0.win 4).flush t = true ∧ i ∈ ((cfg0.win 4).blk t).view.set := by
  have hi0 : (i 0).val < 50000 := (i 0).isLt
  have hi1 : (i 1).val < 512 := (i 1).isLt
  have hN : cfg0.N = 25 := N_0
  refine ⟨⟨(i 0).val / 2000, by rw [hN]; omega⟩, flush0_4 _, ?_⟩
  rw [mem_blk0]
  obtain ⟨-, -, -, -, -, -, -, -, e40, e41⟩ := idx0 ⟨(i 0).val / 2000, by rw [hN]; omega⟩
  intro a
  match a with
  | ⟨0, _⟩ =>
    show win0_4.index _ (0 : Fin 2) * 2000 ≤ (i 0).val ∧ (i 0).val < win0_4.index _ (0 : Fin 2) * 2000 + 2000
    rw [e40]; show (i 0).val / 2000 * 2000 ≤ (i 0).val ∧ (i 0).val < (i 0).val / 2000 * 2000 + 2000; omega
  | ⟨1, _⟩ =>
    show win0_4.index _ (1 : Fin 2) * 512 ≤ (i 1).val ∧ (i 1).val < win0_4.index _ (1 : Fin 2) * 512 + 512
    rw [e41]; omega

/-- The output array after the region: the step applied to the arrays the region finds. -/
theorem final0 (c : Dev nD) : (dat0 V c).arrAt 4 cfg0.N
    = scaleDotBiasRelu (φ := .bf16) (V c main_v32) (V c main_v20) (V c main_v33) (V c main_v34) :=
  (dat0 V c).arrAt_eq_of_cover 4 _ (fun t _ => flushed0 V c t) cover0

end Cert.KernelIdeal.Blocks

end
-- ==== Proof.Region1.lean ====
/-
  The second pallas_call: each grid point takes 2000 rows of the 512 hidden features, the whole 512×64 weight and the
  matching rows of the source-normalisation column, and writes the 2000 rows of (h·W) ∘ column. The 25 blocks of rows
  tile the 50000 rows, so the output array ends as that one function of the whole arrays.
-/
import proofs.«131747_j2997887173231_1_alg».proof.Proof.Gen.KernelIdeal.Frame
import proofs.«131747_j2997887173231_1_alg».proof.Proof.LibLayerForms
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.ShloMosaic.Pipeline (Dat Cfg Window)
open Cert.LayerForms

variable (V : (c : Dev nD) → (b : Ref sig .tc) → Buf (Elt Ideal) ((c : Thread nD τ).loc b))

theorem hz1 : (![0, 0] : Fin 2 → Nat) = fun _ => 0 := funext fun a => by fin_cases a <;> rfl

/-- The body's arithmetic on a block is the step on the block. -/
theorem pay1 (x0 : Vec Ideal S2000x512 .f32) (x1 : Vec Ideal S512x64 .bf16) (x2 : Vec Ideal S2000x1 .f32) :
    k1_pay1 (F := Ideal) x0 x1 x2 = dotScale (φ := .bf16) x0 x1 x2 := by
  unfold k1_pay1
  exact body_dotScale _ rfl x0 x1 x2 _ _ _ _ _

/-- The index maps over the grid: a row-blocked window sits at block row t, a whole operand at block 0. -/
theorem idx1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0 :=
  (by decide +kernel : ∀ t : Fin grid1.N, _)

/-- What point t writes back is block t of the step applied to the whole arrays. -/
theorem flushed1 (c : Dev nD) (t : Fin cfg1.N) :
    (dat1 V c).flushed 3 t = ((cfg1.win 3).blk t).view.read (Elt Ideal)
      (dotScale (φ := .bf16) (V c main_v35) (V c main_v36) (V c main_v19)) := by
  show (cfg1.win 3).cut (grid1.coords t) ((dat1 V c).after 3 t) = _
  rw [after1_3]
  unfold out1_3
  rw [View.canon_unit_zero hz1]
  simp only [View.ld_unit_zero (S := S2000x512) hz1, View.ld_unit_zero (S := S512x64) hz1, View.ld_unit_zero (S := S2000x1) hz1]
  rw [pay1]
  obtain ⟨e00, e01, e10, e11, e20, e21, e30, e31⟩ := idx1 t
  have ht : t.val < 25 := lt_of_lt_of_eq t.isLt N_1
  funext j
  obtain ⟨r, q, rfl⟩ : ∃ (r : Fin 2000) (q : Fin 64), j = ix2 r q := ⟨j 0, j 1, eq_ix2 j⟩
  have hr := r.isLt
  have hq := q.isLt
  have hemb : ((cfg1.win 3).blk t).view.emb (ix2 r q) = ix2 (⟨t.val * 2000 + r.val, by omega⟩ : Fin 50000) q := by
    funext a; apply Fin.ext
    match a with
    | ⟨0, _⟩ => show win1_3.index t (0 : Fin 2) * 2000 + 1 * r.val = t.val * 2000 + r.val; omega
    | ⟨1, _⟩ => show win1_3.index t (1 : Fin 2) * 64 + 1 * q.val = q.val; omega
  have h0 : ∀ (p : Fin 2000) (k : Fin 512), iblk1 V c 0 t (ix2 p k)
      = V c main_v35 (ix2 (⟨t.val * 2000 + p.val, by have := p.isLt; omega⟩ : Fin 50000) k) := fun p k => by
    show V c main_v35 (((cfg1.win 0).blk t).view.emb (ix2 p k)) = _
    refine congrArg (V c main_v35) (funext fun a => Fin.ext ?_)
    match a with
    | ⟨0, _⟩ => show win1_0.index t (0 : Fin 2) * 2000 + 1 * p.val = t.val * 2000 + p.val; omega
    | ⟨1, _⟩ => show win1_0.index t (1 : Fin 2) * 512 + 1 * k.val = k.val; omega
  have h1 : iblk1 V c 1 t = V c main_v36 := funext fun y => by
    show V c main_v36 (((cfg1.win 1).blk t).view.emb y) = V c main_v36 y
    refine congrArg (V c main_v36) (funext fun a => Fin.ext ?_)
    match a with
    | ⟨0, _⟩ => show win1_1.index t (0 : Fin 2) * 512 + 1 * (y 0).val = (y 0).val; omega
    | ⟨1, _⟩ => show win1_1.index t (1 : Fin 2) * 64 + 1 * (y 1).val = (y 1).val; omega
  have h2 : ∀ (p : Fin 2000), iblk1 V c 2 t (ix2 p (0 : Fin 1))
      = V c main_v19 (ix2 (⟨t.val * 2000 + p.val, by have := p.isLt; omega⟩ : Fin 50000) (0 : Fin 1)) := fun p => by
    show V c main_v19 (((cfg1.win 2).blk t).view.emb (ix2 p (0 : Fin 1))) = _
    refine congrArg (V c main_v19) (funext fun a => Fin.ext ?_)
    match a with
    | ⟨0, _⟩ => show win1_2.index t (0 : Fin 2) * 2000 + 1 * p.val = t.val * 2000 + p.val; omega
    | ⟨1, _⟩ => show win1_2.index t (1 : Fin 2) * 1 + 1 * 0 = 0; omega
  show dotScale (φ := .bf16) (iblk1 V c 0 t) (iblk1 V c 1 t) (iblk1 V c 2 t) (ix2 r q)
    = dotScale (φ := .bf16) (V c main_v35) (V c main_v36) (V c main_v19) (((cfg1.win 3).blk t).view.emb (ix2 r q))
  refine Eq.trans ?_ (congrArg (dotScale (φ := .bf16) (V c main_v35) (V c main_v36) (V c main_v19)) hemb.symm)
  exact dotScale_rows (R := 50000) (K := 512) (N := 64) (R' := 2000) (φ := .bf16)
    (fun p => ⟨t.val * 2000 + p.val, by have := p.isLt; omega⟩)
    (V c main_v35) (V c main_v36) (V c main_v19) (iblk1 V c 0 t) (iblk1 V c 1 t) (iblk1 V c 2 t)
    h0 h1 h2 r q

/-- An index of the output array is in point t's block iff each coordinate is in the block's range. -/
theorem mem_blk1 (t : Fin cfg1.N) (i : S50000x64.Idx) :
    i ∈ ((cfg1.win 3).blk t).view.set ↔ ∀ a : Fin 2, win1_3.index t a * S2000x64.size a ≤ (i a).val
      ∧ (i a).val < win1_3.index t a * S2000x64.size a + S2000x64.size a := by
  show i ∈ ((View.whole main_v37).slice (win1_3.rect t)).set ↔ _
  rw [View.set_slice_whole, Rect.mem_set_unit]
  exact Iff.rfl

/-- Row i₀ lies in the block of point i₀ / 2000: the 25 blocks tile the array. -/
theorem cover1 (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 25 := N_1
  refine ⟨⟨(i 0).val / 2000, by rw [hN]; omega⟩, flush1_3 _, ?_⟩
  rw [mem_blk1]
  obtain ⟨-, -, -, -, -, -, e30, e31⟩ := idx1 ⟨(i 0).val / 2000, by rw [hN]; omega⟩
  intro a
  match a with
  | ⟨0, _⟩ =>
    show win1_3.index _ (0 : Fin 2) * 2000 ≤ (i 0).val ∧ (i 0).val < win1_3.index _ (0 : Fin 2) * 2000 + 2000
    rw [e30]; show (i 0).val / 2000 * 2000 ≤ (i 0).val ∧ (i 0).val < (i 0).val / 2000 * 2000 + 2000; omega
  | ⟨1, _⟩ =>
    show win1_3.index _ (1 : Fin 2) * 64 ≤ (i 1).val ∧ (i 1).val < win1_3.index _ (1 : Fin 2) * 64 + 64
    rw [e31]; omega

/-- The output array after the region: the step applied to the arrays the region finds. -/
theorem final1 (c : Dev nD) : (dat1 V c).arrAt 3 cfg1.N
    = dotScale (φ := .bf16) (V c main_v35) (V c main_v36) (V c main_v19) :=
  (dat1 V c).arrAt_eq_of_cover 3 _ (fun t _ => flushed1 V c t) cover1

end Cert.KernelIdeal.Blocks

end
-- ==== Proof.Region2.lean ====
/-
  The third pallas_call: each grid point takes 2000 rows of the aggregated 64 features, the matching rows of the
  destination-normalisation column and the whole bias row, and writes the 2000 rows of relu(agg ∘ column + bias). The
  25 blocks of rows tile the 50000 rows, so the output array ends as that one function of the whole arrays.
-/
import proofs.«131747_j2997887173231_1_alg».proof.Proof.Gen.KernelIdeal.Frame
import proofs.«131747_j2997887173231_1_alg».proof.Proof.LibLayerForms
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.ShloMosaic.Pipeline (Dat Cfg Window)
open Cert.LayerForms

variable (V : (c : Dev nD) → (b : Ref sig .tc) → Buf (Elt Ideal) ((c : Thread nD τ).loc b))

theorem hz2 : (![0, 0] : Fin 2 → Nat) = fun _ => 0 := funext fun a => by fin_cases a <;> rfl

/-- The body's arithmetic on a block is the step on the block. -/
theorem pay2 (x0 : Vec Ideal S2000x64 .f32) (x1 : Vec Ideal S2000x1 .f32) (x2 : Vec Ideal S1x64 .f32) :
    k2_pay1 (F := Ideal) x0 x1 x2 = scaleBiasRelu x0 x1 x2 := by
  unfold k2_pay1
  exact body_scaleBiasRelu x0 x1 x2 _ _ _ _ _

/-- The index maps over the grid: a row-blocked window sits at block row t, a whole operand at block 0. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- What point t writes back is block t of the step applied to the whole arrays. -/
theorem flushed2 (c : Dev nD) (t : Fin cfg2.N) :
    (dat2 V c).flushed 3 t = ((cfg2.win 3).blk t).view.read (Elt Ideal)
      (scaleBiasRelu (V c main_v47) (V c main_v20) (V c main_v48)) := by
  show (cfg2.win 3).cut (grid2.coords t) ((dat2 V c).after 3 t) = _
  rw [after2_3]
  unfold out2_3
  rw [View.canon_unit_zero hz2]
  simp only [View.ld_unit_zero (S := S2000x64) hz2, View.ld_unit_zero (S := S2000x1) hz2, View.ld_unit_zero (S := S1x64) hz2]
  rw [pay2]
  obtain ⟨e00, e01, e10, e11, e20, e21, e30, e31⟩ := idx2 t
  have ht : t.val < 25 := lt_of_lt_of_eq t.isLt N_2
  funext j
  obtain ⟨r, q, rfl⟩ : ∃ (r : Fin 2000) (q : Fin 64), j = ix2 r q := ⟨j 0, j 1, eq_ix2 j⟩
  have hr := r.isLt
  have hq := q.isLt
  have hemb : ((cfg2.win 3).blk t).view.emb (ix2 r q) = ix2 (⟨t.val * 2000 + r.val, by omega⟩ : Fin 50000) q := by
    funext a; apply Fin.ext
    match a with
    | ⟨0, _⟩ => show win2_3.index t (0 : Fin 2) * 2000 + 1 * r.val = t.val * 2000 + r.val; omega
    | ⟨1, _⟩ => show win2_3.index t (1 : Fin 2) * 64 + 1 * q.val = q.val; omega
  have h0 : ∀ (p : Fin 2000) (k : Fin 64), iblk2 V c 0 t (ix2 p k)
      = V c main_v47 (ix2 (⟨t.val * 2000 + p.val, by have := p.isLt; omega⟩ : Fin 50000) k) := fun p k => by
    show V c main_v47 (((cfg2.win 0).blk t).view.emb (ix2 p k)) = _
    refine congrArg (V c main_v47) (funext fun a => Fin.ext ?_)
    match a with
    | ⟨0, _⟩ => show win2_0.index t (0 : Fin 2) * 2000 + 1 * p.val = t.val * 2000 + p.val; omega
    | ⟨1, _⟩ => show win2_0.index t (1 : Fin 2) * 64 + 1 * k.val = k.val; omega
  have h1 : ∀ (p : Fin 2000), iblk2 V c 1 t (ix2 p (0 : Fin 1))
      = V c main_v20 (ix2 (⟨t.val * 2000 + p.val, by have := p.isLt; omega⟩ : Fin 50000) (0 : Fin 1)) := fun p => by
    show V c main_v20 (((cfg2.win 1).blk t).view.emb (ix2 p (0 : Fin 1))) = _
    refine congrArg (V c main_v20) (funext fun a => Fin.ext ?_)
    match a with
    | ⟨0, _⟩ => show win2_1.index t (0 : Fin 2) * 2000 + 1 * p.val = t.val * 2000 + p.val; omega
    | ⟨1, _⟩ => show win2_1.index t (1 : Fin 2) * 1 + 1 * 0 = 0; omega
  have h2 : iblk2 V c 2 t = V c main_v48 := funext fun y => by
    show V c main_v48 (((cfg2.win 2).blk t).view.emb y) = V c main_v48 y
    refine congrArg (V c main_v48) (funext fun a => Fin.ext ?_)
    match a with
    | ⟨0, _⟩ => show win2_2.index t (0 : Fin 2) * 1 + 1 * (y 0).val = (y 0).val; omega
    | ⟨1, _⟩ => show win2_2.index t (1 : Fin 2) * 64 + 1 * (y 1).val = (y 1).val; omega
  show scaleBiasRelu (iblk2 V c 0 t) (iblk2 V c 1 t) (iblk2 V c 2 t) (ix2 r q)
    = scaleBiasRelu (V c main_v47) (V c main_v20) (V c main_v48) (((cfg2.win 3).blk t).view.emb (ix2 r q))
  refine Eq.trans ?_ (congrArg (scaleBiasRelu (V c main_v47) (V c main_v20) (V c main_v48)) hemb.symm)
  exact scaleBiasRelu_rows (R := 50000) (N := 64) (R' := 2000)
    (fun p => ⟨t.val * 2000 + p.val, by have := p.isLt; omega⟩)
    (V c main_v47) (V c main_v20) (V c main_v48) (iblk2 V c 0 t) (iblk2 V c 1 t) (iblk2 V c 2 t)
    h0 h1 h2 r q

/-- An index of the output array is in point t's block iff each coordinate is in the block's range. -/
theorem mem_blk2 (t : Fin cfg2.N) (i : S50000x64.Idx) :
    i ∈ ((cfg2.win 3).blk t).view.set ↔ ∀ a : Fin 2, win2_3.index t a * S2000x64.size a ≤ (i a).val
      ∧ (i a).val < win2_3.index t a * S2000x64.size a + S2000x64.size a := by
  show i ∈ ((View.whole main_v49).slice (win2_3.rect t)).set ↔ _
  rw [View.set_slice_whole, Rect.mem_set_unit]
  exact Iff.rfl

/-- Row i₀ lies in the block of point i₀ / 2000: the 25 blocks tile the array. -/
theorem cover2 (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 25 := N_2
  refine ⟨⟨(i 0).val / 2000, by rw [hN]; omega⟩, flush2_3 _, ?_⟩
  rw [mem_blk2]
  obtain ⟨-, -, -, -, -, -, e30, e31⟩ := idx2 ⟨(i 0).val / 2000, by rw [hN]; omega⟩
  intro a
  match a with
  | ⟨0, _⟩ =>
    show win2_3.index _ (0 : Fin 2) * 2000 ≤ (i 0).val ∧ (i 0).val < win2_3.index _ (0 : Fin 2) * 2000 + 2000
    rw [e30]; show (i 0).val / 2000 * 2000 ≤ (i 0).val ∧ (i 0).val < (i 0).val / 2000 * 2000 + 2000; omega
  | ⟨1, _⟩ =>
    show win2_3.index _ (1 : Fin 2) * 64 ≤ (i 1).val ∧ (i 1).val < win2_3.index _ (1 : Fin 2) * 64 + 64
    rw [e31]; omega

/-- The output array after the region: the step applied to the arrays the region finds. -/
theorem final2 (c : Dev nD) : (dat2 V c).arrAt 3 cfg2.N
    = scaleBiasRelu (V c main_v47) (V c main_v20) (V c main_v48) :=
  (dat2 V c).arrAt_eq_of_cover 3 _ (fun t _ => flushed2 V c t) cover2

end Cert.KernelIdeal.Blocks

end
-- ==== Proof.Region3.lean ====
/-
  The fourth pallas_call: 2000 rows of the 64 hidden features, the whole 64×16 weight and the matching rows of the
  source-normalisation column give the 2000 rows of (h·W) ∘ column; the 25 blocks tile the 50000 rows.
-/
import proofs.«131747_j2997887173231_1_alg».proof.Proof.Gen.KernelIdeal.Frame
import proofs.«131747_j2997887173231_1_alg».proof.Proof.LibLayerForms
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.ShloMosaic.Pipeline (Dat Cfg Window)
open Cert.LayerForms

variable (V : (c : Dev nD) → (b : Ref sig .tc) → Buf (Elt Ideal) ((c : Thread nD τ).loc b))

theorem hz3 : (![0, 0] : Fin 2 → Nat) = fun _ => 0 := funext fun a => by fin_cases a <;> rfl

/-- The body's arithmetic on a block is the step on the block. -/
theorem pay3 (x0 : Vec Ideal S2000x64 .f32) (x1 : Vec Ideal S64x16 .bf16) (x2 : Vec Ideal S2000x1 .f32) :
    k3_pay1 (F := Ideal) x0 x1 x2 = dotScale (φ := .bf16) x0 x1 x2 := by
  unfold k3_pay1
  exact body_dotScale _ rfl x0 x1 x2 _ _ _ _ _

/-- The index maps over the grid: a row-blocked window sits at block row t, a whole operand at block 0. -/
theorem idx3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0
    ∧ win3_3.index t (0 : Fin 2) = t.val
    ∧ win3_3.index t (1 : Fin 2) = 0 :=
  (by decide +kernel : ∀ t : Fin grid3.N, _)

/-- What point t writes back is block t of the step applied to the whole arrays. -/
theorem flushed3 (c : Dev nD) (t : Fin cfg3.N) :
    (dat3 V c).flushed 3 t = ((cfg3.win 3).blk t).view.read (Elt Ideal)
      (dotScale (φ := .bf16) (V c main_v49) (V c main_v50) (V c main_v19)) := by
  show (cfg3.win 3).cut (grid3.coords t) ((dat3 V c).after 3 t) = _
  rw [after3_3]
  unfold out3_3
  rw [View.canon_unit_zero hz3]
  simp only [View.ld_unit_zero (S := S2000x64) hz3, View.ld_unit_zero (S := S64x16) hz3, View.ld_unit_zero (S := S2000x1) hz3]
  rw [pay3]
  obtain ⟨e00, e01, e10, e11, e20, e21, e30, e31⟩ := idx3 t
  have ht : t.val < 25 := lt_of_lt_of_eq t.isLt N_3
  funext j
  obtain ⟨r, q, rfl⟩ : ∃ (r : Fin 2000) (q : Fin 16), j = ix2 r q := ⟨j 0, j 1, eq_ix2 j⟩
  have hr := r.isLt
  have hq := q.isLt
  have hemb : ((cfg3.win 3).blk t).view.emb (ix2 r q) = ix2 (⟨t.val * 2000 + r.val, by omega⟩ : Fin 50000) q := by
    funext a; apply Fin.ext
    match a with
    | ⟨0, _⟩ => show win3_3.index t (0 : Fin 2) * 2000 + 1 * r.val = t.val * 2000 + r.val; omega
    | ⟨1, _⟩ => show win3_3.index t (1 : Fin 2) * 16 + 1 * q.val = q.val; omega
  have h0 : ∀ (p : Fin 2000) (k : Fin 64), iblk3 V c 0 t (ix2 p k)
      = V c main_v49 (ix2 (⟨t.val * 2000 + p.val, by have := p.isLt; omega⟩ : Fin 50000) k) := fun p k => by
    show V c main_v49 (((cfg3.win 0).blk t).view.emb (ix2 p k)) = _
    refine congrArg (V c main_v49) (funext fun a => Fin.ext ?_)
    match a with
    | ⟨0, _⟩ => show win3_0.index t (0 : Fin 2) * 2000 + 1 * p.val = t.val * 2000 + p.val; omega
    | ⟨1, _⟩ => show win3_0.index t (1 : Fin 2) * 64 + 1 * k.val = k.val; omega
  have h1 : iblk3 V c 1 t = V c main_v50 := funext fun y => by
    show V c main_v50 (((cfg3.win 1).blk t).view.emb y) = V c main_v50 y
    refine congrArg (V c main_v50) (funext fun a => Fin.ext ?_)
    match a with
    | ⟨0, _⟩ => show win3_1.index t (0 : Fin 2) * 64 + 1 * (y 0).val = (y 0).val; omega
    | ⟨1, _⟩ => show win3_1.index t (1 : Fin 2) * 16 + 1 * (y 1).val = (y 1).val; omega
  have h2 : ∀ (p : Fin 2000), iblk3 V c 2 t (ix2 p (0 : Fin 1))
      = V c main_v19 (ix2 (⟨t.val * 2000 + p.val, by have := p.isLt; omega⟩ : Fin 50000) (0 : Fin 1)) := fun p => by
    show V c main_v19 (((cfg3.win 2).blk t).view.emb (ix2 p (0 : Fin 1))) = _
    refine congrArg (V c main_v19) (funext fun a => Fin.ext ?_)
    match a with
    | ⟨0, _⟩ => show win3_2.index t (0 : Fin 2) * 2000 + 1 * p.val = t.val * 2000 + p.val; omega
    | ⟨1, _⟩ => show win3_2.index t (1 : Fin 2) * 1 + 1 * 0 = 0; omega
  show dotScale (φ := .bf16) (iblk3 V c 0 t) (iblk3 V c 1 t) (iblk3 V c 2 t) (ix2 r q)
    = dotScale (φ := .bf16) (V c main_v49) (V c main_v50) (V c main_v19) (((cfg3.win 3).blk t).view.emb (ix2 r q))
  refine Eq.trans ?_ (congrArg (dotScale (φ := .bf16) (V c main_v49) (V c main_v50) (V c main_v19)) hemb.symm)
  exact dotScale_rows (R := 50000) (K := 64) (N := 16) (R' := 2000) (φ := .bf16)
    (fun p => ⟨t.val * 2000 + p.val, by have := p.isLt; omega⟩)
    (V c main_v49) (V c main_v50) (V c main_v19) (iblk3 V c 0 t) (iblk3 V c 1 t) (iblk3 V c 2 t)
    h0 h1 h2 r q

/-- An index of the output array is in point t's block iff each coordinate is in the block's range. -/
theorem mem_blk3 (t : Fin cfg3.N) (i : S50000x16.Idx) :
    i ∈ ((cfg3.win 3).blk t).view.set ↔ ∀ a : Fin 2, win3_3.index t a * S2000x16.size a ≤ (i a).val
      ∧ (i a).val < win3_3.index t a * S2000x16.size a + S2000x16.size a := by
  show i ∈ ((View.whole main_v51).slice (win3_3.rect t)).set ↔ _
  rw [View.set_slice_whole, Rect.mem_set_unit]
  exact Iff.rfl

/-- Row i₀ lies in the block of point i₀ / 2000: the 25 blocks tile the array. -/
theorem cover3 (i : S50000x16.Idx) : ∃ t : Fin cfg3.N, (cfg3.win 3).flush t = true ∧ i ∈ ((cfg3.win 3).blk t).view.set := by
  have hi0 : (i 0).val < 50000 := (i 0).isLt
  have hi1 : (i 1).val < 16 := (i 1).isLt
  have hN : cfg3.N = 25 := N_3
  refine ⟨⟨(i 0).val / 2000, by rw [hN]; omega⟩, flush3_3 _, ?_⟩
  rw [mem_blk3]
  obtain ⟨-, -, -, -, -, -, e30, e31⟩ := idx3 ⟨(i 0).val / 2000, by rw [hN]; omega⟩
  intro a
  match a with
  | ⟨0, _⟩ =>
    show win3_3.index _ (0 : Fin 2) * 2000 ≤ (i 0).val ∧ (i 0).val < win3_3.index _ (0 : Fin 2) * 2000 + 2000
    rw [e30]; show (i 0).val / 2000 * 2000 ≤ (i 0).val ∧ (i 0).val < (i 0).val / 2000 * 2000 + 2000; omega
  | ⟨1, _⟩ =>
    show win3_3.index _ (1 : Fin 2) * 16 ≤ (i 1).val ∧ (i 1).val < win3_3.index _ (1 : Fin 2) * 16 + 16
    rw [e31]; omega

/-- The output array after the region: the step applied to the arrays the region finds. -/
theorem final3 (c : Dev nD) : (dat3 V c).arrAt 3 cfg3.N
    = dotScale (φ := .bf16) (V c main_v49) (V c main_v50) (V c main_v19) :=
  (dat3 V c).arrAt_eq_of_cover 3 _ (fun t _ => flushed3 V c t) cover3

end Cert.KernelIdeal.Blocks

end
-- ==== Proof.Region4.lean ====
/-
  The fifth pallas_call: 2000 rows of the aggregated 16 features, the matching rows of the destination-normalisation
  column and the whole bias row give the 2000 rows of relu(agg ∘ column + bias); the 25 blocks tile the 50000 rows.
-/
import proofs.«131747_j2997887173231_1_alg».proof.Proof.Gen.KernelIdeal.Frame
import proofs.«131747_j2997887173231_1_alg».proof.Proof.LibLayerForms
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.ShloMosaic.Pipeline (Dat Cfg Window)
open Cert.LayerForms

variable (V : (c : Dev nD) → (b : Ref sig .tc) → Buf (Elt Ideal) ((c : Thread nD τ).loc b))

theorem hz4 : (![0, 0] : Fin 2 → Nat) = fun _ => 0 := funext fun a => by fin_cases a <;> rfl

/-- The body's arithmetic on a block is the step on the block. -/
theorem pay4 (x0 : Vec Ideal S2000x16 .f32) (x1 : Vec Ideal S2000x1 .f32) (x2 : Vec Ideal S1x16 .f32) :
    k4_pay1 (F := Ideal) x0 x1 x2 = scaleBiasRelu x0 x1 x2 := by
  unfold k4_pay1
  exact body_scaleBiasRelu x0 x1 x2 _ _ _ _ _

/-- The index maps over the grid: a row-blocked window sits at block row t, a whole operand at block 0. -/
theorem idx4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 :=
  (by decide +kernel : ∀ t : Fin grid4.N, _)

/-- What point t writes back is block t of the step applied to the whole arrays. -/
theorem flushed4 (c : Dev nD) (t : Fin cfg4.N) :
    (dat4 V c).flushed 3 t = ((cfg4.win 3).blk t).view.read (Elt Ideal)
      (scaleBiasRelu (V c main_v61) (V c main_v20) (V c main_v62)) := by
  show (cfg4.win 3).cut (grid4.coords t) ((dat4 V c).after 3 t) = _
  rw [after4_3]
  unfold out4_3
  rw [View.canon_unit_zero hz4]
  simp only [View.ld_unit_zero (S := S2000x16) hz4, View.ld_unit_zero (S := S2000x1) hz4, View.ld_unit_zero (S := S1x16) hz4]
  rw [pay4]
  obtain ⟨e00, e01, e10, e11, e20, e21, e30, e31⟩ := idx4 t
  have ht : t.val < 25 := lt_of_lt_of_eq t.isLt N_4
  funext j
  obtain ⟨r, q, rfl⟩ : ∃ (r : Fin 2000) (q : Fin 16), j = ix2 r q := ⟨j 0, j 1, eq_ix2 j⟩
  have hr := r.isLt
  have hq := q.isLt
  have hemb : ((cfg4.win 3).blk t).view.emb (ix2 r q) = ix2 (⟨t.val * 2000 + r.val, by omega⟩ : Fin 50000) q := by
    funext a; apply Fin.ext
    match a with
    | ⟨0, _⟩ => show win4_3.index t (0 : Fin 2) * 2000 + 1 * r.val = t.val * 2000 + r.val; omega
    | ⟨1, _⟩ => show win4_3.index t (1 : Fin 2) * 16 + 1 * q.val = q.val; omega
  have h0 : ∀ (p : Fin 2000) (k : Fin 16), iblk4 V c 0 t (ix2 p k)
      = V c main_v61 (ix2 (⟨t.val * 2000 + p.val, by have := p.isLt; omega⟩ : Fin 50000) k) := fun p k => by
    show V c main_v61 (((cfg4.win 0).blk t).view.emb (ix2 p k)) = _
    refine congrArg (V c main_v61) (funext fun a => Fin.ext ?_)
    match a with
    | ⟨0, _⟩ => show win4_0.index t (0 : Fin 2) * 2000 + 1 * p.val = t.val * 2000 + p.val; omega
    | ⟨1, _⟩ => show win4_0.index t (1 : Fin 2) * 16 + 1 * k.val = k.val; omega
  have h1 : ∀ (p : Fin 2000), iblk4 V c 1 t (ix2 p (0 : Fin 1))
      = V c main_v20 (ix2 (⟨t.val * 2000 + p.val, by have := p.isLt; omega⟩ : Fin 50000) (0 : Fin 1)) := fun p => by
    show V c main_v20 (((cfg4.win 1).blk t).view.emb (ix2 p (0 : Fin 1))) = _
    refine congrArg (V c main_v20) (funext fun a => Fin.ext ?_)
    match a with
    | ⟨0, _⟩ => show win4_1.index t (0 : Fin 2) * 2000 + 1 * p.val = t.val * 2000 + p.val; omega
    | ⟨1, _⟩ => show win4_1.index t (1 : Fin 2) * 1 + 1 * 0 = 0; omega
  have h2 : iblk4 V c 2 t = V c main_v62 := funext fun y => by
    show V c main_v62 (((cfg4.win 2).blk t).view.emb y) = V c main_v62 y
    refine congrArg (V c main_v62) (funext fun a => Fin.ext ?_)
    match a with
    | ⟨0, _⟩ => show win4_2.index t (0 : Fin 2) * 1 + 1 * (y 0).val = (y 0).val; omega
    | ⟨1, _⟩ => show win4_2.index t (1 : Fin 2) * 16 + 1 * (y 1).val = (y 1).val; omega
  show scaleBiasRelu (iblk4 V c 0 t) (iblk4 V c 1 t) (iblk4 V c 2 t) (ix2 r q)
    = scaleBiasRelu (V c main_v61) (V c main_v20) (V c main_v62) (((cfg4.win 3).blk t).view.emb (ix2 r q))
  refine Eq.trans ?_ (congrArg (scaleBiasRelu (V c main_v61) (V c main_v20) (V c main_v62)) hemb.symm)
  exact scaleBiasRelu_rows (R := 50000) (N := 16) (R' := 2000)
    (fun p => ⟨t.val * 2000 + p.val, by have := p.isLt; omega⟩)
    (V c main_v61) (V c main_v20) (V c main_v62) (iblk4 V c 0 t) (iblk4 V c 1 t) (iblk4 V c 2 t)
    h0 h1 h2 r q

/-- An index of the output array is in point t's block iff each coordinate is in the block's range. -/
theorem mem_blk4 (t : Fin cfg4.N) (i : S50000x16.Idx) :
    i ∈ ((cfg4.win 3).blk t).view.set ↔ ∀ a : Fin 2, win4_3.index t a * S2000x16.size a ≤ (i a).val
      ∧ (i a).val < win4_3.index t a * S2000x16.size a + S2000x16.size a := by
  show i ∈ ((View.whole main_v63).slice (win4_3.rect t)).set ↔ _
  rw [View.set_slice_whole, Rect.mem_set_unit]
  exact Iff.rfl

/-- Row i₀ lies in the block of point i₀ / 2000: the 25 blocks tile the array. -/
theorem cover4 (i : S50000x16.Idx) : ∃ t : Fin cfg4.N, (cfg4.win 3).flush t = true ∧ i ∈ ((cfg4.win 3).blk t).view.set := by
  have hi0 : (i 0).val < 50000 := (i 0).isLt
  have hi1 : (i 1).val < 16 := (i 1).isLt
  have hN : cfg4.N = 25 := N_4
  refine ⟨⟨(i 0).val / 2000, by rw [hN]; omega⟩, flush4_3 _, ?_⟩
  rw [mem_blk4]
  obtain ⟨-, -, -, -, -, -, e30, e31⟩ := idx4 ⟨(i 0).val / 2000, by rw [hN]; omega⟩
  intro a
  match a with
  | ⟨0, _⟩ =>
    show win4_3.index _ (0 : Fin 2) * 2000 ≤ (i 0).val ∧ (i 0).val < win4_3.index _ (0 : Fin 2) * 2000 + 2000
    rw [e30]; show (i 0).val / 2000 * 2000 ≤ (i 0).val ∧ (i 0).val < (i 0).val / 2000 * 2000 + 2000; omega
  | ⟨1, _⟩ =>
    show win4_3.index _ (1 : Fin 2) * 16 ≤ (i 1).val ∧ (i 1).val < win4_3.index _ (1 : Fin 2) * 16 + 16
    rw [e31]; omega

/-- The output array after the region: the step applied to the arrays the region finds. -/
theorem final4 (c : Dev nD) : (dat4 V c).arrAt 3 cfg4.N
    = scaleBiasRelu (V c main_v61) (V c main_v20) (V c main_v62) :=
  (dat4 V c).arrAt_eq_of_cover 3 _ (fun t _ => flushed4 V c t) cover4

end Cert.KernelIdeal.Blocks

end
-- ==== Proof.Region5.lean ====
/-
  The sixth pallas_call: 2000 rows of the 16 hidden features, the whole 16×2 weight and the matching rows of the
  source-normalisation column give the 2000 rows of (h·W) ∘ column; the 25 blocks tile the 50000 rows.
-/
import proofs.«131747_j2997887173231_1_alg».proof.Proof.Gen.KernelIdeal.Frame
import proofs.«131747_j2997887173231_1_alg».proof.Proof.LibLayerForms
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.ShloMosaic.Pipeline (Dat Cfg Window)
open Cert.LayerForms

variable (V : (c : Dev nD) → (b : Ref sig .tc) → Buf (Elt Ideal) ((c : Thread nD τ).loc b))

theorem hz5 : (![0, 0] : Fin 2 → Nat) = fun _ => 0 := funext fun a => by fin_cases a <;> rfl

/-- The body's arithmetic on a block is the step on the block. -/
theorem pay5 (x0 : Vec Ideal S2000x16 .f32) (x1 : Vec Ideal S16x2 .bf16) (x2 : Vec Ideal S2000x1 .f32) :
    k5_pay1 (F := Ideal) x0 x1 x2 = dotScale (φ := .bf16) x0 x1 x2 := by
  unfold k5_pay1
  exact body_dotScale _ rfl x0 x1 x2 _ _ _ _ _

/-- The index maps over the grid: a row-blocked window sits at block row t, a whole operand at block 0. -/
theorem idx5 : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0
    ∧ win5_3.index t (0 : Fin 2) = t.val
    ∧ win5_3.index t (1 : Fin 2) = 0 :=
  (by decide +kernel : ∀ t : Fin grid5.N, _)

/-- What point t writes back is block t of the step applied to the whole arrays. -/
theorem flushed5 (c : Dev nD) (t : Fin cfg5.N) :
    (dat5 V c).flushed 3 t = ((cfg5.win 3).blk t).view.read (Elt Ideal)
      (dotScale (φ := .bf16) (V c main_v63) (V c main_v64) (V c main_v19)) := by
  show (cfg5.win 3).cut (grid5.coords t) ((dat5 V c).after 3 t) = _
  rw [after5_3]
  unfold out5_3
  rw [View.canon_unit_zero hz5]
  simp only [View.ld_unit_zero (S := S2000x16) hz5, View.ld_unit_zero (S := S16x2) hz5, View.ld_unit_zero (S := S2000x1) hz5]
  rw [pay5]
  obtain ⟨e00, e01, e10, e11, e20, e21, e30, e31⟩ := idx5 t
  have ht : t.val < 25 := lt_of_lt_of_eq t.isLt N_5
  funext j
  obtain ⟨r, q, rfl⟩ : ∃ (r : Fin 2000) (q : Fin 2), j = ix2 r q := ⟨j 0, j 1, eq_ix2 j⟩
  have hr := r.isLt
  have hq := q.isLt
  have hemb : ((cfg5.win 3).blk t).view.emb (ix2 r q) = ix2 (⟨t.val * 2000 + r.val, by omega⟩ : Fin 50000) q := by
    funext a; apply Fin.ext
    match a with
    | ⟨0, _⟩ => show win5_3.index t (0 : Fin 2) * 2000 + 1 * r.val = t.val * 2000 + r.val; omega
    | ⟨1, _⟩ => show win5_3.index t (1 : Fin 2) * 2 + 1 * q.val = q.val; omega
  have h0 : ∀ (p : Fin 2000) (k : Fin 16), iblk5 V c 0 t (ix2 p k)
      = V c main_v63 (ix2 (⟨t.val * 2000 + p.val, by have := p.isLt; omega⟩ : Fin 50000) k) := fun p k => by
    show V c main_v63 (((cfg5.win 0).blk t).view.emb (ix2 p k)) = _
    refine congrArg (V c main_v63) (funext fun a => Fin.ext ?_)
    match a with
    | ⟨0, _⟩ => show win5_0.index t (0 : Fin 2) * 2000 + 1 * p.val = t.val * 2000 + p.val; omega
    | ⟨1, _⟩ => show win5_0.index t (1 : Fin 2) * 16 + 1 * k.val = k.val; omega
  have h1 : iblk5 V c 1 t = V c main_v64 := funext fun y => by
    show V c main_v64 (((cfg5.win 1).blk t).view.emb y) = V c main_v64 y
    refine congrArg (V c main_v64) (funext fun a => Fin.ext ?_)
    match a with
    | ⟨0, _⟩ => show win5_1.index t (0 : Fin 2) * 16 + 1 * (y 0).val = (y 0).val; omega
    | ⟨1, _⟩ => show win5_1.index t (1 : Fin 2) * 2 + 1 * (y 1).val = (y 1).val; omega
  have h2 : ∀ (p : Fin 2000), iblk5 V c 2 t (ix2 p (0 : Fin 1))
      = V c main_v19 (ix2 (⟨t.val * 2000 + p.val, by have := p.isLt; omega⟩ : Fin 50000) (0 : Fin 1)) := fun p => by
    show V c main_v19 (((cfg5.win 2).blk t).view.emb (ix2 p (0 : Fin 1))) = _
    refine congrArg (V c main_v19) (funext fun a => Fin.ext ?_)
    match a with
    | ⟨0, _⟩ => show win5_2.index t (0 : Fin 2) * 2000 + 1 * p.val = t.val * 2000 + p.val; omega
    | ⟨1, _⟩ => show win5_2.index t (1 : Fin 2) * 1 + 1 * 0 = 0; omega
  show dotScale (φ := .bf16) (iblk5 V c 0 t) (iblk5 V c 1 t) (iblk5 V c 2 t) (ix2 r q)
    = dotScale (φ := .bf16) (V c main_v63) (V c main_v64) (V c main_v19) (((cfg5.win 3).blk t).view.emb (ix2 r q))
  refine Eq.trans ?_ (congrArg (dotScale (φ := .bf16) (V c main_v63) (V c main_v64) (V c main_v19)) hemb.symm)
  exact dotScale_rows (R := 50000) (K := 16) (N := 2) (R' := 2000) (φ := .bf16)
    (fun p => ⟨t.val * 2000 + p.val, by have := p.isLt; omega⟩)
    (V c main_v63) (V c main_v64) (V c main_v19) (iblk5 V c 0 t) (iblk5 V c 1 t) (iblk5 V c 2 t)
    h0 h1 h2 r q

/-- An index of the output array is in point t's block iff each coordinate is in the block's range. -/
theorem mem_blk5 (t : Fin cfg5.N) (i : S50000x2.Idx) :
    i ∈ ((cfg5.win 3).blk t).view.set ↔ ∀ a : Fin 2, win5_3.index t a * S2000x2.size a ≤ (i a).val
      ∧ (i a).val < win5_3.index t a * S2000x2.size a + S2000x2.size a := by
  show i ∈ ((View.whole main_v65).slice (win5_3.rect t)).set ↔ _
  rw [View.set_slice_whole, Rect.mem_set_unit]
  exact Iff.rfl

/-- Row i₀ lies in the block of point i₀ / 2000: the 25 blocks tile the array. -/
theorem cover5 (i : S50000x2.Idx) : ∃ t : Fin cfg5.N, (cfg5.win 3).flush t = true ∧ i ∈ ((cfg5.win 3).blk t).view.set := by
  have hi0 : (i 0).val < 50000 := (i 0).isLt
  have hi1 : (i 1).val < 2 := (i 1).isLt
  have hN : cfg5.N = 25 := N_5
  refine ⟨⟨(i 0).val / 2000, by rw [hN]; omega⟩, flush5_3 _, ?_⟩
  rw [mem_blk5]
  obtain ⟨-, -, -, -, -, -, e30, e31⟩ := idx5 ⟨(i 0).val / 2000, by rw [hN]; omega⟩
  intro a
  match a with
  | ⟨0, _⟩ =>
    show win5_3.index _ (0 : Fin 2) * 2000 ≤ (i 0).val ∧ (i 0).val < win5_3.index _ (0 : Fin 2) * 2000 + 2000
    rw [e30]; show (i 0).val / 2000 * 2000 ≤ (i 0).val ∧ (i 0).val < (i 0).val / 2000 * 2000 + 2000; omega
  | ⟨1, _⟩ =>
    show win5_3.index _ (1 : Fin 2) * 2 ≤ (i 1).val ∧ (i 1).val < win5_3.index _ (1 : Fin 2) * 2 + 2
    rw [e31]; omega

/-- The output array after the region: the step applied to the arrays the region finds. -/
theorem final5 (c : Dev nD) : (dat5 V c).arrAt 3 cfg5.N
    = dotScale (φ := .bf16) (V c main_v63) (V c main_v64) (V c main_v19) :=
  (dat5 V c).arrAt_eq_of_cover 3 _ (fun t _ => flushed5 V c t) cover5

end Cert.KernelIdeal.Blocks

end
-- ==== Proof.Region6.lean ====
/-
  The last pallas_call: 2000 rows of the aggregated 2 features, the matching rows of the destination-normalisation
  column and the whole bias row give the 2000 rows of relu(agg ∘ column + bias); the 25 blocks tile the 50000 rows,
  and the output array is the program's result.
-/
import proofs.«131747_j2997887173231_1_alg».proof.Proof.Gen.KernelIdeal.Frame
import proofs.«131747_j2997887173231_1_alg».proof.Proof.LibLayerForms
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.ShloMosaic.Pipeline (Dat Cfg Window)
open Cert.LayerForms

variable (V : (c : Dev nD) → (b : Ref sig .tc) → Buf (Elt Ideal) ((c : Thread nD τ).loc b))

theorem hz6 : (![0, 0] : Fin 2 → Nat) = fun _ => 0 := funext fun a => by fin_cases a <;> rfl

/-- The body's arithmetic on a block is the step on the block. -/
theorem pay6 (x0 : Vec Ideal S2000x2 .f32) (x1 : Vec Ideal S2000x1 .f32) (x2 : Vec Ideal S1x2 .f32) :
    k6_pay1 (F := Ideal) x0 x1 x2 = scaleBiasRelu x0 x1 x2 := by
  unfold k6_pay1
  exact body_scaleBiasRelu x0 x1 x2 _ _ _ _ _

/-- The index maps over the grid: a row-blocked window sits at block row t, a whole operand at block 0. -/
theorem idx6 : ∀ t : Fin cfg6.N, win6_0.index t (0 : Fin 2) = t.val
    ∧ win6_0.index t (1 : Fin 2) = 0
    ∧ win6_1.index t (0 : Fin 2) = t.val
    ∧ win6_1.index t (1 : Fin 2) = 0
    ∧ win6_2.index t (0 : Fin 2) = 0
    ∧ win6_2.index t (1 : Fin 2) = 0
    ∧ win6_3.index t (0 : Fin 2) = t.val
    ∧ win6_3.index t (1 : Fin 2) = 0 :=
  (by decide +kernel : ∀ t : Fin grid6.N, _)

/-- What point t writes back is block t of the step applied to the whole arrays. -/
theorem flushed6 (c : Dev nD) (t : Fin cfg6.N) :
    (dat6 V c).flushed 3 t = ((cfg6.win 3).blk t).view.read (Elt Ideal)
      (scaleBiasRelu (V c main_v75) (V c main_v20) (V c main_v76)) := by
  show (cfg6.win 3).cut (grid6.coords t) ((dat6 V c).after 3 t) = _
  rw [after6_3]
  unfold out6_3
  rw [View.canon_unit_zero hz6]
  simp only [View.ld_unit_zero (S := S2000x2) hz6, View.ld_unit_zero (S := S2000x1) hz6, View.ld_unit_zero (S := S1x2) hz6]
  rw [pay6]
  obtain ⟨e00, e01, e10, e11, e20, e21, e30, e31⟩ := idx6 t
  have ht : t.val < 25 := lt_of_lt_of_eq t.isLt N_6
  funext j
  obtain ⟨r, q, rfl⟩ : ∃ (r : Fin 2000) (q : Fin 2), j = ix2 r q := ⟨j 0, j 1, eq_ix2 j⟩
  have hr := r.isLt
  have hq := q.isLt
  have hemb : ((cfg6.win 3).blk t).view.emb (ix2 r q) = ix2 (⟨t.val * 2000 + r.val, by omega⟩ : Fin 50000) q := by
    funext a; apply Fin.ext
    match a with
    | ⟨0, _⟩ => show win6_3.index t (0 : Fin 2) * 2000 + 1 * r.val = t.val * 2000 + r.val; omega
    | ⟨1, _⟩ => show win6_3.index t (1 : Fin 2) * 2 + 1 * q.val = q.val; omega
  have h0 : ∀ (p : Fin 2000) (k : Fin 2), iblk6 V c 0 t (ix2 p k)
      = V c main_v75 (ix2 (⟨t.val * 2000 + p.val, by have := p.isLt; omega⟩ : Fin 50000) k) := fun p k => by
    show V c main_v75 (((cfg6.win 0).blk t).view.emb (ix2 p k)) = _
    refine congrArg (V c main_v75) (funext fun a => Fin.ext ?_)
    match a with
    | ⟨0, _⟩ => show win6_0.index t (0 : Fin 2) * 2000 + 1 * p.val = t.val * 2000 + p.val; omega
    | ⟨1, _⟩ => show win6_0.index t (1 : Fin 2) * 2 + 1 * k.val = k.val; omega
  have h1 : ∀ (p : Fin 2000), iblk6 V c 1 t (ix2 p (0 : Fin 1))
      = V c main_v20 (ix2 (⟨t.val * 2000 + p.val, by have := p.isLt; omega⟩ : Fin 50000) (0 : Fin 1)) := fun p => by
    show V c main_v20 (((cfg6.win 1).blk t).view.emb (ix2 p (0 : Fin 1))) = _
    refine congrArg (V c main_v20) (funext fun a => Fin.ext ?_)
    match a with
    | ⟨0, _⟩ => show win6_1.index t (0 : Fin 2) * 2000 + 1 * p.val = t.val * 2000 + p.val; omega
    | ⟨1, _⟩ => show win6_1.index t (1 : Fin 2) * 1 + 1 * 0 = 0; omega
  have h2 : iblk6 V c 2 t = V c main_v76 := funext fun y => by
    show V c main_v76 (((cfg6.win 2).blk t).view.emb y) = V c main_v76 y
    refine congrArg (V c main_v76) (funext fun a => Fin.ext ?_)
    match a with
    | ⟨0, _⟩ => show win6_2.index t (0 : Fin 2) * 1 + 1 * (y 0).val = (y 0).val; omega
    | ⟨1, _⟩ => show win6_2.index t (1 : Fin 2) * 2 + 1 * (y 1).val = (y 1).val; omega
  show scaleBiasRelu (iblk6 V c 0 t) (iblk6 V c 1 t) (iblk6 V c 2 t) (ix2 r q)
    = scaleBiasRelu (V c main_v75) (V c main_v20) (V c main_v76) (((cfg6.win 3).blk t).view.emb (ix2 r q))
  refine Eq.trans ?_ (congrArg (scaleBiasRelu (V c main_v75) (V c main_v20) (V c main_v76)) hemb.symm)
  exact scaleBiasRelu_rows (R := 50000) (N := 2) (R' := 2000)
    (fun p => ⟨t.val * 2000 + p.val, by have := p.isLt; omega⟩)
    (V c main_v75) (V c main_v20) (V c main_v76) (iblk6 V c 0 t) (iblk6 V c 1 t) (iblk6 V c 2 t)
    h0 h1 h2 r q

/-- An index of the output array is in point t's block iff each coordinate is in the block's range. -/
theorem mem_blk6 (t : Fin cfg6.N) (i : S50000x2.Idx) :
    i ∈ ((cfg6.win 3).blk t).view.set ↔ ∀ a : Fin 2, win6_3.index t a * S2000x2.size a ≤ (i a).val
      ∧ (i a).val < win6_3.index t a * S2000x2.size a + S2000x2.size a := by
  show i ∈ ((View.whole main_v77).slice (win6_3.rect t)).set ↔ _
  rw [View.set_slice_whole, Rect.mem_set_unit]
  exact Iff.rfl

/-- Row i₀ lies in the block of point i₀ / 2000: the 25 blocks tile the array. -/
theorem cover6 (i : S50000x2.Idx) : ∃ t : Fin cfg6.N, (cfg6.win 3).flush t = true ∧ i ∈ ((cfg6.win 3).blk t).view.set := by
  have hi0 : (i 0).val < 50000 := (i 0).isLt
  have hi1 : (i 1).val < 2 := (i 1).isLt
  have hN : cfg6.N = 25 := N_6
  refine ⟨⟨(i 0).val / 2000, by rw [hN]; omega⟩, flush6_3 _, ?_⟩
  rw [mem_blk6]
  obtain ⟨-, -, -, -, -, -, e30, e31⟩ := idx6 ⟨(i 0).val / 2000, by rw [hN]; omega⟩
  intro a
  match a with
  | ⟨0, _⟩ =>
    show win6_3.index _ (0 : Fin 2) * 2000 ≤ (i 0).val ∧ (i 0).val < win6_3.index _ (0 : Fin 2) * 2000 + 2000
    rw [e30]; show (i 0).val / 2000 * 2000 ≤ (i 0).val ∧ (i 0).val < (i 0).val / 2000 * 2000 + 2000; omega
  | ⟨1, _⟩ =>
    show win6_3.index _ (1 : Fin 2) * 2 ≤ (i 1).val ∧ (i 1).val < win6_3.index _ (1 : Fin 2) * 2 + 2
    rw [e31]; omega

/-- The output array after the region: the step applied to the arrays the region finds. -/
theorem final6 (c : Dev nD) : (dat6 V c).arrAt 3 cfg6.N
    = scaleBiasRelu (V c main_v75) (V c main_v20) (V c main_v76) :=
  (dat6 V c).arrAt_eq_of_cover 3 _ (fun t _ => flushed6 V c t) cover6

end Cert.KernelIdeal.Blocks

end
-- ==== Proof.CarriedA.lean ====
/-
  Buffers that no later operation writes keep their contents: an argument array, the two normalisation columns, and each
  region's output until the next region reads it are the same at every later boundary of the program's run.
-/
import proofs.«131747_j2997887173231_1_alg».proof.Proof.Gen.KernelIdeal.Frame
import Idealize.ShloMosaic.PureOps.Ideal

set_option maxRecDepth 16384

noncomputable section

namespace Cert.KernelIdeal.CarriedA

open Cert.KernelIdeal Cert.KernelIdeal.Gen Idealize.ShloMosaic Idealize.ShloMosaic.TcCoe

/-- A stretch of host operations leaves a buffer alone when none of them writes it. -/
macro "host_keepsA" ops:ident : tactic => `(tactic| exact StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

variable (m : (ℓ : Loc nD τ sig) → Buf (Elt Ideal) ℓ) (ρ : Dev nD → PrngReg)

theorem keep_arg1_at1 (c : Dev nD) : W1 m ρ c (Proc.devRef .tc main_arg1) = W0 m ρ c (Proc.devRef .tc main_arg1) :=
  (show W1 m ρ c (Proc.devRef .tc main_arg1) = W0 m ρ c (Proc.devRef .tc main_arg1) from (by host_keepsA hostOps0))
theorem keep_arg1_at2 (c : Dev nD) : W2 m ρ c (Proc.devRef .tc main_arg1) = W0 m ρ c (Proc.devRef .tc main_arg1) :=
  (show W2 m ρ c (Proc.devRef .tc main_arg1) = W1 m ρ c (Proc.devRef .tc main_arg1) from (by host_keepsA hostOps0_1)).trans (keep_arg1_at1 m ρ c)
theorem keep_arg1_at3 (c : Dev nD) : W3 m ρ c (Proc.devRef .tc main_arg1) = W0 m ρ c (Proc.devRef .tc main_arg1) :=
  (show W3 m ρ c (Proc.devRef .tc main_arg1) = W2 m ρ c (Proc.devRef .tc main_arg1) from (by host_keepsA hostOps0_2)).trans (keep_arg1_at2 m ρ c)
theorem keep_arg1_at4 (c : Dev nD) : W4 m ρ c (Proc.devRef .tc main_arg1) = W0 m ρ c (Proc.devRef .tc main_arg1) :=
  (show W4 m ρ c (Proc.devRef .tc main_arg1) = W3 m ρ c (Proc.devRef .tc main_arg1) from (by host_keepsA hostOps0_3)).trans (keep_arg1_at3 m ρ c)
theorem keep_arg1_at5 (c : Dev nD) : W5 m ρ c (Proc.devRef .tc main_arg1) = W0 m ρ c (Proc.devRef .tc main_arg1) :=
  (show W5 m ρ c (Proc.devRef .tc main_arg1) = W4 m ρ c (Proc.devRef .tc main_arg1) from (by host_keepsA hostOps0_4)).trans (keep_arg1_at4 m ρ c)
theorem keep_arg1_at6 (c : Dev nD) : W6 m ρ c (Proc.devRef .tc main_arg1) = W0 m ρ c (Proc.devRef .tc main_arg1) :=
  (show W6 m ρ c (Proc.devRef .tc main_arg1) = W5 m ρ c (Proc.devRef .tc main_arg1) from W6_of_ne m ρ c main_arg1 (by decide)).trans (keep_arg1_at5 m ρ c)
theorem keep_arg1_at7 (c : Dev nD) : W7 m ρ c (Proc.devRef .tc main_arg1) = W0 m ρ c (Proc.devRef .tc main_arg1) :=
  (show W7 m ρ c (Proc.devRef .tc main_arg1) = W6 m ρ c (Proc.devRef .tc main_arg1) from (by host_keepsA hostOps1)).trans (keep_arg1_at6 m ρ c)
theorem keep_arg1_at8 (c : Dev nD) : W8 m ρ c (Proc.devRef .tc main_arg1) = W0 m ρ c (Proc.devRef .tc main_arg1) :=
  (show W8 m ρ c (Proc.devRef .tc main_arg1) = W7 m ρ c (Proc.devRef .tc main_arg1) from W8_of_ne m ρ c main_arg1 (by decide)).trans (keep_arg1_at7 m ρ c)
theorem keep_arg1_at9 (c : Dev nD) : W9 m ρ c (Proc.devRef .tc main_arg1) = W0 m ρ c (Proc.devRef .tc main_arg1) :=
  (show W9 m ρ c (Proc.devRef .tc main_arg1) = W8 m ρ c (Proc.devRef .tc main_arg1) from (by host_keepsA hostOps2)).trans (keep_arg1_at8 m ρ c)
theorem keep_arg1_at10 (c : Dev nD) : W10 m ρ c (Proc.devRef .tc main_arg1) = W0 m ρ c (Proc.devRef .tc main_arg1) :=
  (show W10 m ρ c (Proc.devRef .tc main_arg1) = W9 m ρ c (Proc.devRef .tc main_arg1) from W10_of_ne m ρ c main_arg1 (by decide)).trans (keep_arg1_at9 m ρ c)
theorem keep_arg1_at11 (c : Dev nD) : W11 m ρ c (Proc.devRef .tc main_arg1) = W0 m ρ c (Proc.devRef .tc main_arg1) :=
  (show W11 m ρ c (Proc.devRef .tc main_arg1) = W10 m ρ c (Proc.devRef .tc main_arg1) from (by host_keepsA hostOps3)).trans (keep_arg1_at10 m ρ c)
theorem keep_arg1_at12 (c : Dev nD) : W12 m ρ c (Proc.devRef .tc main_arg1) = W0 m ρ c (Proc.devRef .tc main_arg1) :=
  (show W12 m ρ c (Proc.devRef .tc main_arg1) = W11 m ρ c (Proc.devRef .tc main_arg1) from W12_of_ne m ρ c main_arg1 (by decide)).trans (keep_arg1_at11 m ρ c)
theorem keep_arg1_at13 (c : Dev nD) : W13 m ρ c (Proc.devRef .tc main_arg1) = W0 m ρ c (Proc.devRef .tc main_arg1) :=
  (show W13 m ρ c (Proc.devRef .tc main_arg1) = W12 m ρ c (Proc.devRef .tc main_arg1) from (by host_keepsA hostOps4)).trans (keep_arg1_at12 m ρ c)
theorem keep_arg1_at14 (c : Dev nD) : W14 m ρ c (Proc.devRef .tc main_arg1) = W0 m ρ c (Proc.devRef .tc main_arg1) :=
  (show W14 m ρ c (Proc.devRef .tc main_arg1) = W13 m ρ c (Proc.devRef .tc main_arg1) from W14_of_ne m ρ c main_arg1 (by decide)).trans (keep_arg1_at13 m ρ c)
theorem keep_arg1_at15 (c : Dev nD) : W15 m ρ c (Proc.devRef .tc main_arg1) = W0 m ρ c (Proc.devRef .tc main_arg1) :=
  (show W15 m ρ c (Proc.devRef .tc main_arg1) = W14 m ρ c (Proc.devRef .tc main_arg1) from (by host_keepsA hostOps5)).trans (keep_arg1_at14 m ρ c)
theorem keep_arg1_at16 (c : Dev nD) : W16 m ρ c (Proc.devRef .tc main_arg1) = W0 m ρ c (Proc.devRef .tc main_arg1) :=
  (show W16 m ρ c (Proc.devRef .tc main_arg1) = W15 m ρ c (Proc.devRef .tc main_arg1) from W16_of_ne m ρ c main_arg1 (by decide)).trans (keep_arg1_at15 m ρ c)

theorem keep_arg2_at1 (c : Dev nD) : W1 m ρ c (Proc.devRef .tc main_arg2) = W0 m ρ c (Proc.devRef .tc main_arg2) :=
  (show W1 m ρ c (Proc.devRef .tc main_arg2) = W0 m ρ c (Proc.devRef .tc main_arg2) from (by host_keepsA hostOps0))
theorem keep_arg2_at2 (c : Dev nD) : W2 m ρ c (Proc.devRef .tc main_arg2) = W0 m ρ c (Proc.devRef .tc main_arg2) :=
  (show W2 m ρ c (Proc.devRef .tc main_arg2) = W1 m ρ c (Proc.devRef .tc main_arg2) from (by host_keepsA hostOps0_1)).trans (keep_arg2_at1 m ρ c)
theorem keep_arg2_at3 (c : Dev nD) : W3 m ρ c (Proc.devRef .tc main_arg2) = W0 m ρ c (Proc.devRef .tc main_arg2) :=
  (show W3 m ρ c (Proc.devRef .tc main_arg2) = W2 m ρ c (Proc.devRef .tc main_arg2) from (by host_keepsA hostOps0_2)).trans (keep_arg2_at2 m ρ c)
theorem keep_arg2_at4 (c : Dev nD) : W4 m ρ c (Proc.devRef .tc main_arg2) = W0 m ρ c (Proc.devRef .tc main_arg2) :=
  (show W4 m ρ c (Proc.devRef .tc main_arg2) = W3 m ρ c (Proc.devRef .tc main_arg2) from (by host_keepsA hostOps0_3)).trans (keep_arg2_at3 m ρ c)
theorem keep_arg2_at5 (c : Dev nD) : W5 m ρ c (Proc.devRef .tc main_arg2) = W0 m ρ c (Proc.devRef .tc main_arg2) :=
  (show W5 m ρ c (Proc.devRef .tc main_arg2) = W4 m ρ c (Proc.devRef .tc main_arg2) from (by host_keepsA hostOps0_4)).trans (keep_arg2_at4 m ρ c)
theorem keep_arg2_at6 (c : Dev nD) : W6 m ρ c (Proc.devRef .tc main_arg2) = W0 m ρ c (Proc.devRef .tc main_arg2) :=
  (show W6 m ρ c (Proc.devRef .tc main_arg2) = W5 m ρ c (Proc.devRef .tc main_arg2) from W6_of_ne m ρ c main_arg2 (by decide)).trans (keep_arg2_at5 m ρ c)
theorem keep_arg2_at7 (c : Dev nD) : W7 m ρ c (Proc.devRef .tc main_arg2) = W0 m ρ c (Proc.devRef .tc main_arg2) :=
  (show W7 m ρ c (Proc.devRef .tc main_arg2) = W6 m ρ c (Proc.devRef .tc main_arg2) from (by host_keepsA hostOps1)).trans (keep_arg2_at6 m ρ c)
theorem keep_arg2_at8 (c : Dev nD) : W8 m ρ c (Proc.devRef .tc main_arg2) = W0 m ρ c (Proc.devRef .tc main_arg2) :=
  (show W8 m ρ c (Proc.devRef .tc main_arg2) = W7 m ρ c (Proc.devRef .tc main_arg2) from W8_of_ne m ρ c main_arg2 (by decide)).trans (keep_arg2_at7 m ρ c)
theorem keep_arg2_at9 (c : Dev nD) : W9 m ρ c (Proc.devRef .tc main_arg2) = W0 m ρ c (Proc.devRef .tc main_arg2) :=
  (show W9 m ρ c (Proc.devRef .tc main_arg2) = W8 m ρ c (Proc.devRef .tc main_arg2) from (by host_keepsA hostOps2)).trans (keep_arg2_at8 m ρ c)
theorem keep_arg2_at10 (c : Dev nD) : W10 m ρ c (Proc.devRef .tc main_arg2) = W0 m ρ c (Proc.devRef .tc main_arg2) :=
  (show W10 m ρ c (Proc.devRef .tc main_arg2) = W9 m ρ c (Proc.devRef .tc main_arg2) from W10_of_ne m ρ c main_arg2 (by decide)).trans (keep_arg2_at9 m ρ c)
theorem keep_arg2_at11 (c : Dev nD) : W11 m ρ c (Proc.devRef .tc main_arg2) = W0 m ρ c (Proc.devRef .tc main_arg2) :=
  (show W11 m ρ c (Proc.devRef .tc main_arg2) = W10 m ρ c (Proc.devRef .tc main_arg2) from (by host_keepsA hostOps3)).trans (keep_arg2_at10 m ρ c)
theorem keep_arg2_at12 (c : Dev nD) : W12 m ρ c (Proc.devRef .tc main_arg2) = W0 m ρ c (Proc.devRef .tc main_arg2) :=
  (show W12 m ρ c (Proc.devRef .tc main_arg2) = W11 m ρ c (Proc.devRef .tc main_arg2) from W12_of_ne m ρ c main_arg2 (by decide)).trans (keep_arg2_at11 m ρ c)
theorem keep_arg2_at13 (c : Dev nD) : W13 m ρ c (Proc.devRef .tc main_arg2) = W0 m ρ c (Proc.devRef .tc main_arg2) :=
  (show W13 m ρ c (Proc.devRef .tc main_arg2) = W12 m ρ c (Proc.devRef .tc main_arg2) from (by host_keepsA hostOps4)).trans (keep_arg2_at12 m ρ c)
theorem keep_arg2_at14 (c : Dev nD) : W14 m ρ c (Proc.devRef .tc main_arg2) = W0 m ρ c (Proc.devRef .tc main_arg2) :=
  (show W14 m ρ c (Proc.devRef .tc main_arg2) = W13 m ρ c (Proc.devRef .tc main_arg2) from W14_of_ne m ρ c main_arg2 (by decide)).trans (keep_arg2_at13 m ρ c)
theorem keep_arg2_at15 (c : Dev nD) : W15 m ρ c (Proc.devRef .tc main_arg2) = W0 m ρ c (Proc.devRef .tc main_arg2) :=
  (show W15 m ρ c (Proc.devRef .tc main_arg2) = W14 m ρ c (Proc.devRef .tc main_arg2) from (by host_keepsA hostOps5)).trans (keep_arg2_at14 m ρ c)
theorem keep_arg2_at16 (c : Dev nD) : W16 m ρ c (Proc.devRef .tc main_arg2) = W0 m ρ c (Proc.devRef .tc main_arg2) :=
  (show W16 m ρ c (Proc.devRef .tc main_arg2) = W15 m ρ c (Proc.devRef .tc main_arg2) from W16_of_ne m ρ c main_arg2 (by decide)).trans (keep_arg2_at15 m ρ c)

theorem keep_arg5_at1 (c : Dev nD) : W1 m ρ c (Proc.devRef .tc main_arg5) = W0 m ρ c (Proc.devRef .tc main_arg5) :=
  (show W1 m ρ c (Proc.devRef .tc main_arg5) = W0 m ρ c (Proc.devRef .tc main_arg5) from (by host_keepsA hostOps0))
theorem keep_arg5_at2 (c : Dev nD) : W2 m ρ c (Proc.devRef .tc main_arg5) = W0 m ρ c (Proc.devRef .tc main_arg5) :=
  (show W2 m ρ c (Proc.devRef .tc main_arg5) = W1 m ρ c (Proc.devRef .tc main_arg5) from (by host_keepsA hostOps0_1)).trans (keep_arg5_at1 m ρ c)
theorem keep_arg5_at3 (c : Dev nD) : W3 m ρ c (Proc.devRef .tc main_arg5) = W0 m ρ c (Proc.devRef .tc main_arg5) :=
  (show W3 m ρ c (Proc.devRef .tc main_arg5) = W2 m ρ c (Proc.devRef .tc main_arg5) from (by host_keepsA hostOps0_2)).trans (keep_arg5_at2 m ρ c)
theorem keep_arg5_at4 (c : Dev nD) : W4 m ρ c (Proc.devRef .tc main_arg5) = W0 m ρ c (Proc.devRef .tc main_arg5) :=
  (show W4 m ρ c (Proc.devRef .tc main_arg5) = W3 m ρ c (Proc.devRef .tc main_arg5) from (by host_keepsA hostOps0_3)).trans (keep_arg5_at3 m ρ c)
theorem keep_arg5_at5 (c : Dev nD) : W5 m ρ c (Proc.devRef .tc main_arg5) = W0 m ρ c (Proc.devRef .tc main_arg5) :=
  (show W5 m ρ c (Proc.devRef .tc main_arg5) = W4 m ρ c (Proc.devRef .tc main_arg5) from (by host_keepsA hostOps0_4)).trans (keep_arg5_at4 m ρ c)
theorem keep_arg5_at6 (c : Dev nD) : W6 m ρ c (Proc.devRef .tc main_arg5) = W0 m ρ c (Proc.devRef .tc main_arg5) :=
  (show W6 m ρ c (Proc.devRef .tc main_arg5) = W5 m ρ c (Proc.devRef .tc main_arg5) from W6_of_ne m ρ c main_arg5 (by decide)).trans (keep_arg5_at5 m ρ c)

theorem keep_arg6_at1 (c : Dev nD) : W1 m ρ c (Proc.devRef .tc main_arg6) = W0 m ρ c (Proc.devRef .tc main_arg6) :=
  (show W1 m ρ c (Proc.devRef .tc main_arg6) = W0 m ρ c (Proc.devRef .tc main_arg6) from (by host_keepsA hostOps0))
theorem keep_arg6_at2 (c : Dev nD) : W2 m ρ c (Proc.devRef .tc main_arg6) = W0 m ρ c (Proc.devRef .tc main_arg6) :=
  (show W2 m ρ c (Proc.devRef .tc main_arg6) = W1 m ρ c (Proc.devRef .tc main_arg6) from (by host_keepsA hostOps0_1)).trans (keep_arg6_at1 m ρ c)
theorem keep_arg6_at3 (c : Dev nD) : W3 m ρ c (Proc.devRef .tc main_arg6) = W0 m ρ c (Proc.devRef .tc main_arg6) :=
  (show W3 m ρ c (Proc.devRef .tc main_arg6) = W2 m ρ c (Proc.devRef .tc main_arg6) from (by host_keepsA hostOps0_2)).trans (keep_arg6_at2 m ρ c)
theorem keep_arg6_at4 (c : Dev nD) : W4 m ρ c (Proc.devRef .tc main_arg6) = W0 m ρ c (Proc.devRef .tc main_arg6) :=
  (show W4 m ρ c (Proc.devRef .tc main_arg6) = W3 m ρ c (Proc.devRef .tc main_arg6) from (by host_keepsA hostOps0_3)).trans (keep_arg6_at3 m ρ c)
theorem keep_arg6_at5 (c : Dev nD) : W5 m ρ c (Proc.devRef .tc main_arg6) = W0 m ρ c (Proc.devRef .tc main_arg6) :=
  (show W5 m ρ c (Proc.devRef .tc main_arg6) = W4 m ρ c (Proc.devRef .tc main_arg6) from (by host_keepsA hostOps0_4)).trans (keep_arg6_at4 m ρ c)
theorem keep_arg6_at6 (c : Dev nD) : W6 m ρ c (Proc.devRef .tc main_arg6) = W0 m ρ c (Proc.devRef .tc main_arg6) :=
  (show W6 m ρ c (Proc.devRef .tc main_arg6) = W5 m ρ c (Proc.devRef .tc main_arg6) from W6_of_ne m ρ c main_arg6 (by decide)).trans (keep_arg6_at5 m ρ c)
theorem keep_arg6_at7 (c : Dev nD) : W7 m ρ c (Proc.devRef .tc main_arg6) = W0 m ρ c (Proc.devRef .tc main_arg6) :=
  (show W7 m ρ c (Proc.devRef .tc main_arg6) = W6 m ρ c (Proc.devRef .tc main_arg6) from (by host_keepsA hostOps1)).trans (keep_arg6_at6 m ρ c)
theorem keep_arg6_at8 (c : Dev nD) : W8 m ρ c (Proc.devRef .tc main_arg6) = W0 m ρ c (Proc.devRef .tc main_arg6) :=
  (show W8 m ρ c (Proc.devRef .tc main_arg6) = W7 m ρ c (Proc.devRef .tc main_arg6) from W8_of_ne m ρ c main_arg6 (by decide)).trans (keep_arg6_at7 m ρ c)

theorem keep_v35_at7 (c : Dev nD) : W7 m ρ c (Proc.devRef .tc main_v35) = W6 m ρ c (Proc.devRef .tc main_v35) :=
  (show W7 m ρ c (Proc.devRef .tc main_v35) = W6 m ρ c (Proc.devRef .tc main_v35) from (by host_keepsA hostOps1))

theorem keep_v49_at11 (c : Dev nD) : W11 m ρ c (Proc.devRef .tc main_v49) = W10 m ρ c (Proc.devRef .tc main_v49) :=
  (show W11 m ρ c (Proc.devRef .tc main_v49) = W10 m ρ c (Proc.devRef .tc main_v49) from (by host_keepsA hostOps3))

theorem keep_v63_at15 (c : Dev nD) : W15 m ρ c (Proc.devRef .tc main_v63) = W14 m ρ c (Proc.devRef .tc main_v63) :=
  (show W15 m ρ c (Proc.devRef .tc main_v63) = W14 m ρ c (Proc.devRef .tc main_v63) from (by host_keepsA hostOps5))

end Cert.KernelIdeal.CarriedA

end
-- ==== Proof.CarriedB.lean ====
/-
  Buffers that no later operation writes keep their contents: an argument array, the two normalisation columns, and each
  region's output until the next region reads it are the same (a region leaves the arrays of its input windows as it found them) at every later boundary of the program's run.
-/
import proofs.«131747_j2997887173231_1_alg».proof.Proof.Gen.KernelIdeal.Frame
import Idealize.ShloMosaic.PureOps.Ideal

set_option maxRecDepth 16384

noncomputable section

namespace Cert.KernelIdeal.CarriedB

open Cert.KernelIdeal Cert.KernelIdeal.Gen Idealize.ShloMosaic Idealize.ShloMosaic.TcCoe

/-- A stretch of host operations leaves a buffer alone when none of them writes it. -/
macro "host_keepsB" ops:ident : tactic => `(tactic| exact StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

variable (m : (ℓ : Loc nD τ sig) → Buf (Elt Ideal) ℓ) (ρ : Dev nD → PrngReg)

theorem keep_arg7_at1 (c : Dev nD) : W1 m ρ c (Proc.devRef .tc main_arg7) = W0 m ρ c (Proc.devRef .tc main_arg7) :=
  (show W1 m ρ c (Proc.devRef .tc main_arg7) = W0 m ρ c (Proc.devRef .tc main_arg7) from (by host_keepsB hostOps0))
theorem keep_arg7_at2 (c : Dev nD) : W2 m ρ c (Proc.devRef .tc main_arg7) = W0 m ρ c (Proc.devRef .tc main_arg7) :=
  (show W2 m ρ c (Proc.devRef .tc main_arg7) = W1 m ρ c (Proc.devRef .tc main_arg7) from (by host_keepsB hostOps0_1)).trans (keep_arg7_at1 m ρ c)
theorem keep_arg7_at3 (c : Dev nD) : W3 m ρ c (Proc.devRef .tc main_arg7) = W0 m ρ c (Proc.devRef .tc main_arg7) :=
  (show W3 m ρ c (Proc.devRef .tc main_arg7) = W2 m ρ c (Proc.devRef .tc main_arg7) from (by host_keepsB hostOps0_2)).trans (keep_arg7_at2 m ρ c)
theorem keep_arg7_at4 (c : Dev nD) : W4 m ρ c (Proc.devRef .tc main_arg7) = W0 m ρ c (Proc.devRef .tc main_arg7) :=
  (show W4 m ρ c (Proc.devRef .tc main_arg7) = W3 m ρ c (Proc.devRef .tc main_arg7) from (by host_keepsB hostOps0_3)).trans (keep_arg7_at3 m ρ c)
theorem keep_arg7_at5 (c : Dev nD) : W5 m ρ c (Proc.devRef .tc main_arg7) = W0 m ρ c (Proc.devRef .tc main_arg7) :=
  (show W5 m ρ c (Proc.devRef .tc main_arg7) = W4 m ρ c (Proc.devRef .tc main_arg7) from (by host_keepsB hostOps0_4)).trans (keep_arg7_at4 m ρ c)
theorem keep_arg7_at6 (c : Dev nD) : W6 m ρ c (Proc.devRef .tc main_arg7) = W0 m ρ c (Proc.devRef .tc main_arg7) :=
  (show W6 m ρ c (Proc.devRef .tc main_arg7) = W5 m ρ c (Proc.devRef .tc main_arg7) from W6_of_ne m ρ c main_arg7 (by decide)).trans (keep_arg7_at5 m ρ c)
theorem keep_arg7_at7 (c : Dev nD) : W7 m ρ c (Proc.devRef .tc main_arg7) = W0 m ρ c (Proc.devRef .tc main_arg7) :=
  (show W7 m ρ c (Proc.devRef .tc main_arg7) = W6 m ρ c (Proc.devRef .tc main_arg7) from (by host_keepsB hostOps1)).trans (keep_arg7_at6 m ρ c)
theorem keep_arg7_at8 (c : Dev nD) : W8 m ρ c (Proc.devRef .tc main_arg7) = W0 m ρ c (Proc.devRef .tc main_arg7) :=
  (show W8 m ρ c (Proc.devRef .tc main_arg7) = W7 m ρ c (Proc.devRef .tc main_arg7) from W8_of_ne m ρ c main_arg7 (by decide)).trans (keep_arg7_at7 m ρ c)
theorem keep_arg7_at9 (c : Dev nD) : W9 m ρ c (Proc.devRef .tc main_arg7) = W0 m ρ c (Proc.devRef .tc main_arg7) :=
  (show W9 m ρ c (Proc.devRef .tc main_arg7) = W8 m ρ c (Proc.devRef .tc main_arg7) from (by host_keepsB hostOps2)).trans (keep_arg7_at8 m ρ c)
theorem keep_arg7_at10 (c : Dev nD) : W10 m ρ c (Proc.devRef .tc main_arg7) = W0 m ρ c (Proc.devRef .tc main_arg7) :=
  (show W10 m ρ c (Proc.devRef .tc main_arg7) = W9 m ρ c (Proc.devRef .tc main_arg7) from W10_of_ne m ρ c main_arg7 (by decide)).trans (keep_arg7_at9 m ρ c)

theorem keep_arg8_at1 (c : Dev nD) : W1 m ρ c (Proc.devRef .tc main_arg8) = W0 m ρ c (Proc.devRef .tc main_arg8) :=
  (show W1 m ρ c (Proc.devRef .tc main_arg8) = W0 m ρ c (Proc.devRef .tc main_arg8) from (by host_keepsB hostOps0))
theorem keep_arg8_at2 (c : Dev nD) : W2 m ρ c (Proc.devRef .tc main_arg8) = W0 m ρ c (Proc.devRef .tc main_arg8) :=
  (show W2 m ρ c (Proc.devRef .tc main_arg8) = W1 m ρ c (Proc.devRef .tc main_arg8) from (by host_keepsB hostOps0_1)).trans (keep_arg8_at1 m ρ c)
theorem keep_arg8_at3 (c : Dev nD) : W3 m ρ c (Proc.devRef .tc main_arg8) = W0 m ρ c (Proc.devRef .tc main_arg8) :=
  (show W3 m ρ c (Proc.devRef .tc main_arg8) = W2 m ρ c (Proc.devRef .tc main_arg8) from (by host_keepsB hostOps0_2)).trans (keep_arg8_at2 m ρ c)
theorem keep_arg8_at4 (c : Dev nD) : W4 m ρ c (Proc.devRef .tc main_arg8) = W0 m ρ c (Proc.devRef .tc main_arg8) :=
  (show W4 m ρ c (Proc.devRef .tc main_arg8) = W3 m ρ c (Proc.devRef .tc main_arg8) from (by host_keepsB hostOps0_3)).trans (keep_arg8_at3 m ρ c)
theorem keep_arg8_at5 (c : Dev nD) : W5 m ρ c (Proc.devRef .tc main_arg8) = W0 m ρ c (Proc.devRef .tc main_arg8) :=
  (show W5 m ρ c (Proc.devRef .tc main_arg8) = W4 m ρ c (Proc.devRef .tc main_arg8) from (by host_keepsB hostOps0_4)).trans (keep_arg8_at4 m ρ c)
theorem keep_arg8_at6 (c : Dev nD) : W6 m ρ c (Proc.devRef .tc main_arg8) = W0 m ρ c (Proc.devRef .tc main_arg8) :=
  (show W6 m ρ c (Proc.devRef .tc main_arg8) = W5 m ρ c (Proc.devRef .tc main_arg8) from W6_of_ne m ρ c main_arg8 (by decide)).trans (keep_arg8_at5 m ρ c)
theorem keep_arg8_at7 (c : Dev nD) : W7 m ρ c (Proc.devRef .tc main_arg8) = W0 m ρ c (Proc.devRef .tc main_arg8) :=
  (show W7 m ρ c (Proc.devRef .tc main_arg8) = W6 m ρ c (Proc.devRef .tc main_arg8) from (by host_keepsB hostOps1)).trans (keep_arg8_at6 m ρ c)
theorem keep_arg8_at8 (c : Dev nD) : W8 m ρ c (Proc.devRef .tc main_arg8) = W0 m ρ c (Proc.devRef .tc main_arg8) :=
  (show W8 m ρ c (Proc.devRef .tc main_arg8) = W7 m ρ c (Proc.devRef .tc main_arg8) from W8_of_ne m ρ c main_arg8 (by decide)).trans (keep_arg8_at7 m ρ c)
theorem keep_arg8_at9 (c : Dev nD) : W9 m ρ c (Proc.devRef .tc main_arg8) = W0 m ρ c (Proc.devRef .tc main_arg8) :=
  (show W9 m ρ c (Proc.devRef .tc main_arg8) = W8 m ρ c (Proc.devRef .tc main_arg8) from (by host_keepsB hostOps2)).trans (keep_arg8_at8 m ρ c)
theorem keep_arg8_at10 (c : Dev nD) : W10 m ρ c (Proc.devRef .tc main_arg8) = W0 m ρ c (Proc.devRef .tc main_arg8) :=
  (show W10 m ρ c (Proc.devRef .tc main_arg8) = W9 m ρ c (Proc.devRef .tc main_arg8) from W10_of_ne m ρ c main_arg8 (by decide)).trans (keep_arg8_at9 m ρ c)
theorem keep_arg8_at11 (c : Dev nD) : W11 m ρ c (Proc.devRef .tc main_arg8) = W0 m ρ c (Proc.devRef .tc main_arg8) :=
  (show W11 m ρ c (Proc.devRef .tc main_arg8) = W10 m ρ c (Proc.devRef .tc main_arg8) from (by host_keepsB hostOps3)).trans (keep_arg8_at10 m ρ c)
theorem keep_arg8_at12 (c : Dev nD) : W12 m ρ c (Proc.devRef .tc main_arg8) = W0 m ρ c (Proc.devRef .tc main_arg8) :=
  (show W12 m ρ c (Proc.devRef .tc main_arg8) = W11 m ρ c (Proc.devRef .tc main_arg8) from W12_of_ne m ρ c main_arg8 (by decide)).trans (keep_arg8_at11 m ρ c)

theorem keep_arg9_at1 (c : Dev nD) : W1 m ρ c (Proc.devRef .tc main_arg9) = W0 m ρ c (Proc.devRef .tc main_arg9) :=
  (show W1 m ρ c (Proc.devRef .tc main_arg9) = W0 m ρ c (Proc.devRef .tc main_arg9) from (by host_keepsB hostOps0))
theorem keep_arg9_at2 (c : Dev nD) : W2 m ρ c (Proc.devRef .tc main_arg9) = W0 m ρ c (Proc.devRef .tc main_arg9) :=
  (show W2 m ρ c (Proc.devRef .tc main_arg9) = W1 m ρ c (Proc.devRef .tc main_arg9) from (by host_keepsB hostOps0_1)).trans (keep_arg9_at1 m ρ c)
theorem keep_arg9_at3 (c : Dev nD) : W3 m ρ c (Proc.devRef .tc main_arg9) = W0 m ρ c (Proc.devRef .tc main_arg9) :=
  (show W3 m ρ c (Proc.devRef .tc main_arg9) = W2 m ρ c (Proc.devRef .tc main_arg9) from (by host_keepsB hostOps0_2)).trans (keep_arg9_at2 m ρ c)
theorem keep_arg9_at4 (c : Dev nD) : W4 m ρ c (Proc.devRef .tc main_arg9) = W0 m ρ c (Proc.devRef .tc main_arg9) :=
  (show W4 m ρ c (Proc.devRef .tc main_arg9) = W3 m ρ c (Proc.devRef .tc main_arg9) from (by host_keepsB hostOps0_3)).trans (keep_arg9_at3 m ρ c)
theorem keep_arg9_at5 (c : Dev nD) : W5 m ρ c (Proc.devRef .tc main_arg9) = W0 m ρ c (Proc.devRef .tc main_arg9) :=
  (show W5 m ρ c (Proc.devRef .tc main_arg9) = W4 m ρ c (Proc.devRef .tc main_arg9) from (by host_keepsB hostOps0_4)).trans (keep_arg9_at4 m ρ c)
theorem keep_arg9_at6 (c : Dev nD) : W6 m ρ c (Proc.devRef .tc main_arg9) = W0 m ρ c (Proc.devRef .tc main_arg9) :=
  (show W6 m ρ c (Proc.devRef .tc main_arg9) = W5 m ρ c (Proc.devRef .tc main_arg9) from W6_of_ne m ρ c main_arg9 (by decide)).trans (keep_arg9_at5 m ρ c)
theorem keep_arg9_at7 (c : Dev nD) : W7 m ρ c (Proc.devRef .tc main_arg9) = W0 m ρ c (Proc.devRef .tc main_arg9) :=
  (show W7 m ρ c (Proc.devRef .tc main_arg9) = W6 m ρ c (Proc.devRef .tc main_arg9) from (by host_keepsB hostOps1)).trans (keep_arg9_at6 m ρ c)
theorem keep_arg9_at8 (c : Dev nD) : W8 m ρ c (Proc.devRef .tc main_arg9) = W0 m ρ c (Proc.devRef .tc main_arg9) :=
  (show W8 m ρ c (Proc.devRef .tc main_arg9) = W7 m ρ c (Proc.devRef .tc main_arg9) from W8_of_ne m ρ c main_arg9 (by decide)).trans (keep_arg9_at7 m ρ c)
theorem keep_arg9_at9 (c : Dev nD) : W9 m ρ c (Proc.devRef .tc main_arg9) = W0 m ρ c (Proc.devRef .tc main_arg9) :=
  (show W9 m ρ c (Proc.devRef .tc main_arg9) = W8 m ρ c (Proc.devRef .tc main_arg9) from (by host_keepsB hostOps2)).trans (keep_arg9_at8 m ρ c)
theorem keep_arg9_at10 (c : Dev nD) : W10 m ρ c (Proc.devRef .tc main_arg9) = W0 m ρ c (Proc.devRef .tc main_arg9) :=
  (show W10 m ρ c (Proc.devRef .tc main_arg9) = W9 m ρ c (Proc.devRef .tc main_arg9) from W10_of_ne m ρ c main_arg9 (by decide)).trans (keep_arg9_at9 m ρ c)
theorem keep_arg9_at11 (c : Dev nD) : W11 m ρ c (Proc.devRef .tc main_arg9) = W0 m ρ c (Proc.devRef .tc main_arg9) :=
  (show W11 m ρ c (Proc.devRef .tc main_arg9) = W10 m ρ c (Proc.devRef .tc main_arg9) from (by host_keepsB hostOps3)).trans (keep_arg9_at10 m ρ c)
theorem keep_arg9_at12 (c : Dev nD) : W12 m ρ c (Proc.devRef .tc main_arg9) = W0 m ρ c (Proc.devRef .tc main_arg9) :=
  (show W12 m ρ c (Proc.devRef .tc main_arg9) = W11 m ρ c (Proc.devRef .tc main_arg9) from W12_of_ne m ρ c main_arg9 (by decide)).trans (keep_arg9_at11 m ρ c)
theorem keep_arg9_at13 (c : Dev nD) : W13 m ρ c (Proc.devRef .tc main_arg9) = W0 m ρ c (Proc.devRef .tc main_arg9) :=
  (show W13 m ρ c (Proc.devRef .tc main_arg9) = W12 m ρ c (Proc.devRef .tc main_arg9) from (by host_keepsB hostOps4)).trans (keep_arg9_at12 m ρ c)
theorem keep_arg9_at14 (c : Dev nD) : W14 m ρ c (Proc.devRef .tc main_arg9) = W0 m ρ c (Proc.devRef .tc main_arg9) :=
  (show W14 m ρ c (Proc.devRef .tc main_arg9) = W13 m ρ c (Proc.devRef .tc main_arg9) from W14_of_ne m ρ c main_arg9 (by decide)).trans (keep_arg9_at13 m ρ c)

theorem keep_arg10_at1 (c : Dev nD) : W1 m ρ c (Proc.devRef .tc main_arg10) = W0 m ρ c (Proc.devRef .tc main_arg10) :=
  (show W1 m ρ c (Proc.devRef .tc main_arg10) = W0 m ρ c (Proc.devRef .tc main_arg10) from (by host_keepsB hostOps0))
theorem keep_arg10_at2 (c : Dev nD) : W2 m ρ c (Proc.devRef .tc main_arg10) = W0 m ρ c (Proc.devRef .tc main_arg10) :=
  (show W2 m ρ c (Proc.devRef .tc main_arg10) = W1 m ρ c (Proc.devRef .tc main_arg10) from (by host_keepsB hostOps0_1)).trans (keep_arg10_at1 m ρ c)
theorem keep_arg10_at3 (c : Dev nD) : W3 m ρ c (Proc.devRef .tc main_arg10) = W0 m ρ c (Proc.devRef .tc main_arg10) :=
  (show W3 m ρ c (Proc.devRef .tc main_arg10) = W2 m ρ c (Proc.devRef .tc main_arg10) from (by host_keepsB hostOps0_2)).trans (keep_arg10_at2 m ρ c)
theorem keep_arg10_at4 (c : Dev nD) : W4 m ρ c (Proc.devRef .tc main_arg10) = W0 m ρ c (Proc.devRef .tc main_arg10) :=
  (show W4 m ρ c (Proc.devRef .tc main_arg10) = W3 m ρ c (Proc.devRef .tc main_arg10) from (by host_keepsB hostOps0_3)).trans (keep_arg10_at3 m ρ c)
theorem keep_arg10_at5 (c : Dev nD) : W5 m ρ c (Proc.devRef .tc main_arg10) = W0 m ρ c (Proc.devRef .tc main_arg10) :=
  (show W5 m ρ c (Proc.devRef .tc main_arg10) = W4 m ρ c (Proc.devRef .tc main_arg10) from (by host_keepsB hostOps0_4)).trans (keep_arg10_at4 m ρ c)
theorem keep_arg10_at6 (c : Dev nD) : W6 m ρ c (Proc.devRef .tc main_arg10) = W0 m ρ c (Proc.devRef .tc main_arg10) :=
  (show W6 m ρ c (Proc.devRef .tc main_arg10) = W5 m ρ c (Proc.devRef .tc main_arg10) from W6_of_ne m ρ c main_arg10 (by decide)).trans (keep_arg10_at5 m ρ c)
theorem keep_arg10_at7 (c : Dev nD) : W7 m ρ c (Proc.devRef .tc main_arg10) = W0 m ρ c (Proc.devRef .tc main_arg10) :=
  (show W7 m ρ c (Proc.devRef .tc main_arg10) = W6 m ρ c (Proc.devRef .tc main_arg10) from (by host_keepsB hostOps1)).trans (keep_arg10_at6 m ρ c)
theorem keep_arg10_at8 (c : Dev nD) : W8 m ρ c (Proc.devRef .tc main_arg10) = W0 m ρ c (Proc.devRef .tc main_arg10) :=
  (show W8 m ρ c (Proc.devRef .tc main_arg10) = W7 m ρ c (Proc.devRef .tc main_arg10) from W8_of_ne m ρ c main_arg10 (by decide)).trans (keep_arg10_at7 m ρ c)
theorem keep_arg10_at9 (c : Dev nD) : W9 m ρ c (Proc.devRef .tc main_arg10) = W0 m ρ c (Proc.devRef .tc main_arg10) :=
  (show W9 m ρ c (Proc.devRef .tc main_arg10) = W8 m ρ c (Proc.devRef .tc main_arg10) from (by host_keepsB hostOps2)).trans (keep_arg10_at8 m ρ c)
theorem keep_arg10_at10 (c : Dev nD) : W10 m ρ c (Proc.devRef .tc main_arg10) = W0 m ρ c (Proc.devRef .tc main_arg10) :=
  (show W10 m ρ c (Proc.devRef .tc main_arg10) = W9 m ρ c (Proc.devRef .tc main_arg10) from W10_of_ne m ρ c main_arg10 (by decide)).trans (keep_arg10_at9 m ρ c)
theorem keep_arg10_at11 (c : Dev nD) : W11 m ρ c (Proc.devRef .tc main_arg10) = W0 m ρ c (Proc.devRef .tc main_arg10) :=
  (show W11 m ρ c (Proc.devRef .tc main_arg10) = W10 m ρ c (Proc.devRef .tc main_arg10) from (by host_keepsB hostOps3)).trans (keep_arg10_at10 m ρ c)
theorem keep_arg10_at12 (c : Dev nD) : W12 m ρ c (Proc.devRef .tc main_arg10) = W0 m ρ c (Proc.devRef .tc main_arg10) :=
  (show W12 m ρ c (Proc.devRef .tc main_arg10) = W11 m ρ c (Proc.devRef .tc main_arg10) from W12_of_ne m ρ c main_arg10 (by decide)).trans (keep_arg10_at11 m ρ c)
theorem keep_arg10_at13 (c : Dev nD) : W13 m ρ c (Proc.devRef .tc main_arg10) = W0 m ρ c (Proc.devRef .tc main_arg10) :=
  (show W13 m ρ c (Proc.devRef .tc main_arg10) = W12 m ρ c (Proc.devRef .tc main_arg10) from (by host_keepsB hostOps4)).trans (keep_arg10_at12 m ρ c)
theorem keep_arg10_at14 (c : Dev nD) : W14 m ρ c (Proc.devRef .tc main_arg10) = W0 m ρ c (Proc.devRef .tc main_arg10) :=
  (show W14 m ρ c (Proc.devRef .tc main_arg10) = W13 m ρ c (Proc.devRef .tc main_arg10) from W14_of_ne m ρ c main_arg10 (by decide)).trans (keep_arg10_at13 m ρ c)
theorem keep_arg10_at15 (c : Dev nD) : W15 m ρ c (Proc.devRef .tc main_arg10) = W0 m ρ c (Proc.devRef .tc main_arg10) :=
  (show W15 m ρ c (Proc.devRef .tc main_arg10) = W14 m ρ c (Proc.devRef .tc main_arg10) from (by host_keepsB hostOps5)).trans (keep_arg10_at14 m ρ c)
theorem keep_arg10_at16 (c : Dev nD) : W16 m ρ c (Proc.devRef .tc main_arg10) = W0 m ρ c (Proc.devRef .tc main_arg10) :=
  (show W16 m ρ c (Proc.devRef .tc main_arg10) = W15 m ρ c (Proc.devRef .tc main_arg10) from W16_of_ne m ρ c main_arg10 (by decide)).trans (keep_arg10_at15 m ρ c)

theorem keep_v19_at6 (c : Dev nD) : W6 m ρ c (Proc.devRef .tc main_v19) = W5 m ρ c (Proc.devRef .tc main_v19) :=
  (show W6 m ρ c (Proc.devRef .tc main_v19) = W5 m ρ c (Proc.devRef .tc main_v19) from W6_of_ne m ρ c main_v19 (by decide))
theorem keep_v19_at7 (c : Dev nD) : W7 m ρ c (Proc.devRef .tc main_v19) = W5 m ρ c (Proc.devRef .tc main_v19) :=
  (show W7 m ρ c (Proc.devRef .tc main_v19) = W6 m ρ c (Proc.devRef .tc main_v19) from (by host_keepsB hostOps1)).trans (keep_v19_at6 m ρ c)
theorem keep_v19_at8 (c : Dev nD) : W8 m ρ c (Proc.devRef .tc main_v19) = W5 m ρ c (Proc.devRef .tc main_v19) :=
  (show W8 m ρ c (Proc.devRef .tc main_v19) = W7 m ρ c (Proc.devRef .tc main_v19) from (W8_arr m ρ c 2).trans (((dat1 (V7 m ρ) c).arrAt_in 2 (by decide) cfg1.N).trans (A_eq1 (V7 m ρ) c 2))).trans (keep_v19_at7 m ρ c)
theorem keep_v19_at9 (c : Dev nD) : W9 m ρ c (Proc.devRef .tc main_v19) = W5 m ρ c (Proc.devRef .tc main_v19) :=
  (show W9 m ρ c (Proc.devRef .tc main_v19) = W8 m ρ c (Proc.devRef .tc main_v19) from (by host_keepsB hostOps2)).trans (keep_v19_at8 m ρ c)
theorem keep_v19_at10 (c : Dev nD) : W10 m ρ c (Proc.devRef .tc main_v19) = W5 m ρ c (Proc.devRef .tc main_v19) :=
  (show W10 m ρ c (Proc.devRef .tc main_v19) = W9 m ρ c (Proc.devRef .tc main_v19) from W10_of_ne m ρ c main_v19 (by decide)).trans (keep_v19_at9 m ρ c)
theorem keep_v19_at11 (c : Dev nD) : W11 m ρ c (Proc.devRef .tc main_v19) = W5 m ρ c (Proc.devRef .tc main_v19) :=
  (show W11 m ρ c (Proc.devRef .tc main_v19) = W10 m ρ c (Proc.devRef .tc main_v19) from (by host_keepsB hostOps3)).trans (keep_v19_at10 m ρ c)
theorem keep_v19_at12 (c : Dev nD) : W12 m ρ c (Proc.devRef .tc main_v19) = W5 m ρ c (Proc.devRef .tc main_v19) :=
  (show W12 m ρ c (Proc.devRef .tc main_v19) = W11 m ρ c (Proc.devRef .tc main_v19) from (W12_arr m ρ c 2).trans (((dat3 (V11 m ρ) c).arrAt_in 2 (by decide) cfg3.N).trans (A_eq3 (V11 m ρ) c 2))).trans (keep_v19_at11 m ρ c)
theorem keep_v19_at13 (c : Dev nD) : W13 m ρ c (Proc.devRef .tc main_v19) = W5 m ρ c (Proc.devRef .tc main_v19) :=
  (show W13 m ρ c (Proc.devRef .tc main_v19) = W12 m ρ c (Proc.devRef .tc main_v19) from (by host_keepsB hostOps4)).trans (keep_v19_at12 m ρ c)
theorem keep_v19_at14 (c : Dev nD) : W14 m ρ c (Proc.devRef .tc main_v19) = W5 m ρ c (Proc.devRef .tc main_v19) :=
  (show W14 m ρ c (Proc.devRef .tc main_v19) = W13 m ρ c (Proc.devRef .tc main_v19) from W14_of_ne m ρ c main_v19 (by decide)).trans (keep_v19_at13 m ρ c)
theorem keep_v19_at15 (c : Dev nD) : W15 m ρ c (Proc.devRef .tc main_v19) = W5 m ρ c (Proc.devRef .tc main_v19) :=
  (show W15 m ρ c (Proc.devRef .tc main_v19) = W14 m ρ c (Proc.devRef .tc main_v19) from (by host_keepsB hostOps5)).trans (keep_v19_at14 m ρ c)

theorem keep_v20_at6 (c : Dev nD) : W6 m ρ c (Proc.devRef .tc main_v20) = W5 m ρ c (Proc.devRef .tc main_v20) :=
  (show W6 m ρ c (Proc.devRef .tc main_v20) = W5 m ρ c (Proc.devRef .tc main_v20) from (W6_arr m ρ c 1).trans (((dat0 (V5 m ρ) c).arrAt_in 1 (by decide) cfg0.N).trans (A_eq0 (V5 m ρ) c 1)))
theorem keep_v20_at7 (c : Dev nD) : W7 m ρ c (Proc.devRef .tc main_v20) = W5 m ρ c (Proc.devRef .tc main_v20) :=
  (show W7 m ρ c (Proc.devRef .tc main_v20) = W6 m ρ c (Proc.devRef .tc main_v20) from (by host_keepsB hostOps1)).trans (keep_v20_at6 m ρ c)
theorem keep_v20_at8 (c : Dev nD) : W8 m ρ c (Proc.devRef .tc main_v20) = W5 m ρ c (Proc.devRef .tc main_v20) :=
  (show W8 m ρ c (Proc.devRef .tc main_v20) = W7 m ρ c (Proc.devRef .tc main_v20) from W8_of_ne m ρ c main_v20 (by decide)).trans (keep_v20_at7 m ρ c)
theorem keep_v20_at9 (c : Dev nD) : W9 m ρ c (Proc.devRef .tc main_v20) = W5 m ρ c (Proc.devRef .tc main_v20) :=
  (show W9 m ρ c (Proc.devRef .tc main_v20) = W8 m ρ c (Proc.devRef .tc main_v20) from (by host_keepsB hostOps2)).trans (keep_v20_at8 m ρ c)
theorem keep_v20_at10 (c : Dev nD) : W10 m ρ c (Proc.devRef .tc main_v20) = W5 m ρ c (Proc.devRef .tc main_v20) :=
  (show W10 m ρ c (Proc.devRef .tc main_v20) = W9 m ρ c (Proc.devRef .tc main_v20) from (W10_arr m ρ c 1).trans (((dat2 (V9 m ρ) c).arrAt_in 1 (by decide) cfg2.N).trans (A_eq2 (V9 m ρ) c 1))).trans (keep_v20_at9 m ρ c)
theorem keep_v20_at11 (c : Dev nD) : W11 m ρ c (Proc.devRef .tc main_v20) = W5 m ρ c (Proc.devRef .tc main_v20) :=
  (show W11 m ρ c (Proc.devRef .tc main_v20) = W10 m ρ c (Proc.devRef .tc main_v20) from (by host_keepsB hostOps3)).trans (keep_v20_at10 m ρ c)
theorem keep_v20_at12 (c : Dev nD) : W12 m ρ c (Proc.devRef .tc main_v20) = W5 m ρ c (Proc.devRef .tc main_v20) :=
  (show W12 m ρ c (Proc.devRef .tc main_v20) = W11 m ρ c (Proc.devRef .tc main_v20) from W12_of_ne m ρ c main_v20 (by decide)).trans (keep_v20_at11 m ρ c)
theorem keep_v20_at13 (c : Dev nD) : W13 m ρ c (Proc.devRef .tc main_v20) = W5 m ρ c (Proc.devRef .tc main_v20) :=
  (show W13 m ρ c (Proc.devRef .tc main_v20) = W12 m ρ c (Proc.devRef .tc main_v20) from (by host_keepsB hostOps4)).trans (keep_v20_at12 m ρ c)
theorem keep_v20_at14 (c : Dev nD) : W14 m ρ c (Proc.devRef .tc main_v20) = W5 m ρ c (Proc.devRef .tc main_v20) :=
  (show W14 m ρ c (Proc.devRef .tc main_v20) = W13 m ρ c (Proc.devRef .tc main_v20) from (W14_arr m ρ c 1).trans (((dat4 (V13 m ρ) c).arrAt_in 1 (by decide) cfg4.N).trans (A_eq4 (V13 m ρ) c 1))).trans (keep_v20_at13 m ρ c)
theorem keep_v20_at15 (c : Dev nD) : W15 m ρ c (Proc.devRef .tc main_v20) = W5 m ρ c (Proc.devRef .tc main_v20) :=
  (show W15 m ρ c (Proc.devRef .tc main_v20) = W14 m ρ c (Proc.devRef .tc main_v20) from (by host_keepsB hostOps5)).trans (keep_v20_at14 m ρ c)
theorem keep_v20_at16 (c : Dev nD) : W16 m ρ c (Proc.devRef .tc main_v20) = W5 m ρ c (Proc.devRef .tc main_v20) :=
  (show W16 m ρ c (Proc.devRef .tc main_v20) = W15 m ρ c (Proc.devRef .tc main_v20) from W16_of_ne m ρ c main_v20 (by decide)).trans (keep_v20_at15 m ρ c)
theorem keep_v20_at17 (c : Dev nD) : W17 m ρ c (Proc.devRef .tc main_v20) = W5 m ρ c (Proc.devRef .tc main_v20) :=
  (show W17 m ρ c (Proc.devRef .tc main_v20) = W16 m ρ c (Proc.devRef .tc main_v20) from (by host_keepsB hostOps6)).trans (keep_v20_at16 m ρ c)

end Cert.KernelIdeal.CarriedB

end
-- ==== Proof.KValue.lean ====
/-
  The idealized kernel's result, boundary by boundary. Between the seven pallas_calls the host computes, from the edge
  lists, the two degree normalisations (one column each), multiplies the input features by the source column, and for
  every layer gathers the rows of the projected features along the edges and adds them up at the destination nodes.
  Each pallas_call's output array is one of the three dense steps of the layer forms applied to whole arrays. Reading
  the run's fold of buffer contents from the launch to the return, the result buffer holds the four layers composed.
-/
import proofs.«131747_j2997887173231_1_alg».proof.Proof.Gen.KernelIdeal.Frame
import proofs.«131747_j2997887173231_1_alg».proof.Proof.LibLayerForms
import proofs.«131747_j2997887173231_1_alg».proof.Proof.Region0
import proofs.«131747_j2997887173231_1_alg».proof.Proof.Region1
import proofs.«131747_j2997887173231_1_alg».proof.Proof.Region2
import proofs.«131747_j2997887173231_1_alg».proof.Proof.Region3
import proofs.«131747_j2997887173231_1_alg».proof.Proof.Region4
import proofs.«131747_j2997887173231_1_alg».proof.Proof.Region5
import proofs.«131747_j2997887173231_1_alg».proof.Proof.Region6
import proofs.«131747_j2997887173231_1_alg».proof.Proof.CarriedA
import proofs.«131747_j2997887173231_1_alg».proof.Proof.CarriedB
import Idealize.ShloMosaic.PureOps.Ideal
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.ShloMosaic.StableHlo
open Cert.LayerForms Cert.KernelIdeal.CarriedA Cert.KernelIdeal.CarriedB

/-! ## Equal operands give equal steps -/

section Congr
variable {R K N : ℕ} {φ : FTy}
theorem scaleDotBiasRelu_congr {a a' : FVec Ideal ⟨2, ![R, K]⟩ .f32} {c c' : FVec Ideal ⟨2, ![R, 1]⟩ .f32} {W W' : FVec Ideal ⟨2, ![K, N]⟩ φ}
    {b b' : FVec Ideal ⟨2, ![1, N]⟩ .f32} (ha : a = a') (hc : c = c') (hW : W = W') (hb : b = b') :
    scaleDotBiasRelu a c W b = scaleDotBiasRelu a' c' W' b' := by subst ha hc hW hb; rfl
theorem dotScale_congr {h h' : FVec Ideal ⟨2, ![R, K]⟩ .f32} {W W' : FVec Ideal ⟨2, ![K, N]⟩ φ} {c c' : FVec Ideal ⟨2, ![R, 1]⟩ .f32}
    (hh : h = h') (hW : W = W') (hc : c = c') : dotScale h W c = dotScale h' W' c' := by subst hh hW hc; rfl
theorem scaleBiasRelu_congr {a a' : FVec Ideal ⟨2, ![R, N]⟩ .f32} {c c' : FVec Ideal ⟨2, ![R, 1]⟩ .f32} {b b' : FVec Ideal ⟨2, ![1, N]⟩ .f32}
    (ha : a = a') (hc : c = c') (hb : b = b') : scaleBiasRelu a c b = scaleBiasRelu a' c' b' := by subst ha hc hb; rfl
/-- A change of float format is the identity on the extended reals: a weight stored in the narrower format gives the same step. -/
theorem scaleDotBiasRelu_truncf (a : FVec Ideal ⟨2, ![R, K]⟩ .f32) (c : FVec Ideal ⟨2, ![R, 1]⟩ .f32) (W : FVec Ideal ⟨2, ![K, N]⟩ .f32)
    (b : FVec Ideal ⟨2, ![1, N]⟩ .f32) (h : FTy.bf16.bits < FTy.f32.bits) :
    scaleDotBiasRelu (φ := .bf16) a c (truncf .bf16 W h) b = scaleDotBiasRelu (φ := .f32) a c W b := rfl
theorem dotScale_truncf (x : FVec Ideal ⟨2, ![R, K]⟩ .f32) (W : FVec Ideal ⟨2, ![K, N]⟩ .f32) (c : FVec Ideal ⟨2, ![R, 1]⟩ .f32)
    (h : FTy.bf16.bits < FTy.f32.bits) :
    dotScale (φ := .bf16) x (truncf .bf16 W h) c = dotScale (φ := .f32) x W c := rfl
end Congr

/-! ## The host's part, as functions of the edge lists -/

/-- How many edges name each node, as a float count: ones added up at the nodes the list names. -/
def degOf (idx : IVec S800000 32) : FVec Ideal S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 idx)
    (broadcastInDim S800000 ![] bcast_S_S800000 (constant S_ .f32 0x3F800000#32))

/-- The degree normalisation: 1/sqrt(max(degree, 1)) where the degree is positive, zero elsewhere. -/
def normOf (idx : IVec S800000 32) : FVec Ideal S50000 .f32 :=
  select (cmpf (F := Ideal) .ogt (degOf idx) (broadcastInDim S50000 ![] bcast_S_S50000 (constant S_ .f32 0x00000000#32)))
    (Host.rsqrt (maximumf (degOf idx) (broadcastInDim S50000 ![] bcast_S_S50000 (constant S_ .f32 0x3F800000#32))))
    (broadcastInDim S50000 ![] bcast_S_S50000 (constant S_ .f32 0x00000000#32))

/-- A per-node vector as a 50000×1 column. -/
def colOf (v : FVec Ideal S50000 .f32) : FVec Ideal S50000x1 .f32 := broadcastInDim S50000x1 ![0] bcast_S50000_S50000x1_0 v

/-- A node index below zero counts from the end. -/
def wrapIdx (src : IVec S800000 32) : IVec S800000 32 :=
  select (cmpi .slt src (broadcastInDim S800000 ![] bcast_S_S800000 (constantI S_ 32 0#32)))
    (addi src (broadcastInDim S800000 ![] bcast_S_S800000 (constantI S_ 32 50000#32))) src

/-- One aggregation over the edges of 128-wide rows: each edge carries the row of its source node into a sum at its destination node. -/
def agg128 (src dst : IVec S800000 32) (h : FVec Ideal S50000x128 .f32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h (broadcastInDim S800000x1 ![0] bcast_S800000_S800000x1_0 (wrapIdx src)))

/-- One aggregation over the edges of 64-wide rows: each edge carries the row of its source node into a sum at its destination node. -/
def agg64 (src dst : IVec S800000 32) (h : FVec Ideal S50000x64 .f32) : FVec Ideal S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst)
    (Host.gather gather_S50000x64_S800000x1_S800000x64_1_0_n_n_0_1_164 h (broadcastInDim S800000x1 ![0] bcast_S800000_S800000x1_0 (wrapIdx src)))

/-- One aggregation over the edges of 16-wide rows: each edge carries the row of its source node into a sum at its destination node. -/
def agg16 (src dst : IVec S800000 32) (h : FVec Ideal S50000x16 .f32) : FVec Ideal S50000x16 .f32 :=
  Host.scatterAdd scatter_S50000x16_S800000x1_S800000x16_1_0_0_1
    (broadcastInDim S50000x16 ![] bcast_S_S50000x16 (constant S_ .f32 0x00000000#32))
    (broadcastInDim S800000x1 ![0] bcast_S800000_S800000x1_0 dst)
    (Host.gather gather_S50000x16_S800000x1_S800000x16_1_0_n_n_0_1_116 h (broadcastInDim S800000x1 ![0] bcast_S800000_S800000x1_0 (wrapIdx src)))

/-- One aggregation over the edges of 2-wide rows: each edge carries the row of its source node into a sum at its destination node. -/
def agg2 (src dst : IVec S800000 32) (h : FVec Ideal S50000x2 .f32) : FVec Ideal S50000x2 .f32 :=
  Host.scatterAdd scatter_S50000x2_S800000x1_S800000x2_1_0_0_1
    (broadcastInDim S50000x2 ![] bcast_S_S50000x2 (constant S_ .f32 0x00000000#32))
    (broadcastInDim S800000x1 ![0] bcast_S800000_S800000x1_0 dst)
    (Host.gather gather_S50000x2_S800000x1_S800000x2_1_0_n_n_0_1_12 h (broadcastInDim S800000x1 ![0] bcast_S800000_S800000x1_0 (wrapIdx src)))

variable (m : (ℓ : Loc nD τ sig) → Buf (Elt Ideal) ℓ) (ρ : Dev nD → PrngReg)

/-! ## The layers, from the launch contents -/

/-- The source-side and the destination-side normalisation columns. -/
def nsCol (c : Dev nD) : FVec Ideal S50000x1 .f32 := colOf (normOf (m ((c : Thread nD τ).loc main_arg1)))
def ndCol (c : Dev nD) : FVec Ideal S50000x1 .f32 := colOf (normOf (m ((c : Thread nD τ).loc main_arg2)))

/-- The input features with each row scaled by its node's source normalisation. -/
def x0 (c : Dev nD) : FVec Ideal S50000x128 .f32 :=
  mulf (m ((c : Thread nD τ).loc main_arg0)) (broadcastInDim S50000x128 ![0, 1] bcast_S50000x1_S50000x128_0_1 (nsCol m c))

/-- Layer 1: aggregate, scale by the destination column, project 128 → 512, add the bias, clip. -/
def h1 (c : Dev nD) : FVec Ideal S50000x512 .f32 :=
  scaleDotBiasRelu (φ := .f32) (agg128 (m ((c : Thread nD τ).loc main_arg1)) (m ((c : Thread nD τ).loc main_arg2)) (x0 m c)) (ndCol m c) (m ((c : Thread nD τ).loc main_arg3)) (Cert.Row.rowOf (m ((c : Thread nD τ).loc main_arg4)))
/-- Layer 2: project 512 → 64 and scale by the source column; aggregate; scale by the destination column, add the bias, clip. -/
def y2 (c : Dev nD) : FVec Ideal S50000x64 .f32 := dotScale (φ := .f32) (h1 m c) (m ((c : Thread nD τ).loc main_arg5)) (nsCol m c)
def h2 (c : Dev nD) : FVec Ideal S50000x64 .f32 :=
  scaleBiasRelu (agg64 (m ((c : Thread nD τ).loc main_arg1)) (m ((c : Thread nD τ).loc main_arg2)) (y2 m c)) (ndCol m c) (Cert.Row.rowOf (m ((c : Thread nD τ).loc main_arg6)))
/-- Layer 3: 64 → 16. -/
def y3 (c : Dev nD) : FVec Ideal S50000x16 .f32 := dotScale (φ := .f32) (h2 m c) (m ((c : Thread nD τ).loc main_arg7)) (nsCol m c)
def h3 (c : Dev nD) : FVec Ideal S50000x16 .f32 :=
  scaleBiasRelu (agg16 (m ((c : Thread nD τ).loc main_arg1)) (m ((c : Thread nD τ).loc main_arg2)) (y3 m c)) (ndCol m c) (Cert.Row.rowOf (m ((c : Thread nD τ).loc main_arg8)))
/-- Layer 4: 16 → 2. -/
def y4 (c : Dev nD) : FVec Ideal S50000x2 .f32 := dotScale (φ := .f32) (h3 m c) (m ((c : Thread nD τ).loc main_arg9)) (nsCol m c)
def h4 (c : Dev nD) : FVec Ideal S50000x2 .f32 :=
  scaleBiasRelu (agg2 (m ((c : Thread nD τ).loc main_arg1)) (m ((c : Thread nD τ).loc main_arg2)) (y4 m c)) (ndCol m c) (Cert.Row.rowOf (m ((c : Thread nD τ).loc main_arg10)))

/-! ## Before the first pallas_call -/

/-- The clip to zero of a normalisation goes through a called function whose buffers hold the same values: the
    select of the call is the plain select. -/
theorem where_src (P : (⟨S50000, .i1⟩ : BufTy).Contents (Elt Ideal)) (Q : (⟨S50000, .f32⟩ : BufTy).Contents (Elt Ideal))
    (z : (⟨S_, .f32⟩ : BufTy).Contents (Elt Ideal)) :
    (TRef.of (sig := sig) (T := ⟨S50000, .f32⟩) main_v12).toBuf (Val := Elt Ideal)
      (select ((TRef.of (sig := sig) (T := ⟨S50000, .i1⟩) main_v8).ofBuf (Val := Elt Ideal) P)
        ((TRef.of (sig := sig) (T := ⟨S50000, .f32⟩) main_v11).ofBuf (Val := Elt Ideal) Q)
        ((TRef.of (sig := sig) (T := ⟨S50000, .f32⟩) main_call0_v1).ofBuf (Val := Elt Ideal)
          ((TRef.of (sig := sig) (T := ⟨S50000, .f32⟩) main_call0_v1).toBuf (Val := Elt Ideal)
            (broadcastInDim S50000 ![] bcast_S_S50000
              ((TRef.of (sig := sig) (T := ⟨S_, .f32⟩) main_call0_v0).ofBuf (Val := Elt Ideal)
                ((TRef.of (sig := sig) (T := ⟨S_, .f32⟩) main_call0_v0).toBuf (Val := Elt Ideal)
                  (id ((TRef.of (sig := sig) (T := ⟨S_, .f32⟩) main_cst_4).ofBuf (Val := Elt Ideal) z))))))))
    = select P Q (broadcastInDim S50000 ![] bcast_S_S50000 z) := rfl

/-- The clip to zero of a normalisation goes through a called function whose buffers hold the same values: the
    select of the call is the plain select. -/
theorem where_dst (P : (⟨S50000, .i1⟩ : BufTy).Contents (Elt Ideal)) (Q : (⟨S50000, .f32⟩ : BufTy).Contents (Elt Ideal))
    (z : (⟨S_, .f32⟩ : BufTy).Contents (Elt Ideal)) :
    (TRef.of (sig := sig) (T := ⟨S50000, .f32⟩) main_v18).toBuf (Val := Elt Ideal)
      (select ((TRef.of (sig := sig) (T := ⟨S50000, .i1⟩) main_v14).ofBuf (Val := Elt Ideal) P)
        ((TRef.of (sig := sig) (T := ⟨S50000, .f32⟩) main_v17).ofBuf (Val := Elt Ideal) Q)
        ((TRef.of (sig := sig) (T := ⟨S50000, .f32⟩) main_call1_v1).ofBuf (Val := Elt Ideal)
          ((TRef.of (sig := sig) (T := ⟨S50000, .f32⟩) main_call1_v1).toBuf (Val := Elt Ideal)
            (broadcastInDim S50000 ![] bcast_S_S50000
              ((TRef.of (sig := sig) (T := ⟨S_, .f32⟩) main_call1_v0).ofBuf (Val := Elt Ideal)
                ((TRef.of (sig := sig) (T := ⟨S_, .f32⟩) main_call1_v0).toBuf (Val := Elt Ideal)
                  (id ((TRef.of (sig := sig) (T := ⟨S_, .f32⟩) main_cst_7).ofBuf (Val := Elt Ideal) z))))))))
    = select P Q (broadcastInDim S50000 ![] bcast_S_S50000 z) := rfl

theorem v19_at5 (c : Dev nD) : W5 m ρ c (Proc.devRef .tc main_v19) = nsCol m c := by
  show StableHlo.after hostOps0_4 (StableHlo.after hostOps0_3 (StableHlo.after hostOps0_2 (StableHlo.after hostOps0_1 (StableHlo.after hostOps0 (W0 m ρ c))))) (Proc.devRef .tc main_v19) = _
  simp only [hostOps0, hostOps0_1, hostOps0_2, hostOps0_3, hostOps0_4]
  after_results_simp
  rw [where_src]
  exact rfl
theorem v20_at5 (c : Dev nD) : W5 m ρ c (Proc.devRef .tc main_v20) = ndCol m c := by
  show StableHlo.after hostOps0_4 (StableHlo.after hostOps0_3 (StableHlo.after hostOps0_2 (StableHlo.after hostOps0_1 (StableHlo.after hostOps0 (W0 m ρ c))))) (Proc.devRef .tc main_v20) = _
  simp only [hostOps0, hostOps0_1, hostOps0_2, hostOps0_3, hostOps0_4]
  after_results_simp
  rw [where_dst]
  exact rfl
theorem v32_at5 (c : Dev nD) : W5 m ρ c (Proc.devRef .tc main_v32) = agg128 (m ((c : Thread nD τ).loc main_arg1)) (m ((c : Thread nD τ).loc main_arg2)) (x0 m c) := by
  show StableHlo.after hostOps0_4 (StableHlo.after hostOps0_3 (StableHlo.after hostOps0_2 (StableHlo.after hostOps0_1 (StableHlo.after hostOps0 (W0 m ρ c))))) (Proc.devRef .tc main_v32) = _
  simp only [hostOps0, hostOps0_1, hostOps0_2, hostOps0_3, hostOps0_4]
  after_results_simp
  rw [where_src]
  exact rfl
theorem v33_at5 (c : Dev nD) : W5 m ρ c (Proc.devRef .tc main_v33) = (truncf (F := Ideal) .bf16 (m ((c : Thread nD τ).loc main_arg3) : FVec Ideal S128x512 .f32) bitsLt_bf16_f32 : FVec Ideal S128x512 .bf16) := by
  show StableHlo.after hostOps0_4 (StableHlo.after hostOps0_3 (StableHlo.after hostOps0_2 (StableHlo.after hostOps0_1 (StableHlo.after hostOps0 (W0 m ρ c))))) (Proc.devRef .tc main_v33) = _
  simp only [hostOps0, hostOps0_1, hostOps0_2, hostOps0_3, hostOps0_4]
  after_results_simp
theorem v34_at5 (c : Dev nD) : W5 m ρ c (Proc.devRef .tc main_v34) = Cert.Row.rowOf (m ((c : Thread nD τ).loc main_arg4)) := by
  show StableHlo.after hostOps0_4 (StableHlo.after hostOps0_3 (StableHlo.after hostOps0_2 (StableHlo.after hostOps0_1 (StableHlo.after hostOps0 (W0 m ρ c))))) (Proc.devRef .tc main_v34) = _
  simp only [hostOps0, hostOps0_1, hostOps0_2, hostOps0_3, hostOps0_4]
  after_results_simp
  exact Cert.Row.shapeCast_row (m ((c : Thread nD τ).loc main_arg4)) shapeCasts_S512_S1x512

/-! ## Layer 1 -/

theorem v35_at6 (c : Dev nD) : W6 m ρ c (Proc.devRef .tc main_v35) = h1 m c :=
  (W6_arr m ρ c 4).trans ((Cert.KernelIdeal.Blocks.final0 (V5 m ρ) c).trans
    ((scaleDotBiasRelu_congr (v32_at5 m ρ c) (v20_at5 m ρ c) (v33_at5 m ρ c) (v34_at5 m ρ c)).trans
      (scaleDotBiasRelu_truncf _ _ _ _ _)))

/-! ## Layer 2 -/

theorem v36_at7 (c : Dev nD) : W7 m ρ c (Proc.devRef .tc main_v36) = (truncf (F := Ideal) .bf16 (m ((c : Thread nD τ).loc main_arg5) : FVec Ideal S512x64 .f32) bitsLt_bf16_f32 : FVec Ideal S512x64 .bf16) := by
  show StableHlo.after hostOps1 (W6 m ρ c) (Proc.devRef .tc main_v36) = _
  simp only [hostOps1]
  after_results_simp
  rw [keep_arg5_at6 m ρ c]
theorem v37_at8 (c : Dev nD) : W8 m ρ c (Proc.devRef .tc main_v37) = y2 m c :=
  (W8_arr m ρ c 3).trans ((Cert.KernelIdeal.Blocks.final1 (V7 m ρ) c).trans
    ((dotScale_congr ((keep_v35_at7 m ρ c).trans (v35_at6 m ρ c)) (v36_at7 m ρ c) ((keep_v19_at7 m ρ c).trans (v19_at5 m ρ c))).trans
      (dotScale_truncf _ _ _ _)))
theorem v47_at9 (c : Dev nD) : W9 m ρ c (Proc.devRef .tc main_v47) = agg64 (m ((c : Thread nD τ).loc main_arg1)) (m ((c : Thread nD τ).loc main_arg2)) (y2 m c) := by
  show StableHlo.after hostOps2 (W8 m ρ c) (Proc.devRef .tc main_v47) = _
  simp only [hostOps2]
  after_results_simp
  rw [keep_arg1_at8 m ρ c, keep_arg2_at8 m ρ c, v37_at8 m ρ c]
  rfl
theorem v48_at9 (c : Dev nD) : W9 m ρ c (Proc.devRef .tc main_v48) = Cert.Row.rowOf (m ((c : Thread nD τ).loc main_arg6)) := by
  show StableHlo.after hostOps2 (W8 m ρ c) (Proc.devRef .tc main_v48) = _
  simp only [hostOps2]
  after_results_simp
  rw [keep_arg6_at8 m ρ c]
  exact Cert.Row.shapeCast_row (m ((c : Thread nD τ).loc main_arg6)) shapeCasts_S64_S1x64
theorem v49_at10 (c : Dev nD) : W10 m ρ c (Proc.devRef .tc main_v49) = h2 m c :=
  (W10_arr m ρ c 3).trans ((Cert.KernelIdeal.Blocks.final2 (V9 m ρ) c).trans
    (scaleBiasRelu_congr (v47_at9 m ρ c) ((keep_v20_at9 m ρ c).trans (v20_at5 m ρ c)) (v48_at9 m ρ c)))

/-! ## Layer 3 -/

theorem v50_at11 (c : Dev nD) : W11 m ρ c (Proc.devRef .tc main_v50) = (truncf (F := Ideal) .bf16 (m ((c : Thread nD τ).loc main_arg7) : FVec Ideal S64x16 .f32) bitsLt_bf16_f32 : FVec Ideal S64x16 .bf16) := by
  show StableHlo.after hostOps3 (W10 m ρ c) (Proc.devRef .tc main_v50) = _
  simp only [hostOps3]
  after_results_simp
  rw [keep_arg7_at10 m ρ c]
theorem v51_at12 (c : Dev nD) : W12 m ρ c (Proc.devRef .tc main_v51) = y3 m c :=
  (W12_arr m ρ c 3).trans ((Cert.KernelIdeal.Blocks.final3 (V11 m ρ) c).trans
    ((dotScale_congr ((keep_v49_at11 m ρ c).trans (v49_at10 m ρ c)) (v50_at11 m ρ c) ((keep_v19_at11 m ρ c).trans (v19_at5 m ρ c))).trans
      (dotScale_truncf _ _ _ _)))
theorem v61_at13 (c : Dev nD) : W13 m ρ c (Proc.devRef .tc main_v61) = agg16 (m ((c : Thread nD τ).loc main_arg1)) (m ((c : Thread nD τ).loc main_arg2)) (y3 m c) := by
  show StableHlo.after hostOps4 (W12 m ρ c) (Proc.devRef .tc main_v61) = _
  simp only [hostOps4]
  after_results_simp
  rw [keep_arg1_at12 m ρ c, keep_arg2_at12 m ρ c, v51_at12 m ρ c]
  rfl
theorem v62_at13 (c : Dev nD) : W13 m ρ c (Proc.devRef .tc main_v62) = Cert.Row.rowOf (m ((c : Thread nD τ).loc main_arg8)) := by
  show StableHlo.after hostOps4 (W12 m ρ c) (Proc.devRef .tc main_v62) = _
  simp only [hostOps4]
  after_results_simp
  rw [keep_arg8_at12 m ρ c]
  exact Cert.Row.shapeCast_row (m ((c : Thread nD τ).loc main_arg8)) shapeCasts_S16_S1x16
theorem v63_at14 (c : Dev nD) : W14 m ρ c (Proc.devRef .tc main_v63) = h3 m c :=
  (W14_arr m ρ c 3).trans ((Cert.KernelIdeal.Blocks.final4 (V13 m ρ) c).trans
    (scaleBiasRelu_congr (v61_at13 m ρ c) ((keep_v20_at13 m ρ c).trans (v20_at5 m ρ c)) (v62_at13 m ρ c)))

/-! ## Layer 4 -/

theorem v64_at15 (c : Dev nD) : W15 m ρ c (Proc.devRef .tc main_v64) = (truncf (F := Ideal) .bf16 (m ((c : Thread nD τ).loc main_arg9) : FVec Ideal S16x2 .f32) bitsLt_bf16_f32 : FVec Ideal S16x2 .bf16) := by
  show StableHlo.after hostOps5 (W14 m ρ c) (Proc.devRef .tc main_v64) = _
  simp only [hostOps5]
  after_results_simp
  rw [keep_arg9_at14 m ρ c]
theorem v65_at16 (c : Dev nD) : W16 m ρ c (Proc.devRef .tc main_v65) = y4 m c :=
  (W16_arr m ρ c 3).trans ((Cert.KernelIdeal.Blocks.final5 (V15 m ρ) c).trans
    ((dotScale_congr ((keep_v63_at15 m ρ c).trans (v63_at14 m ρ c)) (v64_at15 m ρ c) ((keep_v19_at15 m ρ c).trans (v19_at5 m ρ c))).trans
      (dotScale_truncf _ _ _ _)))
theorem v75_at17 (c : Dev nD) : W17 m ρ c (Proc.devRef .tc main_v75) = agg2 (m ((c : Thread nD τ).loc main_arg1)) (m ((c : Thread nD τ).loc main_arg2)) (y4 m c) := by
  show StableHlo.after hostOps6 (W16 m ρ c) (Proc.devRef .tc main_v75) = _
  simp only [hostOps6]
  after_results_simp
  rw [keep_arg1_at16 m ρ c, keep_arg2_at16 m ρ c, v65_at16 m ρ c]
  rfl
theorem v76_at17 (c : Dev nD) : W17 m ρ c (Proc.devRef .tc main_v76) = Cert.Row.rowOf (m ((c : Thread nD τ).loc main_arg10)) := by
  show StableHlo.after hostOps6 (W16 m ρ c) (Proc.devRef .tc main_v76) = _
  simp only [hostOps6]
  after_results_simp
  rw [keep_arg10_at16 m ρ c]
  exact Cert.Row.shapeCast_row (m ((c : Thread nD τ).loc main_arg10)) shapeCasts_S2_S1x2

/-- The result buffer at the return: the four layers composed. -/
theorem v77_at18 (c : Dev nD) : W18 m ρ c (Proc.devRef .tc main_v77) = h4 m c :=
  (W18_arr m ρ c 3).trans ((Cert.KernelIdeal.Blocks.final6 (V17 m ρ) c).trans
    (scaleBiasRelu_congr (v75_at17 m ρ c) ((keep_v20_at17 m ρ c).trans (v20_at5 m ρ c)) (v76_at17 m ρ c)))

end Cert.KernelIdeal.KValue

end
-- ==== Proof.KRun.lean ====
/-
  The idealized kernel's run, with its result named. From any memory, every weakly fair execution of the program
  terminates without a fault; the final state holds, in the result buffer, the four layers composed of the launch
  contents of the argument arrays, and the argument arrays themselves unchanged. The run is the launch of the
  program's segments — stretches of host operations and the seven pallas_calls — whose last thread state owns every
  buffer at the contents the fold of the segments leaves; the result buffer is read from that state like an argument.
-/
import proofs.«131747_j2997887173231_1_alg».proof.Proof.Gen.KernelIdeal.Frame
import proofs.«131747_j2997887173231_1_alg».proof.Proof.KValue

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution terminates, the result buffer at the four layers composed, the arguments unchanged. -/
theorem run : θ_run defs (onTc (τ := τ) (main (F := Ideal))) ⟨m, fun _ => 0, ρ⟩ (fun r => ∀ c : Dev nD,
      r.2.mem ((c.tc : Thread nD τ).loc main_v77) = Cert.KernelIdeal.KValue.h4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨(h c _ (mem_uc main_v77 (by decide))).trans (Cert.KernelIdeal.KValue.v77_at18 m ρ c),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c)⟩)

end Cert.KernelIdeal.KRun

end
-- ==== Proof.RefValue.lean ====
/-
  The idealized reference computes the same four layers. Its whole @main is host operations: per layer the scaling of
  the rows by a normalisation column spread over the columns, `dot_general`, the bias spread over the rows, and a clip
  at zero, around the same gathers and scatter-adds over the edges as the kernel's host part. Each dense piece is one of
  the three steps of the layer forms, so the reference's result term, from arguments that agree with the kernel's, is the
  kernel's composed layers.
-/
import proofs.«131747_j2997887173231_1_alg».proof.Proof.RefRunPatched
import proofs.«131747_j2997887173231_1_alg».proof.Proof.LibLayerForms
import proofs.«131747_j2997887173231_1_alg».proof.Proof.KValue

set_option maxRecDepth 16384

noncomputable section

namespace Cert.ReferenceIdeal.RefValue

open Idealize.ShloMosaic Idealize.ShloMosaic.TcCoe Idealize.SL.Sem
open Cert.LayerForms

set_option maxHeartbeats 4000000 in
/-- The reference's result term, at arguments equal to the kernel's, is the kernel's four layers. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.ValueP.res_main_v102 (F := Ideal) m' c = Cert.KernelIdeal.KValue.h4 m c := by
  unfold Cert.ReferenceIdeal.ValueP.res_main_v102
  rw [h0, h1, h2, h3, h4, h5, h6, h7, h8, h9, h10]
  rw [host_scaleDotBiasRelu Cert.ReferenceIdeal.dot_S50000x128_S128x512_S50000x512_1_0_0_1_n_n rfl]
  rw [host_dotScale Cert.ReferenceIdeal.dot_S50000x512_S512x64_S50000x64_1_0_0_1_n_n rfl]
  rw [host_scaleBiasRelu (R := 50000) (N := 64)]
  rw [host_dotScale Cert.ReferenceIdeal.dot_S50000x64_S64x16_S50000x16_1_0_0_1_n_n rfl]
  rw [host_scaleBiasRelu (R := 50000) (N := 16)]
  rw [host_dotScale Cert.ReferenceIdeal.dot_S50000x16_S16x2_S50000x2_1_0_0_1_n_n rfl]
  rw [host_scaleBiasRelu (R := 50000) (N := 2)]
  rfl

end Cert.ReferenceIdeal.RefValue

end
-- ==== Proof.lean ====
/-
  The certificate: the kernel of a four-layer graph convolution against its reference.

  Both programs first turn the two edge lists into degree normalisations ns (by source) and nd (by destination), then
  apply four layers of  relu(nd ∘ A(ns ∘ ·)·W + b)  to the node features, A the sum over the edges into each destination.
  The reference projects before aggregating when that is cheaper, and so does the kernel, in the same order of
  operations: layer 1 is relu((nd ∘ A(ns ∘ x))·W₁ + b₁), layers 2–4 are relu(nd ∘ A(ns ∘ (h·W)) + b). The kernel does
  the dense pieces in seven pallas_calls over blocks of 2000 rows with bf16 operands for the products; on the extended
  reals the change of format is the identity, a product into a zero accumulator is the host's dot_general, and a block
  of rows of a dense step is the step of the blocks, so the two results are the same function of the arguments. No
  algebraic law beyond this re-association is needed, and the precondition is not used.

  The three frames: the two kernel programs by their generated frame certificates, the reference by its run with the
  result dropped. The idealization rewrote nothing, so the preservation claim is trivial.
-/
import proofs.«131747_j2997887173231_1_alg».proof.Defs
import proofs.«131747_j2997887173231_1_alg».proof.Proof.Gen.Kernel
import proofs.«131747_j2997887173231_1_alg».proof.Proof.Gen.Kernel.Frame
import proofs.«131747_j2997887173231_1_alg».proof.Proof.Gen.KernelIdeal
import proofs.«131747_j2997887173231_1_alg».proof.Proof.Gen.KernelIdeal.Frame
import proofs.«131747_j2997887173231_1_alg».proof.Proof.Gen.ReferenceIdeal
import proofs.«131747_j2997887173231_1_alg».proof.Proof.Gen.Pre_finite_inputs
import proofs.«131747_j2997887173231_1_alg».proof.Proof.RefRunPatched
import proofs.«131747_j2997887173231_1_alg».proof.Proof.KRun
import proofs.«131747_j2997887173231_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the four layers composed of the arguments. -/
theorem algebraic : Cert.algebraic_KernelIdeal_ReferenceIdeal := by
  intro m ρ m' ρ' _ hagree
  refine ⟨fun c => Cert.KernelIdeal.KValue.h4 m c, Cert.KernelIdeal.KRun.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10⟩ := hagree c
  exact Cert.ReferenceIdeal.RefValue.result_eq m m' c h0 h1 h2 h3 h4 h5 h6 h7 h8 h9 h10

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
